-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2x2048x512 : Shape := ⟨4, ![16, 2, 2048, 512]⟩
abbrev S1024x1024 : Shape := ⟨2, ![1024, 1024]⟩
abbrev S524288 : Shape := ⟨1, ![524288]⟩
abbrev S_ : Shape := ⟨0, ![]⟩

class Facts : Prop where
  bcast_S_S16x2x2048x512 : S_.BroadcastsInDim S16x2x2048x512 (![] : Fin 0 → Fin S16x2x2048x512.rank)
  reducesTo_S16x2x2048x512_S_d0_1_2_3 : S16x2x2048x512.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S524288 : S_.BroadcastsInDim S524288 (![] : Fin 0 → Fin S524288.rank)
  reducesTo_S524288_S_d0 : S524288.ReducesTo [0] S_

variable [Facts]

def fn_part1 {F : FTy → Type} [FloatOps F] (main_v13 : IVec S_ 1) (main_v15 : FVec F S524288 .f32) (main_cst_5 : FVec F S_ .f32) : IVec S_ 1 :=
  let main_v16 : FVec F S524288 .f32 := broadcastInDim S524288 ![] bcast_S_S524288 main_cst_5
  let main_v17 : IVec S524288 1 := cmpf .une main_v15 main_v16
  let main_c_6 : IVec S_ 1 := constantI S_ 1 1#1
  let main_v18 : IVec S_ 1 := (fun x v => Host.reduce IntOp.andi x v reducesTo_S524288_S_d0 h_S_) main_v17 main_c_6
  let main_v19 : IVec S_ 1 := andi main_v13 main_v18
  main_v19

def fn {F : FTy → Type} [FloatOps F] (main_arg0 : FVec F S16x2x2048x512 .f32) (main_arg1 : FVec F S1024x1024 .f32) (main_arg2 : FVec F S524288 .f32) : IVec S_ 1 :=
  let main_v0 : FVec F S16x2x2048x512 .f32 := Host.absf main_arg0
  let main_cst : FVec F S_ .f32 := constant S_ .f32 0x7F800000#32
  let main_v1 : FVec F S16x2x2048x512 .f32 := broadcastInDim S16x2x2048x512 ![] bcast_S_S16x2x2048x512 main_cst
  let main_v2 : IVec S16x2x2048x512 1 := cmpf .olt main_v0 main_v1
  let main_c : IVec S_ 1 := constantI S_ 1 1#1
  let main_v3 : IVec S_ 1 := (fun x v => Host.reduce IntOp.andi x v reducesTo_S16x2x2048x512_S_d0_1_2_3 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S524288 .f32 := Host.absf main_arg2
  let main_cst_2 : FVec F S_ .f32 := constant S_ .f32 0x7F800000#32
  let main_v10 : FVec F S524288 .f32 := broadcastInDim S524288 ![] bcast_S_S524288 main_cst_2
  let main_v11 : IVec S524288 1 := cmpf .olt main_v9 main_v10
  let main_c_3 : IVec S_ 1 := constantI S_ 1 1#1
  let main_v12 : IVec S_ 1 := (fun x v => Host.reduce IntOp.andi x v reducesTo_S524288_S_d0 h_S_) main_v11 main_c_3
  let main_v13 : IVec S_ 1 := andi main_v8 main_v12
  let main_cst_4 : FVec F S_ .f32 := constant S_ .f32 0x33D6BF95#32
  let main_v14 : FVec F S524288 .f32 := broadcastInDim S524288 ![] bcast_S_S524288 main_cst_4
  let main_v15 : FVec F S524288 .f32 := addf main_arg2 main_v14
  let main_cst_5 : FVec F S_ .f32 := constant S_ .f32 0x00000000#32
  fn_part1 (F := F) main_v13 main_v15 main_cst_5
-- ==== Kernel.lean ====
abbrev S16x2x2048x512 : Shape := ⟨4, ![16, 2, 2048, 512]⟩
abbrev S1024x1024 : Shape := ⟨2, ![1024, 1024]⟩
abbrev S524288 : Shape := ⟨1, ![524288]⟩
abbrev S512x1024 : Shape := ⟨2, ![512, 1024]⟩
abbrev S16x2048x256 : Shape := ⟨3, ![16, 2048, 256]⟩
abbrev S16x3x256 : Shape := ⟨3, ![16, 3, 256]⟩
abbrev S1x1x512x512 : Shape := ⟨4, ![1, 1, 512, 512]⟩
abbrev S1x512x256 : Shape := ⟨3, ![1, 512, 256]⟩
abbrev S1x3x256 : Shape := ⟨3, ![1, 3, 256]⟩
abbrev S3x256 : Shape := ⟨2, ![3, 256]⟩
abbrev S512x512 : Shape := ⟨2, ![512, 512]⟩
abbrev S515x256 : Shape := ⟨2, ![515, 256]⟩
abbrev S512x256 : Shape := ⟨2, ![512, 256]⟩
abbrev S1x256 : Shape := ⟨2, ![1, 256]⟩
abbrev S513x256 : Shape := ⟨2, ![513, 256]⟩
abbrev S2x256 : Shape := ⟨2, ![2, 256]⟩
abbrev S514x256 : Shape := ⟨2, ![514, 256]⟩
abbrev S16x524288 : Shape := ⟨2, ![16, 524288]⟩
abbrev S16x768 : Shape := ⟨2, ![16, 768]⟩
abbrev S16x525056 : Shape := ⟨2, ![16, 525056]⟩
abbrev S_ : Shape := ⟨0, ![]⟩
abbrev S1x524288 : Shape := ⟨2, ![1, 524288]⟩

abbrev nBuf : Space → Nat
  | .hbm => 22
  | .vmem => 11
  | .smem => 0
  | _ => 0

abbrev bufTy : (tb : Table) → Fin (tcTables nBuf tb) → BufTy
  | .hbm, ⟨0, _⟩ => ⟨S16x2x2048x512, .f32⟩
  | .hbm, ⟨1, _⟩ => ⟨S1024x1024, .f32⟩
  | .hbm, ⟨2, _⟩ => ⟨S524288, .f32⟩
  | .hbm, ⟨3, _⟩ => ⟨S512x1024, .f32⟩
  | .hbm, ⟨4, _⟩ => ⟨S512x1024, .f32⟩
  | .hbm, ⟨5, _⟩ => ⟨S16x2048x256, .f32⟩
  | .hbm, ⟨6, _⟩ => ⟨S16x3x256, .f32⟩
  | .hbm, ⟨7, _⟩ => ⟨S16x524288, .f32⟩
  | .hbm, ⟨8, _⟩ => ⟨S16x768, .f32⟩
  | .hbm, ⟨9, _⟩ => ⟨S16x525056, .f32⟩
  | .hbm, ⟨10, _⟩ => ⟨S_, .i32⟩
  | .hbm, ⟨11, _⟩ => ⟨S_, .i32⟩
  | .hbm, ⟨12, _⟩ => ⟨S16x524288, .f32⟩
  | .hbm, ⟨13, _⟩ => ⟨S_, .f32⟩
  | .hbm, ⟨14, _⟩ => ⟨S524288, .f32⟩
  | .hbm, ⟨15, _⟩ => ⟨S524288, .f32⟩
  | .hbm, ⟨16, _⟩ => ⟨S_, .f32⟩
  | .hbm, ⟨17, _⟩ => ⟨S524288, .f32⟩
  | .hbm, ⟨18, _⟩ => ⟨S524288, .f32⟩
  | .hbm, ⟨19, _⟩ => ⟨S1x524288, .f32⟩
  | .hbm, ⟨20, _⟩ => ⟨S16x524288, .f32⟩
  | .hbm, ⟨21, _⟩ => ⟨S16x524288, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S512x1024, .f32⟩
  | .local _ .vmem, ⟨5, _⟩ => ⟨S512x1024, .f32⟩
  | .local _ .vmem, ⟨6, _⟩ => ⟨S1x512x256, .f32⟩
  | .local _ .vmem, ⟨7, _⟩ => ⟨S1x512x256, .f32⟩
  | .local _ .vmem, ⟨8, _⟩ => ⟨S1x3x256, .f32⟩
  | .local _ .vmem, ⟨9, _⟩ => ⟨S1x3x256, .f32⟩
  | .local _ .vmem, ⟨10, _⟩ => ⟨S3x256, .f32⟩
  | _, _ => ⟨S16x2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v52 : BitVec 1 := Scalar.cmpi .eq arg1 c3_i32
  let v53 : BitVec 32 := Scalar.extui v52
  let c0_i32_25 : BitVec 32 := 0#32
  let v54 : BitVec 1 := Scalar.cmpi .ne v53 c0_i32_25
  v54

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S1024x1024_S512x1024_0_0 : S1024x1024.Slices ![0, 0] S512x1024
  slices_S1024x1024_S512x1024_512_0 : S1024x1024.Slices ![512, 0] S512x1024
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  slices_S512x1024_o0_0_S512x256 : S512x1024.Slices ![0, 0] S512x256
  concatenates_S512x256_S3x256_S515x256_d0 : Shape.Concatenates [S512x256, S3x256] S515x256 0
  slices_S512x1024_o0_256_S512x256 : S512x1024.Slices ![0, 256] S512x256
  concatenates_S1x256_S512x256_S513x256_d0 : Shape.Concatenates [S1x256, S512x256] S513x256 0
  concatenates_S513x256_S2x256_S515x256_d0 : Shape.Concatenates [S513x256, S2x256] S515x256 0
  slices_S512x1024_o0_512_S512x256 : S512x1024.Slices ![0, 512] S512x256
  concatenates_S2x256_S512x256_S514x256_d0 : Shape.Concatenates [S2x256, S512x256] S514x256 0
  concatenates_S514x256_S1x256_S515x256_d0 : Shape.Concatenates [S514x256, S1x256] S515x256 0
  slices_S512x1024_o0_768_S512x256 : S512x1024.Slices ![0, 768] S512x256
  concatenates_S3x256_S512x256_S515x256_d0 : Shape.Concatenates [S3x256, S512x256] S515x256 0
  inb_S3x256_S3x256_0_0 : ∀ a, (![0, 0] : Fin 2 → Nat) a + S3x256.size a ≤ S3x256.size a
  h_S3x256 : 0 < S3x256.numel
  shapeCasts_S3x256_S3x256 : S3x256.ShapeCasts S3x256
  slices_S515x256_o0_0_S3x256 : S515x256.Slices ![0, 0] S3x256
  slices_S515x256_o3_0_S512x256 : S515x256.Slices ![3, 0] S512x256
  slices_S515x256_o0_0_S512x256 : S515x256.Slices ![0, 0] S512x256
  slices_S515x256_o512_0_S3x256 : S515x256.Slices ![512, 0] S3x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  shapeCasts_S3x256_S1x3x256 : S3x256.ShapeCasts S1x3x256
  shapeCasts_S16x2048x256_S16x524288 : S16x2048x256.ShapeCasts S16x524288
  shapeCasts_S16x3x256_S16x768 : S16x3x256.ShapeCasts S16x768
  concatenates_S16x524288_S16x768_S16x525056_d1 : Shape.Concatenates [S16x524288, S16x768] S16x525056 1
  sliceFits_S16x525056_S16x524288 : S16x525056.Slices (fun _ => 0) S16x524288
  h_S_ : 0 < S_.numel
  bcast_S_S524288 : S_.BroadcastsInDim S524288 (![] : Fin 0 → Fin S524288.rank)
  bcast_S524288_S1x524288_1 : S524288.BroadcastsInDim S1x524288 (![1] : Fin 1 → Fin S1x524288.rank)
  bcast_S1x524288_S16x524288_0_1 : S1x524288.BroadcastsInDim S16x524288 (![0, 1] : Fin 2 → Fin S16x524288.rank)
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S16x2x2048x512.size a
  hwx0_0 : ∀ i : grid0.Coords, EltTy.bits .f32 = 32 ∨ (Rect.block (s := S16x2x2048x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S16x2x2048x512.size a
  hwx0_1 : ∀ i : grid0.Coords, EltTy.bits .f32 = 32 ∨ (Rect.block (s := S16x2x2048x512) S1x1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S16x2048x256.size a
  hwx0_4 : ∀ i : grid0.Coords, EltTy.bits .f32 = 32 ∨ (Rect.block (s := S16x2048x256) S1x512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3x256.size a ≤ S16x3x256.size a
  hwx0_5 : ∀ i : grid0.Coords, EltTy.bits .f32 = 32 ∨ (Rect.block (s := S16x3x256) S1x3x256.size (cc0_transform_5 i) (hinb0_5 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x3x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16x2x2048x512 : Shape := ⟨4, ![16, 2, 2048, 512]⟩
abbrev S1024x1024 : Shape := ⟨2, ![1024, 1024]⟩
abbrev S524288 : Shape := ⟨1, ![524288]⟩
abbrev S16x1x2048x512 : Shape := ⟨4, ![16, 1, 2048, 512]⟩
abbrev S16x2048x512 : Shape := ⟨3, ![16, 2048, 512]⟩
abbrev S16x2048x1024 : Shape := ⟨3, ![16, 2048, 1024]⟩
abbrev S2048 : Shape := ⟨1, ![2048]⟩
abbrev S2048x1 : Shape := ⟨2, ![2048, 1]⟩
abbrev S_ : Shape := ⟨0, ![]⟩
abbrev S1024 : Shape := ⟨1, ![1024]⟩
abbrev S1x1024 : Shape := ⟨2, ![1, 1024]⟩
abbrev S2048x1024 : Shape := ⟨2, ![2048, 1024]⟩
abbrev S16x525056 : Shape := ⟨2, ![16, 525056]⟩
abbrev S2048x1024x1 : Shape := ⟨3, ![2048, 1024, 1]⟩
abbrev S16x524288 : Shape := ⟨2, ![16, 524288]⟩
abbrev S1x524288 : Shape := ⟨2, ![1, 524288]⟩

abbrev nBuf : Space → Nat
  | .hbm => 40
  | .vmem => 0
  | .smem => 0
  | _ => 0

abbrev bufTy : (tb : Table) → Fin (tcTables nBuf tb) → BufTy
  | .hbm, ⟨0, _⟩ => ⟨S16x2x2048x512, .f32⟩
  | .hbm, ⟨1, _⟩ => ⟨S1024x1024, .f32⟩
  | .hbm, ⟨2, _⟩ => ⟨S524288, .f32⟩
  | .hbm, ⟨3, _⟩ => ⟨S16x1x2048x512, .f32⟩
  | .hbm, ⟨4, _⟩ => ⟨S16x2048x512, .f32⟩
  | .hbm, ⟨5, _⟩ => ⟨S16x1x2048x512, .f32⟩
  | .hbm, ⟨6, _⟩ => ⟨S16x2048x512, .f32⟩
  | .hbm, ⟨7, _⟩ => ⟨S16x2048x1024, .f32⟩
  | .hbm, ⟨8, _⟩ => ⟨S16x2048x1024, .f32⟩
  | .hbm, ⟨9, _⟩ => ⟨S2048, .i32⟩
  | .hbm, ⟨10, _⟩ => ⟨S2048x1, .i32⟩
  | .hbm, ⟨11, _⟩ => ⟨S_, .i32⟩
  | .hbm, ⟨12, _⟩ => ⟨S2048x1, .i32⟩
  | .hbm, ⟨13, _⟩ => ⟨S2048x1, .i32⟩
  | .hbm, ⟨14, _⟩ => ⟨S1024, .i32⟩
  | .hbm, ⟨15, _⟩ => ⟨S1x1024, .i32⟩
  | .hbm, ⟨16, _⟩ => ⟨S2048x1024, .i32⟩
  | .hbm, ⟨17, _⟩ => ⟨S2048x1024, .i32⟩
  | .hbm, ⟨18, _⟩ => ⟨S2048x1024, .i32⟩
  | .hbm, ⟨19, _⟩ => ⟨S_, .f32⟩
  | .hbm, ⟨20, _⟩ => ⟨S16x525056, .f32⟩
  | .hbm, ⟨21, _⟩ => ⟨S_, .i32⟩
  | .hbm, ⟨22, _⟩ => ⟨S2048x1024, .i32⟩
  | .hbm, ⟨23, _⟩ => ⟨S2048x1024, .i1⟩
  | .hbm, ⟨24, _⟩ => ⟨S_, .i32⟩
  | .hbm, ⟨25, _⟩ => ⟨S2048x1024, .i32⟩
  | .hbm, ⟨26, _⟩ => ⟨S2048x1024, .i32⟩
  | .hbm, ⟨27, _⟩ => ⟨S2048x1024, .i32⟩
  | .hbm, ⟨28, _⟩ => ⟨S2048x1024x1, .i32⟩
  | .hbm, ⟨29, _⟩ => ⟨S16x525056, .f32⟩
  | .hbm, ⟨30, _⟩ => ⟨S16x524288, .f32⟩
  | .hbm, ⟨31, _⟩ => ⟨S_, .f32⟩
  | .hbm, ⟨32, _⟩ => ⟨S16x524288, .f32⟩
  | .hbm, ⟨33, _⟩ => ⟨S16x524288, .f32⟩
  | .hbm, ⟨34, _⟩ => ⟨S1x524288, .f32⟩
  | .hbm, ⟨35, _⟩ => ⟨S_, .f32⟩
  | .hbm, ⟨36, _⟩ => ⟨S1x524288, .f32⟩
  | .hbm, ⟨37, _⟩ => ⟨S1x524288, .f32⟩
  | .hbm, ⟨38, _⟩ => ⟨S16x524288, .f32⟩
  | .hbm, ⟨39, _⟩ => ⟨S16x524288, .f32⟩
  | _, _ => ⟨S16x2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  slices_S16x2x2048x512_S16x1x2048x512_0_0_0_0 : S16x2x2048x512.Slices ![0, 0, 0, 0] S16x1x2048x512
  shapeCasts_S16x1x2048x512_S16x2048x512 : S16x1x2048x512.ShapeCasts S16x2048x512
  slices_S16x2x2048x512_S16x1x2048x512_0_1_0_0 : S16x2x2048x512.Slices ![0, 1, 0, 0] S16x1x2048x512
  concatenates_S16x2048x512_S16x2048x512_S16x2048x1024_d2 : Shape.Concatenates [S16x2048x512, S16x2048x512] S16x2048x1024 2
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1024_S1x1024_1 : S1024.BroadcastsInDim S1x1024 (![1] : Fin 1 → Fin S1x1024.rank)
  bcast_S2048x1_S2048x1024_0_1 : S2048x1.BroadcastsInDim S2048x1024 (![0, 1] : Fin 2 → Fin S2048x1024.rank)
  bcast_S1x1024_S2048x1024_0_1 : S1x1024.BroadcastsInDim S2048x1024 (![0, 1] : Fin 2 → Fin S2048x1024.rank)
  bcast_S_S16x525056 : S_.BroadcastsInDim S16x525056 (![] : Fin 0 → Fin S16x525056.rank)
  bcast_S_S2048x1024 : S_.BroadcastsInDim S2048x1024 (![] : Fin 0 → Fin S2048x1024.rank)
  bcast_S2048x1024_S2048x1024x1_0_1 : S2048x1024.BroadcastsInDim S2048x1024x1 (![0, 1] : Fin 2 → Fin S2048x1024x1.rank)
  slices_S16x525056_S16x524288_0_384 : S16x525056.Slices ![0, 384] S16x524288
  bcast_S_S16x524288 : S_.BroadcastsInDim S16x524288 (![] : Fin 0 → Fin S16x524288.rank)
  bcast_S524288_S1x524288_1 : S524288.BroadcastsInDim S1x524288 (![1] : Fin 1 → Fin S1x524288.rank)
  bcast_S_S1x524288 : S_.BroadcastsInDim S1x524288 (![] : Fin 0 → Fin S1x524288.rank)
  bcast_S1x524288_S16x524288_0_1 : S1x524288.BroadcastsInDim S16x524288 (![0, 1] : Fin 2 → Fin S16x524288.rank)
  dot_S16x2048x1024_S1024x1024_S16x2048x1024_2_0_01_1_n_n_wf : DotDims.WF S16x2048x1024 S1024x1024 S16x2048x1024 [2] [0] [0, 1] [1] [] []
  scatter_S16x525056_S2048x1024x1_S16x2048x1024_0_1_1_2_wf : ScatterDims.WF S16x525056 S2048x1024x1 S16x2048x1024 [0] [1] [1] 2

variable [Facts₀]

def dot_S16x2048x1024_S1024x1024_S16x2048x1024_2_0_01_1_n_n : DotDims S16x2048x1024 S1024x1024 S16x2048x1024 where
  lhsContracting := [2]
  rhsContracting := [0]
  lhsNonContracting := [0, 1]
  rhsNonContracting := [1]
  lhsBatch := []
  rhsBatch := []
  wf := dot_S16x2048x1024_S1024x1024_S16x2048x1024_2_0_01_1_n_n_wf
def scatter_S16x525056_S2048x1024x1_S16x2048x1024_0_1_1_2 : ScatterDims S16x525056 S2048x1024x1 S16x2048x1024 where
  updateWindowDims := [0]
  insertedWindowDims := [1]
  scatterDimsToOperandDims := [1]
  indexVectorDim := 2
  wf := scatter_S16x525056_S2048x1024x1_S16x2048x1024_0_1_1_2_wf

class Facts : Prop extends Facts₀ where

variable [Facts]
-- ==== Proof.FrLaunch.lean ====
/-
  The run of the whole program from the body obligation: the host operations before the kernel region, the region,
  the host operations after it.

  The region's six windows stage five arrays: the first two input windows are blocks of ONE array (the two halves of
  the second axis of x), so the region is entered with that array's full share divided between them, each half
  held at the array's contents throughout and joined again at the exit; the two slices of W are the other inputs and
  the two results the outputs. Everything else the program names bypasses the region untouched. After the region the
  results' buffers hold what the pipeline's account of the write-backs computes, and the remaining host operations
  run over them.
-/
import proofs.«182085_j25881472926130_2_alg».proof.Proof.Gen.KernelIdeal.Launch
import proofs.«182085_j25881472926130_2_alg».proof.Proof.Gen.KernelIdeal.Points
import Idealize.ShloMosaic.Lib.Pipeline.Regions
import Idealize.ShloMosaic.Lib.Pipeline.Frame
import Idealize.ShloMosaic.Lib.Pipeline.Kit

noncomputable section

namespace Cert.KernelIdeal.FrL

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F]

local notation "𝕄" => MT nD τ sig Unit (Elt F) ℕ (UR sig nD τ) ℕ

/-- The pipeline library's algebra is the whole of the certificate's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- Core `c`'s buffers at launch, as a valuation; -/
abbrev V₀ (c : Dev nD) : Valuation τ sig (Elt F) := fun b => m ((c : Dev nD), b)
/-- and when the region is entered: the two slices of W have been taken. -/
abbrev Vh (c : Dev nD) : Valuation τ sig (Elt F) := StableHlo.after hostOps0 (V₀ m c)
abbrev V (c : Dev nD) (b : Ref sig .tc) : Buf (Elt F) ((c : Thread nD τ).loc b) := Vh m c (Proc.devRef .tc b)

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers through the host operations: the core owing nothing, and its generator register. -/
abbrev R (c : Dev nD) : sProp 𝕄 := iprop((∃ W, owes (c : Thread nD τ) (0 : CellTallies nD τ sig Unit) W) ∗ ∃ r, prngReg c r)

/-- The two slices: the host operations before the region, over the unscoped buffers. -/
def seg0 : Pipeline.HostSeg (Name := ℕ) (U := UR sig nD τ) (pcfgs (F := F)) defs₀ 𝒱₀ L lv :=
  Pipeline.HostSeg.ofOps _ _ _ _ _ (ucRefs τ sig) hostOps0 (fun op h => Pipeline.sub_ucRefs op ((List.forall_iff_forall_mem.mp hostOps0_sub) op h))
    (by intro _ h; (repeat (cases h with | head => rfl | tail _ h => ?_)); exact nomatch h) (V₀ m) R

/-! ## The region, for any proof data of the right shape -/

section Region

variable (dats : (p : Fin 1) → (c : Dev nD) → Dat τ (Elt F) Unit ℕ (UR sig nD τ) ℕ (cfgs p) c)
  (hA : ∀ c w, (dats 0 c).A w = V m c (Pipeline.arrRef spec0 w))
  (hq0 : ∀ c, (dats 0 c).q 0 = fullShare.left) (hq1 : ∀ c, (dats 0 c).q 1 = fullShare.right)
  (hq2 : ∀ c, (dats 0 c).q 2 = fullShare) (hq3 : ∀ c, (dats 0 c).q 3 = fullShare)
  (howed : ∀ c t, (dats 0 c).owed t = 0) (hrec : ∀ c, (dats 0 c).recorded 0 = Set.univ)
  (hbody : ∀ c, BodyObligation (dats 0 c) (defs₀ (F := F)) 𝒱₀ () Set.univ)
  (hin : ∀ c, Pipeline.ΦA (U := UR sig nD τ) spec0 c ⊢ (dats 0 c).Φ 0)
  (hout : ∀ c, (dats 0 c).Φ (Fin.last cfg0.N) ⊢ Pipeline.ΦA (U := UR sig nD τ) spec0 c)

/-- Core `c`'s buffers when the region is left: the two results at what the pipeline wrote back, the rest as entered. -/
def Vx (c : Dev nD) : Valuation τ sig (Elt F) :=
  Function.update (Function.update (Vh m c) (Proc.devRef .tc main_v2_0) ((dats 0 c).arrAt 4 cfg0.N))
    (Proc.devRef .tc main_v2_1) ((dats 0 c).arrAt 5 cfg0.N)

/-- The host operations after the region, over the unscoped buffers. -/
def seg1 : Pipeline.HostSeg (Name := ℕ) (U := UR sig nD τ) (pcfgs (F := F)) defs₀ 𝒱₀ L lv :=
  Pipeline.HostSeg.ofOps _ _ _ _ _ (ucRefs τ sig) hostOps1 (fun op h => Pipeline.sub_ucRefs op ((List.forall_iff_forall_mem.mp hostOps1_sub) op h))
    (by intro _ h; (repeat (cases h with | head => rfl | tail _ h => ?_)); exact nomatch h) (Vx m dats) R

include hq0 in
/-- The shares the six windows hold their arrays at. -/
theorem share0 (c : Dev nD) : (dats 0 c).share 0 = fullShare.left := by
  unfold Dat.share; rw [if_neg (by decide)]; exact hq0 c
include hq1 in
theorem share1 (c : Dev nD) : (dats 0 c).share 1 = fullShare.right := by
  unfold Dat.share; rw [if_neg (by decide)]; exact hq1 c
include hq2 in
theorem share2 (c : Dev nD) : (dats 0 c).share 2 = fullShare := by
  unfold Dat.share; rw [if_neg (by decide)]; exact hq2 c
include hq3 in
theorem share3 (c : Dev nD) : (dats 0 c).share 3 = fullShare := by
  unfold Dat.share; rw [if_neg (by decide)]; exact hq3 c
theorem share4 (c : Dev nD) : (dats 0 c).share 4 = fullShare := by
  unfold Dat.share; rw [if_pos (by decide)]
theorem share5 (c : Dev nD) : (dats 0 c).share 5 = fullShare := by
  unfold Dat.share; rw [if_pos (by decide)]

/-- The five buffers behind the six windows, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2_0) ↦{fullShare} W main_v2_0)
          ∗ (((c : Thread nD τ).loc main_v2_1) ↦{fullShare} W main_v2_1)) := by
  unfold Pipeline.arrBufs
  exact bigSep_eq_bigSepL_of_eq [main_arg0, main_v0, main_v1, main_v2_0, main_v2_1] (by decide) (by decide) _

include hq0 hq1 hq2 hq3 in
/-- The six windows' arrays at contents `G`, one by one at their shares. -/
theorem arrays_eq (c : Dev nD) (G : (w : Fin cfg0.W) → Buf (Elt F) ((cfg0.win w).arr.view.loc (c : Thread nD τ))) :
    ((dats 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2_0) ↦{fullShare} G 4) ∗ (((c : Thread nD τ).loc main_v2_1) ↦{fullShare} G 5)) := by
  unfold Dat.arrays
  rw [bigSep_W0, share0 dats hq0, share1 dats hq1, share2 dats hq2, share3 dats hq3, share4 dats, share5 dats]
  simp only [(arr_whole0 0).set_eq_univ, (arr_whole0 1).set_eq_univ, (arr_whole0 2).set_eq_univ, (arr_whole0 3).set_eq_univ,
    (arr_whole0 4).set_eq_univ, (arr_whole0 5).set_eq_univ]

include hA hq0 hq1 hq2 hq3 in
/-- ENTRY, the arrays: the five buffers at the entry contents are the six windows' arrays at theirs, the array the first
    two windows share divided between them. -/
theorem arrays_entry (c : Dev nD) :
    (Pipeline.arrBufs (Ix := Unit) (Name := ℕ) (U := UR sig nD τ) (Lvl := ℕ) spec0 c (V m c) : sProp 𝕄)
      ⊢ (dats 0 c).arrays ((dats 0 c).arrAt · 0) := by
  rw [arrBufs_eq, arrays_eq dats hq0 hq1 hq2 hq3]
  rw [show (dats 0 c).arrAt 0 0 = V m c main_arg0 from hA c 0, show (dats 0 c).arrAt 1 0 = V m c main_arg0 from hA c 1,
    show (dats 0 c).arrAt 2 0 = V m c main_v0 from hA c 2, show (dats 0 c).arrAt 3 0 = V m c main_v1 from hA c 3,
    show (dats 0 c).arrAt 4 0 = V m c main_v2_0 from hA c 4, show (dats 0 c).arrAt 5 0 = V m c main_v2_1 from hA c 5]
  iintro ⟨H0, Hv0, Hv1, H20, H21⟩
  ihave H0' := (pointsTo_share (PosShare.mem_left_op_right fullShare)).1 $$ H0
  icases H0' with ⟨H0l, H0r⟩
  isplitl [H0l]; · iexact H0l
  isplitl [H0r]; · iexact H0r
  isplitl [Hv0]; · iexact Hv0
  isplitl [Hv1]; · iexact Hv1
  isplitl [H20]; · iexact H20
  iexact H21

/-! ### The exit valuation at the references the region names -/

theorem Vx_of_ne (c : Dev nD) (b : Ref sig .tc) (h0 : b ≠ main_v2_0) (h1 : b ≠ main_v2_1) :
    Vx m dats c (Proc.devRef .tc b) = Vh m c (Proc.devRef .tc b) := by
  unfold Vx
  rw [Function.update_of_ne (StableHlo.devRef_ne_of_ne h1), Function.update_of_ne (StableHlo.devRef_ne_of_ne h0)]

theorem Vx_v2_0 (c : Dev nD) : Vx m dats c (Proc.devRef .tc main_v2_0) = (dats 0 c).arrAt 4 cfg0.N := by
  unfold Vx
  rw [Function.update_of_ne (StableHlo.devRef_ne_of_ne (by decide)), Function.update_self]

theorem Vx_v2_1 (c : Dev nD) : Vx m dats c (Proc.devRef .tc main_v2_1) = (dats 0 c).arrAt 5 cfg0.N := by
  unfold Vx
  rw [Function.update_self]

include hA hq0 hq1 hq2 hq3 in
/-- EXIT, the arrays: the six windows' arrays at their final contents are the five buffers at the exit valuation — an
    input's array ends as it began, so the two halves of the shared one join again. -/
theorem arrays_exit (c : Dev nD) :
    ((dats 0 c).arrays ((dats 0 c).arrAt · cfg0.N) : sProp 𝕄)
      ⊢ Pipeline.arrBufs (Ix := Unit) (Name := ℕ) (U := UR sig nD τ) (Lvl := ℕ) spec0 c (fun b => Vx m dats c (Proc.devRef .tc b)) := by
  rw [arrBufs_eq, arrays_eq dats hq0 hq1 hq2 hq3]
  beta_reduce
  rw [Vx_of_ne m dats c main_arg0 (by decide) (by decide), Vx_of_ne m dats c main_v0 (by decide) (by decide),
    Vx_of_ne m dats c main_v1 (by decide) (by decide), Vx_v2_0, Vx_v2_1]
  rw [show (dats 0 c).arrAt 0 cfg0.N = V m c main_arg0 from ((dats 0 c).arrAt_in 0 rfl _).trans (hA c 0),
    show (dats 0 c).arrAt 1 cfg0.N = V m c main_arg0 from ((dats 0 c).arrAt_in 1 rfl _).trans (hA c 1),
    show (dats 0 c).arrAt 2 cfg0.N = V m c main_v0 from ((dats 0 c).arrAt_in 2 rfl _).trans (hA c 2),
    show (dats 0 c).arrAt 3 cfg0.N = V m c main_v1 from ((dats 0 c).arrAt_in 3 rfl _).trans (hA c 3)]
  iintro ⟨H0l, H0r, Hv0, Hv1, H20, H21⟩
  ihave H0 := (pointsTo_share (PosShare.mem_left_op_right fullShare)).2 $$ [H0l H0r]
  · isplitl [H0l] <;> iassumption
  isplitl [H0]; · iexact H0
  isplitl [Hv0]; · iexact Hv0
  isplitl [Hv1]; · iexact Hv1
  isplitl [H20]; · iexact H20
  iexact H21

/-- What bypasses the region is the same at the exit valuation. -/
theorem rest_exit (c : Dev nD) :
    (Pipeline.unscopedRest (Ix := Unit) (Name := ℕ) (U := UR sig nD τ) (Lvl := ℕ) spec0 c (fun b => Vx m dats c (Proc.devRef .tc b)) : sProp 𝕄)
      = Pipeline.unscopedRest spec0 c (V m c) := by
  unfold Pipeline.unscopedRest
  refine bigSep_congr fun b hb => ?_
  have hb' := (Finset.mem_sdiff.mp hb).2
  beta_reduce
  rw [Vx_of_ne m dats c b (fun h => hb' (h ▸ Finset.mem_image.mpr ⟨4, Finset.mem_univ _, rfl⟩))
    (fun h => hb' (h ▸ Finset.mem_image.mpr ⟨5, Finset.mem_univ _, rfl⟩))]

/-! ### The region as a segment of the program -/

set_option backward.isDefEq.respectTransparency.types false in
include hA hq0 hq1 hq2 hq3 howed hrec hbody hin hout in
/-- THE REGION: the decided layout, no semaphore of the kernel's own, the body obligation; entered from what the two
    slices left — the five buffers behind the windows into the pipeline, the generator register into the invariant,
    every other buffer bypassing —, left with the two results at what was written back. -/
def reg0 : Pipeline.RegionSeg (pcfgs (F := F)) adm dats () defs₀ 𝒱₀ L lv 0 where
  win := winFacts₀0
  block_pos := block_pos0
  stage_whole := stage_whole0
  K := PEmpty
  osem := fun k => k.elim
  ho := Pipeline.OwnSemFacts.none spec0
  hbody c := (hbody c).loose
  hwaits := Pipeline.hwaits_of_owed_zero _ _ _ _ L lv 0 fun c t => howed c t
  pre c := iprop(StableHlo.held (c : Thread nD τ) (ucRefs τ sig) (Vh m c) ∗ R c)
  post c := iprop(StableHlo.held (c : Thread nD τ) (ucRefs τ sig) (Vx m dats c) ∗ R c)
  X c := iprop(∃ r, prngReg c r)
  Y c := iprop(∃ r, prngReg c r)
  Z c := Pipeline.unscopedRest spec0 c (V m c)
  hentry c := by
    rw [show StableHlo.held (c : Thread nD τ) (ucRefs τ sig) (Vh m c) = unscopedBufs c (V m c) from (Pipeline.unscopedBufs_held c _).symm,
      Pipeline.unscopedBufs_split₀ cfgs 0 winFacts₀0.arr_unscoped c (V m c)]
    iintro ⟨⟨⟨Hab, Hrest⟩, ⟨%W, HO⟩, Hg⟩, -, -⟩
    ihave Ha := (arrays_entry m dats hA hq0 hq1 hq2 hq3 c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      iexists W; isplitr; · ipureintro; exact fun _ _ => Or.inl (by rw [hrec c]; trivial)
      iexact HO
    isplitl [Hg]; · iexact Hg
    iexact Hrest
  hin c := by
    refine BIBase.Entails.trans ?_ (hin c)
    unfold Pipeline.ΦA
    iintro ⟨Hg, -, Hr⟩
    isplitl [Hr] <;> iassumption
  hout c := by
    refine (hout c).trans ?_
    unfold Pipeline.ΦA
    rw [Pipeline.ownSems0_none]
    iintro ⟨Hr, Hg⟩
    isplitl [Hg]; · iexact Hg
    isplitr; · iempintro
    iexact Hr
  hexit c := by
    rw [show StableHlo.held (c : Thread nD τ) (ucRefs τ sig) (Vx m dats c) = unscopedBufs c (fun b => Vx m dats c (Proc.devRef .tc b)) from (Pipeline.unscopedBufs_held c _).symm,
      Pipeline.unscopedBufs_split₀ cfgs 0 winFacts₀0.arr_unscoped c, rest_exit]
    iintro ⟨Ha, HO, Hg, Hrest⟩
    ihave Hab := (arrays_exit m dats hA hq0 hq1 hq2 hq3 c) $$ Ha
    imodintro
    isplitl [Hab Hrest]
    · isplitl [Hab] <;> iassumption
    isplitl [HO]
    · unfold Pipeline.Dat.owesAt Pipeline.owesWithin
      rw [howed c (Fin.last _)]
      icases HO with ⟨%W, -, HO⟩; iexists W; iexact HO
    iexact Hg

/-! ### The run -/

/-- @main as the list of its three segments. -/
abbrev segs : List (Pipeline.Seg (pcfgs (F := F)) adm dats () defs₀ 𝒱₀ L lv) :=
  [.host (seg0 m), .region (reg0 m dats hA hq0 hq1 hq2 hq3 howed hrec hbody hin hout), .host (seg1 m dats)]

/-- The launch element: the pipeline library's at the staging cells. -/
def u₀ : UR sig nD τ := initOf (Pipeline.cells cfgs cellOf_inj) (Pipeline.launchToks cfgs cellOf_inj)

/-- What the run ends with: every unscoped buffer of every core at what the operations after the region leave, run
    from the region's exit valuation. -/
def QC : PUnit × MemSt nD τ sig (Elt F) → Prop := fun r =>
  ∀ c : Dev nD, ∀ b ∈ ucRefs τ sig, r.2.mem ((c : Dev nD), b) = StableHlo.after hostOps1 (Vx m dats c) b

set_option backward.isDefEq.respectTransparency.types false in
include hA hq0 hq1 hq2 hq3 howed hrec hbody hin hout in
/-- From any memory with zero counters every weakly fair execution of @main on the TensorCores terminates, nothing
    faulting, and every final state holds, in every unscoped buffer, what the host operations after the region compute
    from the region's exit valuation. -/
theorem run_main : θ_run defs (onTc (τ := τ) (main (F := F))) (s₀ m ρ) (QC m dats) :=
  Pipeline.θ_run_regions_kit (pcfgs (F := F)) adm dats () cellOf_inj EP defs₀ 𝒱₀ L lv m ρ main (segs m dats hA hq0 hq1 hq2 hq3 howed hrec hbody hin hout)
    (fun c Q => by rw [main_segs adm dats () 𝒱₀ L lv (seg0 m) (seg1 m dats) (reg0 m dats hA hq0 hq1 hq2 hq3 howed hrec hbody hin hout) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m c) ∗ R c))
    (Tₙ := fun c => iprop(StableHlo.held (c : Thread nD τ) (ucRefs τ sig) (StableHlo.after hostOps1 (Vx m dats c)) ∗ ∃ r, prngReg c r))
    (hch := ⟨fun _ => .rfl, fun _ => .rfl, fun _ => .rfl, fun c => by
      show iprop(StableHlo.held (c : Thread nD τ) (ucRefs τ sig) (StableHlo.after hostOps1 (Vx m dats c)) ∗ R c) ⊢ _
      iintro ⟨Hh, HO, Hg⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (ucRefs τ sig) (V₀ m c) from Pipeline.unscopedBufs_held c (V₀ m c)]
      iintro ⟨⟨Hh, -, HO, -, Hg, -⟩, -⟩
      imodintro
      isplitl [Hh]; · iexact Hh
      isplitl [HO]; · iexists ∅; iexact HO
      iexists _; iexact Hg)
    (QY := fun c s => ∀ b ∈ ucRefs τ sig, s.mem ((c : Dev nD), b) = StableHlo.after hostOps1 (Vx m dats c) b)
    (hfin := fun c s' => by
      unfold StableHlo.held
      iintro ⟨⟨Hh, -⟩, HSI⟩
      ihave Hr := (pointsTo_read_all (ucRefs τ sig) (fun b => (((c : Thread nD τ).1, b) : Loc nD τ sig)) (StableHlo.after hostOps1 (Vx m dats c)) s') $$ [Hh HSI]
      · isplitl [Hh] <;> iassumption
      icases Hr with ⟨%ha, HSI⟩
      imodintro
      isplitr; · ipureintro; exact ha
      iexact HSI)
    (hQ := fun _ h => h)

end Region

end Cert.KernelIdeal.FrL

end
-- ==== Proof.FrRuns.lean ====
/-
  What the runs of the kernel body and the pipeline's proof data share: the buffer contents when the region is
  entered, the windows' blocks, the body's two branch conditions in closed form over the grid, where the windows
  are idle, the staging and scratch memrefs, and the region invariant with the scratch as an owned memref.
-/
import proofs.«182085_j25881472926130_2_alg».proof.Proof.Gen.KernelIdeal.Launch
import proofs.«182085_j25881472926130_2_alg».proof.Proof.Gen.KernelIdeal.Skeleton
import proofs.«182085_j25881472926130_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents when the region is entered -/

/-- Core `c`'s TensorCore buffer contents when the region is entered, as a valuation: after the two slices of
    the second argument that precede the region. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The two slices write only their own results. -/
theorem not_written0 (b : Ref sig .tc) (hb : b ≠ main_v0 ∧ b ≠ main_v1) :
    ∀ op ∈ (hostOps0 (F := F)), Proc.devRef .tc b ∉ op.writes := by
  obtain ⟨h0, h1⟩ := hb
  intro op hop
  simp only [hostOps0, List.mem_cons, List.mem_nil_iff, or_false] at hop
  rcases hop with rfl | rfl <;>
    simp only [StableHlo.unary_writes, Finset.mem_singleton] <;>
    exact StableHlo.devRef_ne_of_ne ‹_›

/-- The three arguments reach the region as launched. -/
theorem V_main_arg0 (c : Dev nD) : V m c main_arg0 = m ((c : Thread nD τ).loc main_arg0) :=
  StableHlo.after_of_forall_not_mem (b := Proc.devRef .tc main_arg0) hostOps0 (fun b => m (c, b)) (not_written0 main_arg0 (by decide))
theorem V_main_arg1 (c : Dev nD) : V m c main_arg1 = m ((c : Thread nD τ).loc main_arg1) :=
  StableHlo.after_of_forall_not_mem (b := Proc.devRef .tc main_arg1) hostOps0 (fun b => m (c, b)) (not_written0 main_arg1 (by decide))
theorem V_main_arg2 (c : Dev nD) : V m c main_arg2 = m ((c : Thread nD τ).loc main_arg2) :=
  StableHlo.after_of_forall_not_mem (b := Proc.devRef .tc main_arg2) hostOps0 (fun b => m (c, b)) (not_written0 main_arg2 (by decide))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's condition, from the grid coordinates: the second coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition: the second coordinate is three. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The four inputs and the first output are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the second coordinate is zero the second output is idle and its block is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- Where it is one or two likewise. -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- Where it is three the second output is live. -/
theorem liveAt0_5_C : ∀ t : Fin cfg0.N, ¬cond0_0 (grid0.coords t) → cond0_1 (grid0.coords t) → cfg0.idle 5 (grid0.coords t) = false := by decide +kernel

/-! ## The staging and scratch memrefs -/

/-- One staging buffer of each output, through which its contents are stated. -/
abbrev VO0_4 : View sig .tc .vmem S1x512x256 .f32 := (Memref.whole cc0_stg4_0 : Memref sig .tc .vmem S1x512x256 .f32).view
abbrev VO0_5 : View sig .tc .vmem S1x3x256 .f32 := (Memref.whole cc0_stg5_0 : Memref sig .tc .vmem S1x3x256 .f32).view
/-- Each window's current staging memref at point `t`, and its wholeness. -/
abbrev ms0_0 (t : Fin cfg0.N) : Memref sig .tc .vmem S1x1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3x256 .f32 := win0_5.stage (cfg0.slots t 5)
abbrev hs0_5 (t : Fin cfg0.N) : (ms0_5 t).IsWhole := hstage0_5 ((cfg0.slots t 5).cast nbuf0_5)
/-- The scratch operand: a whole scoped buffer, passed beside the windows. -/
abbrev scM0_0 : Memref sig .tc .vmem S3x256 .f32 := Memref.whole cc0_scratch0
/-- The scratch as a view: what it holds is stated through it. -/
abbrev VS0_0 : View sig .tc .vmem S3x256 .f32 := scM0_0.view

/-- The region's entry invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.FrRunA.lean ====
/-
  The kernel body run whole where the second grid coordinate is zero: the first conditional is taken, the second is not.
-/
import proofs.«182085_j25881472926130_2_alg».proof.Proof.FrRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave, as pieces (last first), in the first output's staging memref, the second output's
    and the scratch, where the second grid coordinate is zero: the first conditional is taken, the second is not; with the proof that on
    whole memrefs — the four inputs' at their contents, the first output's at anything, the second output's at
    contents handed back untouched, the scratch at anything — the body runs to a continuation holding the inputs' as they
    were and each buffer it stored into with its pieces written. -/
noncomputable def kernelRun0_A (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : cond0_0 i) (hc1 : ¬cond0_1 i)
    (x0 : Vec F S1x1x512x512 .f32) (x1 : Vec F S1x1x512x512 .f32) (x2 : Vec F S512x1024 .f32) (x3 : Vec F S512x1024 .f32) :
    Σ' (L4 : List (View.Piece (Elt F) S1x512x256 .f32)) (L5 : List (View.Piece (Elt F) S1x3x256 .f32)), { LS0 : List (View.Piece (Elt F) S3x256 .f32) //
      ∀ (xi5 : Vec F S1x3x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, [], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.KernelIdeal.Fr

end
-- ==== Proof.FrRunB.lean ====
/-
  The kernel body run whole where the second grid coordinate is one or two: neither conditional is taken.
-/
import proofs.«182085_j25881472926130_2_alg».proof.Proof.FrRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave, as pieces (last first), in the first output's staging memref, the second output's
    and the scratch, where the second grid coordinate is one or two: neither conditional is taken; with the proof that on
    whole memrefs — the four inputs' at their contents, the first output's at anything, the second output's at
    contents handed back untouched, the scratch at what the point before left — the body runs to a continuation holding the inputs' as they
    were and each buffer it stored into with its pieces written. -/
noncomputable def kernelRun0_B (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : ¬cond0_1 i)
    (x0 : Vec F S1x1x512x512 .f32) (x1 : Vec F S1x1x512x512 .f32) (x2 : Vec F S512x1024 .f32) (x3 : Vec F S512x1024 .f32) (xs0 : Vec F S3x256 .f32) :
    Σ' (L4 : List (View.Piece (Elt F) S1x512x256 .f32)) (L5 : List (View.Piece (Elt F) S1x3x256 .f32)), { LS0 : List (View.Piece (Elt F) S3x256 .f32) //
      ∀ (xi5 : Vec F S1x3x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, [], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.KernelIdeal.Fr

end
-- ==== Proof.FrRunC.lean ====
/-
  The kernel body run whole where the second grid coordinate is three: the first conditional is not taken, the second is.
-/
import proofs.«182085_j25881472926130_2_alg».proof.Proof.FrRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave, as pieces (last first), in the first output's staging memref, the second output's
    and the scratch, where the second grid coordinate is three: the first conditional is not taken, the second is; with the proof that on
    whole memrefs — the four inputs' at their contents, the first output's at anything, the second output's at
    anything, the scratch at what the point before left — the body runs to a continuation holding the inputs' as they
    were and each buffer it stored into with its pieces written. -/
noncomputable def kernelRun0_C (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) :
    Σ' (L4 : List (View.Piece (Elt F) S1x512x256 .f32)) (L5 : List (View.Piece (Elt F) S1x3x256 .f32)), { LS0 : List (View.Piece (Elt F) S3x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Fr

end
-- ==== Proof.FrData.lean ====
/-
  The pipeline's proof data: what the two outputs' staging buffers and the carried scratch hold after the body at
  each point (per case, then point by point along the grid), the invariant between points, the data themselves, and
  the body obligation at every point; with the entailments between the region's entry invariant and the data's at
  the grid's ends.
-/
import proofs.«182085_j25881472926130_2_alg».proof.Proof.FrRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves -/

/-! ### Where the second grid coordinate is zero: the first conditional is taken, the second is not -/

/-- The pieces for the first output tile its block, so they cover it. -/
theorem cover0_A_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : cond0_0 i) (hc1 : ¬cond0_1 i)
    (x0 : Vec F S1x1x512x512 .f32) (x1 : Vec F S1x1x512x512 .f32) (x2 : Vec F S512x1024 .f32) (x3 : Vec F S512x1024 .f32) (y : S1x512x256.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S1x512x256.size (by sl_kernel_rfl) y

/-- What is left in the first output's staging buffer: its pieces read back over junk. -/
def out0_A_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : cond0_0 i) (hc1 : ¬cond0_1 i)
    (x0 : Vec F S1x1x512x512 .f32) (x1 : Vec F S1x1x512x512 .f32) (x2 : Vec F S512x1024 .f32) (x3 : Vec F S512x1024 .f32) : Vec F S1x512x256 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)

/-- Nothing is stored into the second output here, and its block is not written back: no pieces; a placeholder
    that nothing consults. -/
def out0_A_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : cond0_0 i) (hc1 : ¬cond0_1 i)
    (x0 : Vec F S1x1x512x512 .f32) (x1 : Vec F S1x1x512x512 .f32) (x2 : Vec F S512x1024 .f32) (x3 : Vec F S512x1024 .f32) : Vec F S1x3x256 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3).2.1)

/-- The pieces for the scratch cover it. -/
theorem scover0_A_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : cond0_0 i) (hc1 : ¬cond0_1 i)
    (x0 : Vec F S1x1x512x512 .f32) (x1 : Vec F S1x1x512x512 .f32) (x2 : Vec F S512x1024 .f32) (x3 : Vec F S512x1024 .f32) (y : S3x256.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  View.cover_of_tiledL (kernelRun0_A c i arg2 harg2 arg3 harg3 arg4 harg4 arg5 harg5 arg6 harg6 arg7 harg7 arg8 harg8 hc0 hc1 x0 x1 x2 x3).2.2.1 S3x256.size (by sl_kernel_rfl) y

/-- What is left in the scratch: its pieces read back over junk. -/
def sout0_A_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : cond0_0 i) (hc1 : ¬cond0_1 i)
    (x0 : Vec F S1x1x512x512 .f32) (x1 : Vec F S1x1x512x512 .f32) (x2 : Vec F S512x1024 .f32) (x3 : Vec F S512x1024 .f32) : Vec F S3x256 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.2.1)

/-! ### Where the second grid coordinate is one or two: neither conditional is taken -/

/-- The pieces for the first output tile its block, so they cover it. -/
theorem cover0_B_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : ¬cond0_1 i)
    (x0 : Vec F S1x1x512x512 .f32) (x1 : Vec F S1x1x512x512 .f32) (x2 : Vec F S512x1024 .f32) (x3 : Vec F S512x1024 .f32) (xs0 : Vec F S3x256 .f32) (y : S1x512x256.Idx) :
    ∃ pc ∈ (kernelRun0_B c i arg2 harg2 arg3 harg3 arg4 harg4 arg5 harg5 arg6 harg6 arg7 harg7 arg8 harg8 hc0 hc1 x0 x1 x2 x3 xs0).1, y ∈ pc.1.set :=
  View.cover_of_tiledL (kernelRun0_B c i arg2 harg2 arg3 harg3 arg4 harg4 arg5 harg5 arg6 harg6 arg7 harg7 arg8 harg8 hc0 hc1 x0 x1 x2 x3 xs0).1 S1x512x256.size (by sl_kernel_rfl) y

/-- What is left in the first output's staging buffer: its pieces read back over junk. -/
def out0_B_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : ¬cond0_1 i)
    (x0 : Vec F S1x1x512x512 .f32) (x1 : Vec F S1x1x512x512 .f32) (x2 : Vec F S512x1024 .f32) (x3 : Vec F S512x1024 .f32) (xs0 : Vec F S3x256 .f32) : Vec F S1x512x256 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0).1)

/-- Nothing is stored into the second output here, and its block is not written back: no pieces; a placeholder
    that nothing consults. -/
def out0_B_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : ¬cond0_1 i)
    (x0 : Vec F S1x1x512x512 .f32) (x1 : Vec F S1x1x512x512 .f32) (x2 : Vec F S512x1024 .f32) (x3 : Vec F S512x1024 .f32) (xs0 : Vec F S3x256 .f32) : Vec F S1x3x256 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 xs0).2.1)

/-- The pieces for the scratch cover it. -/
theorem scover0_B_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : ¬cond0_1 i)
    (x0 : Vec F S1x1x512x512 .f32) (x1 : Vec F S1x1x512x512 .f32) (x2 : Vec F S512x1024 .f32) (x3 : Vec F S512x1024 .f32) (xs0 : Vec F S3x256 .f32) (y : S3x256.Idx) :
    ∃ pc ∈ (kernelRun0_B c i arg2 harg2 arg3 harg3 arg4 harg4 arg5 harg5 arg6 harg6 arg7 harg7 arg8 harg8 hc0 hc1 x0 x1 x2 x3 xs0).2.2.1, y ∈ pc.1.set :=
  View.cover_of_tiledL (kernelRun0_B c i arg2 harg2 arg3 harg3 arg4 harg4 arg5 harg5 arg6 harg6 arg7 harg7 arg8 harg8 hc0 hc1 x0 x1 x2 x3 xs0).2.2.1 S3x256.size (by sl_kernel_rfl) y

/-- What is left in the scratch: its pieces read back over junk. -/
def sout0_B_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : ¬cond0_1 i)
    (x0 : Vec F S1x1x512x512 .f32) (x1 : Vec F S1x1x512x512 .f32) (x2 : Vec F S512x1024 .f32) (x3 : Vec F S512x1024 .f32) (xs0 : Vec F S3x256 .f32) : Vec F S3x256 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0).2.2.1)

/-! ### Where the second grid coordinate is three: the first conditional is not taken, the second is -/

/-- The pieces for the first output tile its block, so they cover it. -/
theorem cover0_C_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) (y : S1x512x256.Idx) :
    ∃ pc ∈ (kernelRun0_C c i arg2 harg2 arg3 harg3 arg4 harg4 arg5 harg5 arg6 harg6 arg7 harg7 arg8 harg8 hc0 hc1 x0 x1 x2 x3 xs0).1, y ∈ pc.1.set :=
  View.cover_of_tiledL (kernelRun0_C c i arg2 harg2 arg3 harg3 arg4 harg4 arg5 harg5 arg6 harg6 arg7 harg7 arg8 harg8 hc0 hc1 x0 x1 x2 x3 xs0).1 S1x512x256.size (by sl_kernel_rfl) y

/-- What is left in the first output's staging buffer: its pieces read back over junk. -/
def out0_C_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) : Vec F S1x512x256 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0).1)

/-- The pieces for the second output tile its block, so they cover it. -/
theorem cover0_C_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) (y : S1x3x256.Idx) :
    ∃ pc ∈ (kernelRun0_C c i arg2 harg2 arg3 harg3 arg4 harg4 arg5 harg5 arg6 harg6 arg7 harg7 arg8 harg8 hc0 hc1 x0 x1 x2 x3 xs0).2.1, y ∈ pc.1.set :=
  View.cover_of_tiledL (kernelRun0_C c i arg2 harg2 arg3 harg3 arg4 harg4 arg5 harg5 arg6 harg6 arg7 harg7 arg8 harg8 hc0 hc1 x0 x1 x2 x3 xs0).2.1 S1x3x256.size (by sl_kernel_rfl) y

/-- What is left in the second output's staging buffer: its pieces read back over junk. -/
def out0_C_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) : Vec F S1x3x256 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 xs0).2.1)

/-- The pieces for the scratch cover it. -/
theorem scover0_C_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) (y : S3x256.Idx) :
    ∃ pc ∈ (kernelRun0_C c i arg2 harg2 arg3 harg3 arg4 harg4 arg5 harg5 arg6 harg6 arg7 harg7 arg8 harg8 hc0 hc1 x0 x1 x2 x3 xs0).2.2.1, y ∈ pc.1.set :=
  View.cover_of_tiledL (kernelRun0_C c i arg2 harg2 arg3 harg3 arg4 harg4 arg5 harg5 arg6 harg6 arg7 harg7 arg8 harg8 hc0 hc1 x0 x1 x2 x3 xs0).2.2.1 S3x256.size (by sl_kernel_rfl) y

/-- What is left in the scratch: its pieces read back over junk. -/
def sout0_C_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) : Vec F S3x256 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0).2.2.1)

/-! ## What the outputs and the scratch hold after each point -/

/-- After the body at position `n`: the first output's staging buffer, the second output's, and the scratch. The case
    is the one the closed forms select at `n`; the scratch found is what this leaves at `n - 1`. -/
def outsAt0 (c : Dev nD) : (n : ℕ) → n < cfg0.N → Vec F S1x512x256 .f32 × Vec F S1x3x256 .f32 × Vec F S3x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2)

/-- `outsAt0` at a point whose second coordinate is zero. -/
theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point whose second coordinate is one or two, over what the point before left. -/
theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point whose second coordinate is three, over what the point before left. -/
theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the first point the region's entry invariant (the scratch at anything); afterwards the
    scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The proof data -/

/-- The proof data of the pipeline on core `c`: the arrays as the region finds them; after the body at point `t`
    each input's buffer at its block and the outputs' at `outsAt0`; the invariant `PhiS`; nothing owed; the first
    argument, which the first two windows both read, held half by each, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

/-- The data's arrays are the region-entry contents. -/
theorem A_eq (c : Dev nD) (w : Fin cfg0.W) : (dats m 0 c).A w = V m c (Pipeline.arrRef spec0 w) := by
  dsimp only [dats]

/-- The shares, window by window. -/
theorem q_0 (c : Dev nD) : (dats m 0 c).q 0 = fullShare.left := by dsimp only [dats]
theorem q_1 (c : Dev nD) : (dats m 0 c).q 1 = fullShare.right := by dsimp only [dats]
theorem q_2 (c : Dev nD) : (dats m 0 c).q 2 = fullShare := by dsimp only [dats]
theorem q_3 (c : Dev nD) : (dats m 0 c).q 3 = fullShare := by dsimp only [dats]
theorem q_4 (c : Dev nD) : (dats m 0 c).q 4 = fullShare := by dsimp only [dats]
theorem q_5 (c : Dev nD) : (dats m 0 c).q 5 = fullShare := by dsimp only [dats]
/-- Nothing is owed at any point. -/
theorem owed_eq (c : Dev nD) (t : Fin (cfg0.N + 1)) : (dats m 0 c).owed t = 0 := rfl

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at a point where the second grid coordinate is zero: the first conditional is taken, the second is not (the grid's first point: the scratch at anything). -/
theorem sound_body_A0 (c : Dev nD) (t : Fin cfg0.N) (h0 : t.val % 4 = 0) (h1 : ¬t.val % 4 = 3) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
  rw [outsAt0_A m c t h0 h1]
  unfold out0_A_4 sout0_A_0; (try dsimp only)
  rw [PhiS_castSucc m c t, PhiS_zero m c _ _ hz, PhiA0_eq]
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)).2.2.2 _ Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  iintro ⟨H0, H1, H2, H3, ⟨%e4, H4⟩, H5, ⟨%es0, HS0⟩⟩
  isplitl [HS0 Hg]
  · isplitl [HS0]
    · unfold owns; iexists _; isplitr
      swap; · iexact HS0
      ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t))
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t))
  iexists _; iexact H5

set_option maxHeartbeats 4800000 in
/-- The body at a point where the second grid coordinate is zero: the first conditional is taken, the second is not (after the first point). -/
theorem sound_body_A (c : Dev nD) (t : Fin cfg0.N) (h0 : t.val % 4 = 0) (h1 : ¬t.val % 4 = 3) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
  rw [outsAt0_A m c t h0 h1]
  unfold out0_A_4 sout0_A_0; (try dsimp only)
  rw [PhiS_castSucc m c t, PhiS_pos m c _ _ hz]
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)).2.2.2 _ Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexists _; iexact HS0
  iintro ⟨H0, H1, H2, H3, ⟨%e4, H4⟩, H5, ⟨%es0, HS0⟩⟩
  isplitl [HS0 Hg]
  · isplitl [HS0]
    · unfold owns; iexists _; isplitr
      swap; · iexact HS0
      ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t))
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t))
  iexists _; iexact H5

set_option maxHeartbeats 4800000 in
/-- The body at a point where the second grid coordinate is one or two: neither conditional is taken. -/
theorem sound_body_B (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun e => h0 (by rw [e])
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
  rw [outsAt0_B m c t h0 h1]
  unfold out0_B_4 sout0_B_0; (try dsimp only)
  rw [PhiS_castSucc m c t, PhiS_pos m c _ _ hz]
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2).2.2.2 _ Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  iintro ⟨H0, H1, H2, H3, ⟨%e4, H4⟩, H5, ⟨%es0, HS0⟩⟩
  isplitl [HS0 Hg]
  · isplitl [HS0]
    · unfold owns; iexists _; isplitr
      swap; · iexact HS0
      ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2)
  iexists _; iexact H5

set_option maxHeartbeats 4800000 in
/-- The body at a point where the second grid coordinate is three: the first conditional is not taken, the second is. -/
theorem sound_body_C (c : Dev nD) (t : Fin cfg0.N) (h0 : ¬t.val % 4 = 0) (h1 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun e => h0 (by rw [e])
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5_C t (fun h => h0 ((hcond0_0 t).mp h)) ((hcond0_1 t).mpr h1)], after0_5]
  rw [outsAt0_C m c t h0 h1]
  unfold out0_C_4 out0_C_5 sout0_C_0; (try dsimp only)
  rw [PhiS_castSucc m c t, PhiS_pos m c _ _ hz]
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  iintro ⟨H0, H1, H2, H3, ⟨%e4, H4⟩, ⟨%e5, H5⟩, ⟨%es0, HS0⟩⟩
  isplitl [HS0 Hg]
  · isplitl [HS0]
    · unfold owns; iexists _; isplitr
      swap; · iexact HS0
      ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2)
  unfold owns; iexists _; isplitr
  swap; · iexact H5
  ipureintro; exact View.read_writes_of_cover _ _ _ _ _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2)

/-- The body at any point: the closed forms say which case the point is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · have h1 : ¬t.val % 4 = 3 := by omega
    by_cases hz : t.val = 0
    · exact sound_body_A0 m c t h0 h1 hz
    · exact sound_body_A m c t h0 h1 hz
  · by_cases h1 : t.val % 4 = 3
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the entry invariant back: the scratch's named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.KernelIdeal.Fr

end
-- ==== Proof.KvTailRun.lean ====
/-
  The host operations around the kernel region, as functions of what they read.

  After the region: the two result arrays are flattened to [16, 524288] and [16, 768] and joined into one
  [16, 525056] signal; the 524288 columns from column 384 on are kept and multiplied by 2 / (scale + ε).
  Before the region: the basis is cut into its upper and lower 512 rows. No other buffer is written.
-/
import proofs.«182085_j25881472926130_2_alg».proof.Proof.Gen.KernelIdeal.Launch
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- The two result arrays flattened and joined along the columns: a [16, 525056] signal. -/
def tailCat (y4 : (⟨S16x2048x256, .f32⟩ : BufTy).Contents (Elt F)) (y5 : (⟨S16x3x256, .f32⟩ : BufTy).Contents (Elt F)) :
    (⟨S16x525056, .f32⟩ : BufTy).Contents (Elt F) :=
  concatenate S16x525056 1 [⟨S16x524288, shapeCast S16x524288 y4 shapeCasts_S16x2048x256_S16x524288⟩,
    ⟨S16x768, shapeCast S16x768 y5 shapeCasts_S16x3x256_S16x768⟩] concatenates_S16x524288_S16x768_S16x525056_d1

/-- The factor 2 / (scale + ε), repeated over the 16 rows. -/
def tailScale (sc : (⟨S524288, .f32⟩ : BufTy).Contents (Elt F)) : (⟨S16x524288, .f32⟩ : BufTy).Contents (Elt F) :=
  broadcastInDim S16x524288 ![0, 1] bcast_S1x524288_S16x524288_0_1
    (broadcastInDim S1x524288 ![1] bcast_S524288_S1x524288_1
      (Host.divf (F := F) (broadcastInDim S524288 ![] bcast_S_S524288 (constant (F := F) S_ .f32 0x40000000#32))
        (addf sc (broadcastInDim S524288 ![] bcast_S_S524288 (constant (F := F) S_ .f32 0x33D6BF95#32)))))

/-- The operations after the region, composed: columns 384 .. 384 + 524287 of the joined signal, times the factor. -/
def tailFn (y4 : (⟨S16x2048x256, .f32⟩ : BufTy).Contents (Elt F)) (y5 : (⟨S16x3x256, .f32⟩ : BufTy).Contents (Elt F))
    (sc : (⟨S524288, .f32⟩ : BufTy).Contents (Elt F)) : (⟨S16x524288, .f32⟩ : BufTy).Contents (Elt F) :=
  mulf (Host.dynamicSlice S16x524288 (tailCat y4 y5) (![0, 384] : Fin 2 → Int) sliceFits_S16x525056_S16x524288) (tailScale sc)

/-- The first five operations after the region: up to the two start indices of the slice. -/
abbrev tailOpsStart : List (HloOp τ sig (Elt F)) :=
  [ StableHlo.reshape main_v2_0 main_v3 rfl shapeCasts_S16x2048x256_S16x524288,
    StableHlo.reshape main_v2_1 main_v4 rfl shapeCasts_S16x3x256_S16x768,
    StableHlo.binary main_v3 main_v4 main_v5 ((fun a b => concatenate S16x525056 1 [⟨S16x524288, a⟩, ⟨S16x768, b⟩] concatenates_S16x524288_S16x768_S16x525056_d1) : (⟨S16x524288, .f32⟩ : BufTy).Contents (Elt F) → (⟨S16x768, .f32⟩ : BufTy).Contents (Elt F) → (⟨S16x525056, .f32⟩ : BufTy).Contents (Elt F)),
    StableHlo.nullary main_c (constantI S_ 32 0#32),
    StableHlo.nullary main_c_0 (constantI S_ 32 384#32) ]

/-- The first start index is the word 0. -/
theorem start_c (W : Valuation τ sig (Elt F)) :
    StableHlo.after (tailOpsStart (F := F)) W (Proc.devRef .tc main_c) = constantI S_ 32 0#32 := by
  after_results

/-- The second start index is the word 384. -/
theorem start_c_0 (W : Valuation τ sig (Elt F)) :
    StableHlo.after (tailOpsStart (F := F)) W (Proc.devRef .tc main_c_0) = constantI S_ 32 384#32 := by
  after_results

/-- The result buffer after the operations that follow the region. -/
theorem after_tail (W : Valuation τ sig (Elt F)) :
    StableHlo.after (hostOps1 (F := F)) W (Proc.devRef .tc main_v13)
      = tailFn (W (Proc.devRef .tc main_v2_0)) (W (Proc.devRef .tc main_v2_1)) (W (Proc.devRef .tc main_arg2)) := by
  after_results
  unfold tailFn
  refine congrArg₂ mulf (congrArg₂ (fun x st => Host.dynamicSlice S16x524288 x st sliceFits_S16x525056_S16x524288) rfl
    (funext fun k => ?_)) rfl
  match k with
  | ⟨0, _⟩ =>
    show BitVec.toInt (StableHlo.after (tailOpsStart (F := F)) W (Proc.devRef .tc main_c) (Shape.Idx.first h_S_)) = 0
    rw [start_c W]
    rfl
  | ⟨1, _⟩ =>
    show BitVec.toInt (StableHlo.after (tailOpsStart (F := F)) W (Proc.devRef .tc main_c_0) (Shape.Idx.first h_S_)) = 384
    rw [start_c_0 W]
    rfl

/-- A reference in the list is, as a device buffer, in the list's set of device buffers. -/
theorem single_sub {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.2 (List.mem_toFinset.2 (List.mem_map_of_mem h))

/-- The operations after the region write only their fifteen result buffers. -/
theorem tail_keeps (W : Valuation τ sig (Elt F)) (b : Ref sig .tc)
    (hb : b ∉ [main_v3, main_v4, main_v5, main_c, main_c_0, main_v6, main_cst, main_v7, main_v8, main_cst_1, main_v9, main_v10, main_v11, main_v12, main_v13]) :
    StableHlo.after (hostOps1 (F := F)) W (Proc.devRef .tc b) = W (Proc.devRef .tc b) :=
  StableHlo.after_of_writes_sub (hostOps1 (F := F)) W
    ⟨single_sub (by decide), single_sub (by decide), single_sub (by decide), single_sub (by decide), single_sub (by decide),
      single_sub (by decide), single_sub (by decide), single_sub (by decide), single_sub (by decide), single_sub (by decide),
      single_sub (by decide), single_sub (by decide), single_sub (by decide), single_sub (by decide), single_sub (by decide)⟩ hb

theorem tail_keeps_arg0 (W : Valuation τ sig (Elt F)) :
    StableHlo.after (hostOps1 (F := F)) W (Proc.devRef .tc main_arg0) = W (Proc.devRef .tc main_arg0) := tail_keeps W main_arg0 (by decide)
theorem tail_keeps_arg1 (W : Valuation τ sig (Elt F)) :
    StableHlo.after (hostOps1 (F := F)) W (Proc.devRef .tc main_arg1) = W (Proc.devRef .tc main_arg1) := tail_keeps W main_arg1 (by decide)
theorem tail_keeps_arg2 (W : Valuation τ sig (Elt F)) :
    StableHlo.after (hostOps1 (F := F)) W (Proc.devRef .tc main_arg2) = W (Proc.devRef .tc main_arg2) := tail_keeps W main_arg2 (by decide)

/-- The operations before the region write only the two halves of the basis. -/
theorem head_keeps (W : Valuation τ sig (Elt F)) (b : Ref sig .tc) (hb : b ∉ [main_v0, main_v1]) :
    StableHlo.after (hostOps0 (F := F)) W (Proc.devRef .tc b) = W (Proc.devRef .tc b) :=
  StableHlo.after_of_writes_sub (hostOps0 (F := F)) W ⟨single_sub (by decide), single_sub (by decide)⟩ hb

theorem head_keeps_arg0 (W : Valuation τ sig (Elt F)) :
    StableHlo.after (hostOps0 (F := F)) W (Proc.devRef .tc main_arg0) = W (Proc.devRef .tc main_arg0) := head_keeps W main_arg0 (by decide)
theorem head_keeps_arg1 (W : Valuation τ sig (Elt F)) :
    StableHlo.after (hostOps0 (F := F)) W (Proc.devRef .tc main_arg1) = W (Proc.devRef .tc main_arg1) := head_keeps W main_arg1 (by decide)
theorem head_keeps_arg2 (W : Valuation τ sig (Elt F)) :
    StableHlo.after (hostOps0 (F := F)) W (Proc.devRef .tc main_arg2) = W (Proc.devRef .tc main_arg2) := head_keeps W main_arg2 (by decide)
theorem head_keeps_v2_0 (W : Valuation τ sig (Elt F)) :
    StableHlo.after (hostOps0 (F := F)) W (Proc.devRef .tc main_v2_0) = W (Proc.devRef .tc main_v2_0) := head_keeps W main_v2_0 (by decide)
theorem head_keeps_v2_1 (W : Valuation τ sig (Elt F)) :
    StableHlo.after (hostOps0 (F := F)) W (Proc.devRef .tc main_v2_1) = W (Proc.devRef .tc main_v2_1) := head_keeps W main_v2_1 (by decide)

/-- The upper 512 rows of the basis. -/
theorem head_v0 (W : Valuation τ sig (Elt F)) :
    StableHlo.after (hostOps0 (F := F)) W (Proc.devRef .tc main_v0)
      = extractStridedSlice S512x1024 ![0, 0] (W (Proc.devRef .tc main_arg1)) slices_S1024x1024_S512x1024_0_0 := by
  after_results

/-- The lower 512 rows of the basis. -/
theorem head_v1 (W : Valuation τ sig (Elt F)) :
    StableHlo.after (hostOps0 (F := F)) W (Proc.devRef .tc main_v1)
      = extractStridedSlice S512x1024 ![512, 0] (W (Proc.devRef .tc main_arg1)) slices_S1024x1024_S512x1024_512_0 := by
  after_results

end Cert.KernelIdeal.Tail

end
-- ==== Proof.FrFrame.lean ====
/-
  The program's run with the kernel's proof data: what every final state holds in the result and in the arguments.

  The result buffer ends at the host operations after the region applied to the two arrays the pipeline wrote back
  and to the third argument; no operation and no write-back touches an argument.
-/
import proofs.«182085_j25881472926130_2_alg».proof.Proof.FrLaunch
import proofs.«182085_j25881472926130_2_alg».proof.Proof.FrData
import proofs.«182085_j25881472926130_2_alg».proof.Proof.KvTailRun

noncomputable section

namespace Cert.KernelIdeal.Run

open Cert.KernelIdeal Cert.KernelIdeal.Gen

open Idealize.ShloMosaic
open Idealize.ShloMosaic.TcCoe
open Idealize.SL Idealize.SL.Sem
open Idealize.ShloMosaic.Pipeline (Dat ucRefs)

variable {F : FTy → Type} [FloatOps F]

variable (m : (ℓ : Loc nD τ sig) → Buf (Elt F) ℓ) (ρ : Dev nD → PrngReg)

/-- The run, with the kernel's proof data. -/
theorem run : θ_run defs (onTc (τ := τ) (main (F := F))) (s₀ m ρ) (FrL.QC m (Fr.dats m)) :=
  FrL.run_main m ρ (Fr.dats m) (Fr.A_eq m) (Fr.q_0 m) (Fr.q_1 m) (Fr.q_2 m) (Fr.q_3 m) (Fr.owed_eq m) (fun _ => rfl)
    (Fr.body_obligation m) (Fr.hin m) (Fr.hout m)

/-- An unscoped TensorCore reference is among the buffers the run tracks. -/
theorem mem_ucRefs (b : Ref sig .tc) (hb : b.isScoped = false) : Proc.devRef .tc b ∈ ucRefs τ sig :=
  Finset.mem_filter.mpr ⟨Finset.mem_map.mpr ⟨b, Finset.mem_univ _, rfl⟩, by
    show ¬ (Proc.devRef (τ := τ) .tc b).isScoped = true
    intro h; exact Bool.false_ne_true (hb.symm.trans h)⟩

/-- The two results the pipeline wrote back, and the result of the program from them. -/
abbrev y4 (c : Dev nD) := (Fr.dats m 0 c).arrAt 4 cfg0.N
abbrev y5 (c : Dev nD) := (Fr.dats m 0 c).arrAt 5 cfg0.N

theorem run_post : θ_run defs (onTc (τ := τ) (main (F := F))) ⟨m, fun _ => 0, ρ⟩ (fun r => ∀ c : Dev nD,
      r.2.mem ((c.tc : Thread nD τ).loc main_v13) = Tail.tailFn (y4 m c) (y5 m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_ucRefs main_v13 rfl)).trans ((Tail.after_tail _).trans (by
        rw [FrL.Vx_v2_0, FrL.Vx_v2_1, FrL.Vx_of_ne m (Fr.dats m) c main_arg2 (by decide) (by decide)]
        exact congrArg _ (Tail.head_keeps_arg2 _))),
     (h c _ (mem_ucRefs main_arg0 rfl)).trans ((Tail.tail_keeps_arg0 _).trans ((FrL.Vx_of_ne m (Fr.dats m) c main_arg0 (by decide) (by decide)).trans (Tail.head_keeps_arg0 _))),
     (h c _ (mem_ucRefs main_arg1 rfl)).trans ((Tail.tail_keeps_arg1 _).trans ((FrL.Vx_of_ne m (Fr.dats m) c main_arg1 (by decide) (by decide)).trans (Tail.head_keeps_arg1 _))),
     (h c _ (mem_ucRefs main_arg2 rfl)).trans ((Tail.tail_keeps_arg2 _).trans ((FrL.Vx_of_ne m (Fr.dats m) c main_arg2 (by decide) (by decide)).trans (Tail.head_keeps_arg2 _)))⟩)
    (run m ρ)

/-- THE FRAME: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_post m ρ)

end Cert.KernelIdeal.Run

end
-- ==== Proof.BFrLaunch.lean ====
/-
  The run of the whole program from the body obligation: the host operations before the kernel region, the region,
  the host operations after it.

  The region's six windows stage five arrays: the first two input windows are blocks of ONE array (the two halves of
  the second axis of x), so the region is entered with that array's full share divided between them, each half
  held at the array's contents throughout and joined again at the exit; the two slices of W are the other inputs and
  the two results the outputs. Everything else the program names bypasses the region untouched. After the region the
  results' buffers hold what the pipeline's account of the write-backs computes, and the remaining host operations
  run over them.
-/
import proofs.«182085_j25881472926130_2_alg».proof.Proof.Gen.Kernel.Launch
import proofs.«182085_j25881472926130_2_alg».proof.Proof.Gen.Kernel.Points
import Idealize.ShloMosaic.Lib.Pipeline.Regions
import Idealize.ShloMosaic.Lib.Pipeline.Frame
import Idealize.ShloMosaic.Lib.Pipeline.Kit

noncomputable section

namespace Cert.Kernel.FrL

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F]

local notation "𝕄" => MT nD τ sig Unit (Elt F) ℕ (UR sig nD τ) ℕ

/-- The pipeline library's algebra is the whole of the certificate's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- Core `c`'s buffers at launch, as a valuation; -/
abbrev V₀ (c : Dev nD) : Valuation τ sig (Elt F) := fun b => m ((c : Dev nD), b)
/-- and when the region is entered: the two slices of W have been taken. -/
abbrev Vh (c : Dev nD) : Valuation τ sig (Elt F) := StableHlo.after hostOps0 (V₀ m c)
abbrev V (c : Dev nD) (b : Ref sig .tc) : Buf (Elt F) ((c : Thread nD τ).loc b) := Vh m c (Proc.devRef .tc b)

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers through the host operations: the core owing nothing, and its generator register. -/
abbrev R (c : Dev nD) : sProp 𝕄 := iprop((∃ W, owes (c : Thread nD τ) (0 : CellTallies nD τ sig Unit) W) ∗ ∃ r, prngReg c r)

/-- The two slices: the host operations before the region, over the unscoped buffers. -/
def seg0 : Pipeline.HostSeg (Name := ℕ) (U := UR sig nD τ) (pcfgs (F := F)) defs₀ 𝒱₀ L lv :=
  Pipeline.HostSeg.ofOps _ _ _ _ _ (ucRefs τ sig) hostOps0 (fun op h => Pipeline.sub_ucRefs op ((List.forall_iff_forall_mem.mp hostOps0_sub) op h))
    (by intro _ h; (repeat (cases h with | head => rfl | tail _ h => ?_)); exact nomatch h) (V₀ m) R

/-! ## The region, for any proof data of the right shape -/

section Region

variable (dats : (p : Fin 1) → (c : Dev nD) → Dat τ (Elt F) Unit ℕ (UR sig nD τ) ℕ (cfgs p) c)
  (hA : ∀ c w, (dats 0 c).A w = V m c (Pipeline.arrRef spec0 w))
  (hq0 : ∀ c, (dats 0 c).q 0 = fullShare.left) (hq1 : ∀ c, (dats 0 c).q 1 = fullShare.right)
  (hq2 : ∀ c, (dats 0 c).q 2 = fullShare) (hq3 : ∀ c, (dats 0 c).q 3 = fullShare)
  (howed : ∀ c t, (dats 0 c).owed t = 0) (hrec : ∀ c, (dats 0 c).recorded 0 = Set.univ)
  (hbody : ∀ c, BodyObligation (dats 0 c) (defs₀ (F := F)) 𝒱₀ () Set.univ)
  (hin : ∀ c, Pipeline.ΦA (U := UR sig nD τ) spec0 c ⊢ (dats 0 c).Φ 0)
  (hout : ∀ c, (dats 0 c).Φ (Fin.last cfg0.N) ⊢ Pipeline.ΦA (U := UR sig nD τ) spec0 c)

/-- Core `c`'s buffers when the region is left: the two results at what the pipeline wrote back, the rest as entered. -/
def Vx (c : Dev nD) : Valuation τ sig (Elt F) :=
  Function.update (Function.update (Vh m c) (Proc.devRef .tc main_v2_0) ((dats 0 c).arrAt 4 cfg0.N))
    (Proc.devRef .tc main_v2_1) ((dats 0 c).arrAt 5 cfg0.N)

/-- The host operations after the region, over the unscoped buffers. -/
def seg1 : Pipeline.HostSeg (Name := ℕ) (U := UR sig nD τ) (pcfgs (F := F)) defs₀ 𝒱₀ L lv :=
  Pipeline.HostSeg.ofOps _ _ _ _ _ (ucRefs τ sig) hostOps1 (fun op h => Pipeline.sub_ucRefs op ((List.forall_iff_forall_mem.mp hostOps1_sub) op h))
    (by intro _ h; (repeat (cases h with | head => rfl | tail _ h => ?_)); exact nomatch h) (Vx m dats) R

include hq0 in
/-- The shares the six windows hold their arrays at. -/
theorem share0 (c : Dev nD) : (dats 0 c).share 0 = fullShare.left := by
  unfold Dat.share; rw [if_neg (by decide)]; exact hq0 c
include hq1 in
theorem share1 (c : Dev nD) : (dats 0 c).share 1 = fullShare.right := by
  unfold Dat.share; rw [if_neg (by decide)]; exact hq1 c
include hq2 in
theorem share2 (c : Dev nD) : (dats 0 c).share 2 = fullShare := by
  unfold Dat.share; rw [if_neg (by decide)]; exact hq2 c
include hq3 in
theorem share3 (c : Dev nD) : (dats 0 c).share 3 = fullShare := by
  unfold Dat.share; rw [if_neg (by decide)]; exact hq3 c
theorem share4 (c : Dev nD) : (dats 0 c).share 4 = fullShare := by
  unfold Dat.share; rw [if_pos (by decide)]
theorem share5 (c : Dev nD) : (dats 0 c).share 5 = fullShare := by
  unfold Dat.share; rw [if_pos (by decide)]

/-- The five buffers behind the six windows, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2_0) ↦{fullShare} W main_v2_0)
          ∗ (((c : Thread nD τ).loc main_v2_1) ↦{fullShare} W main_v2_1)) := by
  unfold Pipeline.arrBufs
  exact bigSep_eq_bigSepL_of_eq [main_arg0, main_v0, main_v1, main_v2_0, main_v2_1] (by decide) (by decide) _

include hq0 hq1 hq2 hq3 in
/-- The six windows' arrays at contents `G`, one by one at their shares. -/
theorem arrays_eq (c : Dev nD) (G : (w : Fin cfg0.W) → Buf (Elt F) ((cfg0.win w).arr.view.loc (c : Thread nD τ))) :
    ((dats 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2_0) ↦{fullShare} G 4) ∗ (((c : Thread nD τ).loc main_v2_1) ↦{fullShare} G 5)) := by
  unfold Dat.arrays
  rw [bigSep_W0, share0 dats hq0, share1 dats hq1, share2 dats hq2, share3 dats hq3, share4 dats, share5 dats]
  simp only [(arr_whole0 0).set_eq_univ, (arr_whole0 1).set_eq_univ, (arr_whole0 2).set_eq_univ, (arr_whole0 3).set_eq_univ,
    (arr_whole0 4).set_eq_univ, (arr_whole0 5).set_eq_univ]

include hA hq0 hq1 hq2 hq3 in
/-- ENTRY, the arrays: the five buffers at the entry contents are the six windows' arrays at theirs, the array the first
    two windows share divided between them. -/
theorem arrays_entry (c : Dev nD) :
    (Pipeline.arrBufs (Ix := Unit) (Name := ℕ) (U := UR sig nD τ) (Lvl := ℕ) spec0 c (V m c) : sProp 𝕄)
      ⊢ (dats 0 c).arrays ((dats 0 c).arrAt · 0) := by
  rw [arrBufs_eq, arrays_eq dats hq0 hq1 hq2 hq3]
  rw [show (dats 0 c).arrAt 0 0 = V m c main_arg0 from hA c 0, show (dats 0 c).arrAt 1 0 = V m c main_arg0 from hA c 1,
    show (dats 0 c).arrAt 2 0 = V m c main_v0 from hA c 2, show (dats 0 c).arrAt 3 0 = V m c main_v1 from hA c 3,
    show (dats 0 c).arrAt 4 0 = V m c main_v2_0 from hA c 4, show (dats 0 c).arrAt 5 0 = V m c main_v2_1 from hA c 5]
  iintro ⟨H0, Hv0, Hv1, H20, H21⟩
  ihave H0' := (pointsTo_share (PosShare.mem_left_op_right fullShare)).1 $$ H0
  icases H0' with ⟨H0l, H0r⟩
  isplitl [H0l]; · iexact H0l
  isplitl [H0r]; · iexact H0r
  isplitl [Hv0]; · iexact Hv0
  isplitl [Hv1]; · iexact Hv1
  isplitl [H20]; · iexact H20
  iexact H21

/-! ### The exit valuation at the references the region names -/

theorem Vx_of_ne (c : Dev nD) (b : Ref sig .tc) (h0 : b ≠ main_v2_0) (h1 : b ≠ main_v2_1) :
    Vx m dats c (Proc.devRef .tc b) = Vh m c (Proc.devRef .tc b) := by
  unfold Vx
  rw [Function.update_of_ne (StableHlo.devRef_ne_of_ne h1), Function.update_of_ne (StableHlo.devRef_ne_of_ne h0)]

theorem Vx_v2_0 (c : Dev nD) : Vx m dats c (Proc.devRef .tc main_v2_0) = (dats 0 c).arrAt 4 cfg0.N := by
  unfold Vx
  rw [Function.update_of_ne (StableHlo.devRef_ne_of_ne (by decide)), Function.update_self]

theorem Vx_v2_1 (c : Dev nD) : Vx m dats c (Proc.devRef .tc main_v2_1) = (dats 0 c).arrAt 5 cfg0.N := by
  unfold Vx
  rw [Function.update_self]

include hA hq0 hq1 hq2 hq3 in
/-- EXIT, the arrays: the six windows' arrays at their final contents are the five buffers at the exit valuation — an
    input's array ends as it began, so the two halves of the shared one join again. -/
theorem arrays_exit (c : Dev nD) :
    ((dats 0 c).arrays ((dats 0 c).arrAt · cfg0.N) : sProp 𝕄)
      ⊢ Pipeline.arrBufs (Ix := Unit) (Name := ℕ) (U := UR sig nD τ) (Lvl := ℕ) spec0 c (fun b => Vx m dats c (Proc.devRef .tc b)) := by
  rw [arrBufs_eq, arrays_eq dats hq0 hq1 hq2 hq3]
  beta_reduce
  rw [Vx_of_ne m dats c main_arg0 (by decide) (by decide), Vx_of_ne m dats c main_v0 (by decide) (by decide),
    Vx_of_ne m dats c main_v1 (by decide) (by decide), Vx_v2_0, Vx_v2_1]
  rw [show (dats 0 c).arrAt 0 cfg0.N = V m c main_arg0 from ((dats 0 c).arrAt_in 0 rfl _).trans (hA c 0),
    show (dats 0 c).arrAt 1 cfg0.N = V m c main_arg0 from ((dats 0 c).arrAt_in 1 rfl _).trans (hA c 1),
    show (dats 0 c).arrAt 2 cfg0.N = V m c main_v0 from ((dats 0 c).arrAt_in 2 rfl _).trans (hA c 2),
    show (dats 0 c).arrAt 3 cfg0.N = V m c main_v1 from ((dats 0 c).arrAt_in 3 rfl _).trans (hA c 3)]
  iintro ⟨H0l, H0r, Hv0, Hv1, H20, H21⟩
  ihave H0 := (pointsTo_share (PosShare.mem_left_op_right fullShare)).2 $$ [H0l H0r]
  · isplitl [H0l] <;> iassumption
  isplitl [H0]; · iexact H0
  isplitl [Hv0]; · iexact Hv0
  isplitl [Hv1]; · iexact Hv1
  isplitl [H20]; · iexact H20
  iexact H21

/-- What bypasses the region is the same at the exit valuation. -/
theorem rest_exit (c : Dev nD) :
    (Pipeline.unscopedRest (Ix := Unit) (Name := ℕ) (U := UR sig nD τ) (Lvl := ℕ) spec0 c (fun b => Vx m dats c (Proc.devRef .tc b)) : sProp 𝕄)
      = Pipeline.unscopedRest spec0 c (V m c) := by
  unfold Pipeline.unscopedRest
  refine bigSep_congr fun b hb => ?_
  have hb' := (Finset.mem_sdiff.mp hb).2
  beta_reduce
  rw [Vx_of_ne m dats c b (fun h => hb' (h ▸ Finset.mem_image.mpr ⟨4, Finset.mem_univ _, rfl⟩))
    (fun h => hb' (h ▸ Finset.mem_image.mpr ⟨5, Finset.mem_univ _, rfl⟩))]

/-! ### The region as a segment of the program -/

set_option backward.isDefEq.respectTransparency.types false in
include hA hq0 hq1 hq2 hq3 howed hrec hbody hin hout in
/-- THE REGION: the decided layout, no semaphore of the kernel's own, the body obligation; entered from what the two
    slices left — the five buffers behind the windows into the pipeline, the generator register into the invariant,
    every other buffer bypassing —, left with the two results at what was written back. -/
def reg0 : Pipeline.RegionSeg (pcfgs (F := F)) adm dats () defs₀ 𝒱₀ L lv 0 where
  win := winFacts₀0
  block_pos := block_pos0
  stage_whole := stage_whole0
  K := PEmpty
  osem := fun k => k.elim
  ho := Pipeline.OwnSemFacts.none spec0
  hbody c := (hbody c).loose
  hwaits := Pipeline.hwaits_of_owed_zero _ _ _ _ L lv 0 fun c t => howed c t
  pre c := iprop(StableHlo.held (c : Thread nD τ) (ucRefs τ sig) (Vh m c) ∗ R c)
  post c := iprop(StableHlo.held (c : Thread nD τ) (ucRefs τ sig) (Vx m dats c) ∗ R c)
  X c := iprop(∃ r, prngReg c r)
  Y c := iprop(∃ r, prngReg c r)
  Z c := Pipeline.unscopedRest spec0 c (V m c)
  hentry c := by
    rw [show StableHlo.held (c : Thread nD τ) (ucRefs τ sig) (Vh m c) = unscopedBufs c (V m c) from (Pipeline.unscopedBufs_held c _).symm,
      Pipeline.unscopedBufs_split₀ cfgs 0 winFacts₀0.arr_unscoped c (V m c)]
    iintro ⟨⟨⟨Hab, Hrest⟩, ⟨%W, HO⟩, Hg⟩, -, -⟩
    ihave Ha := (arrays_entry m dats hA hq0 hq1 hq2 hq3 c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      iexists W; isplitr; · ipureintro; exact fun _ _ => Or.inl (by rw [hrec c]; trivial)
      iexact HO
    isplitl [Hg]; · iexact Hg
    iexact Hrest
  hin c := by
    refine BIBase.Entails.trans ?_ (hin c)
    unfold Pipeline.ΦA
    iintro ⟨Hg, -, Hr⟩
    isplitl [Hr] <;> iassumption
  hout c := by
    refine (hout c).trans ?_
    unfold Pipeline.ΦA
    rw [Pipeline.ownSems0_none]
    iintro ⟨Hr, Hg⟩
    isplitl [Hg]; · iexact Hg
    isplitr; · iempintro
    iexact Hr
  hexit c := by
    rw [show StableHlo.held (c : Thread nD τ) (ucRefs τ sig) (Vx m dats c) = unscopedBufs c (fun b => Vx m dats c (Proc.devRef .tc b)) from (Pipeline.unscopedBufs_held c _).symm,
      Pipeline.unscopedBufs_split₀ cfgs 0 winFacts₀0.arr_unscoped c, rest_exit]
    iintro ⟨Ha, HO, Hg, Hrest⟩
    ihave Hab := (arrays_exit m dats hA hq0 hq1 hq2 hq3 c) $$ Ha
    imodintro
    isplitl [Hab Hrest]
    · isplitl [Hab] <;> iassumption
    isplitl [HO]
    · unfold Pipeline.Dat.owesAt Pipeline.owesWithin
      rw [howed c (Fin.last _)]
      icases HO with ⟨%W, -, HO⟩; iexists W; iexact HO
    iexact Hg

/-! ### The run -/

/-- @main as the list of its three segments. -/
abbrev segs : List (Pipeline.Seg (pcfgs (F := F)) adm dats () defs₀ 𝒱₀ L lv) :=
  [.host (seg0 m), .region (reg0 m dats hA hq0 hq1 hq2 hq3 howed hrec hbody hin hout), .host (seg1 m dats)]

/-- The launch element: the pipeline library's at the staging cells. -/
def u₀ : UR sig nD τ := initOf (Pipeline.cells cfgs cellOf_inj) (Pipeline.launchToks cfgs cellOf_inj)

/-- What the run ends with: every unscoped buffer of every core at what the operations after the region leave, run
    from the region's exit valuation. -/
def QC : PUnit × MemSt nD τ sig (Elt F) → Prop := fun r =>
  ∀ c : Dev nD, ∀ b ∈ ucRefs τ sig, r.2.mem ((c : Dev nD), b) = StableHlo.after hostOps1 (Vx m dats c) b

set_option backward.isDefEq.respectTransparency.types false in
include hA hq0 hq1 hq2 hq3 howed hrec hbody hin hout in
/-- From any memory with zero counters every weakly fair execution of @main on the TensorCores terminates, nothing
    faulting, and every final state holds, in every unscoped buffer, what the host operations after the region compute
    from the region's exit valuation. -/
theorem run_main : θ_run defs (onTc (τ := τ) (main (F := F))) (s₀ m ρ) (QC m dats) :=
  Pipeline.θ_run_regions_kit (pcfgs (F := F)) adm dats () cellOf_inj EP defs₀ 𝒱₀ L lv m ρ main (segs m dats hA hq0 hq1 hq2 hq3 howed hrec hbody hin hout)
    (fun c Q => by rw [main_segs adm dats () 𝒱₀ L lv (seg0 m) (seg1 m dats) (reg0 m dats hA hq0 hq1 hq2 hq3 howed hrec hbody hin hout) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m c) ∗ R c))
    (Tₙ := fun c => iprop(StableHlo.held (c : Thread nD τ) (ucRefs τ sig) (StableHlo.after hostOps1 (Vx m dats c)) ∗ ∃ r, prngReg c r))
    (hch := ⟨fun _ => .rfl, fun _ => .rfl, fun _ => .rfl, fun c => by
      show iprop(StableHlo.held (c : Thread nD τ) (ucRefs τ sig) (StableHlo.after hostOps1 (Vx m dats c)) ∗ R c) ⊢ _
      iintro ⟨Hh, HO, Hg⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (ucRefs τ sig) (V₀ m c) from Pipeline.unscopedBufs_held c (V₀ m c)]
      iintro ⟨⟨Hh, -, HO, -, Hg, -⟩, -⟩
      imodintro
      isplitl [Hh]; · iexact Hh
      isplitl [HO]; · iexists ∅; iexact HO
      iexists _; iexact Hg)
    (QY := fun c s => ∀ b ∈ ucRefs τ sig, s.mem ((c : Dev nD), b) = StableHlo.after hostOps1 (Vx m dats c) b)
    (hfin := fun c s' => by
      unfold StableHlo.held
      iintro ⟨⟨Hh, -⟩, HSI⟩
      ihave Hr := (pointsTo_read_all (ucRefs τ sig) (fun b => (((c : Thread nD τ).1, b) : Loc nD τ sig)) (StableHlo.after hostOps1 (Vx m dats c)) s') $$ [Hh HSI]
      · isplitl [Hh] <;> iassumption
      icases Hr with ⟨%ha, HSI⟩
      imodintro
      isplitr; · ipureintro; exact ha
      iexact HSI)
    (hQ := fun _ h => h)

end Region

end Cert.Kernel.FrL

end
-- ==== Proof.BFrRuns.lean ====
/-
  What the runs of the kernel body and the pipeline's proof data share: the buffer contents when the region is
  entered, the windows' blocks, the body's two branch conditions in closed form over the grid, where the windows
  are idle, the staging and scratch memrefs, and the region invariant with the scratch as an owned memref.
-/
import proofs.«182085_j25881472926130_2_alg».proof.Proof.Gen.Kernel.Launch
import proofs.«182085_j25881472926130_2_alg».proof.Proof.Gen.Kernel.Skeleton
import proofs.«182085_j25881472926130_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents when the region is entered -/

/-- Core `c`'s TensorCore buffer contents when the region is entered, as a valuation: after the two slices of
    the second argument that precede the region. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The two slices write only their own results. -/
theorem not_written0 (b : Ref sig .tc) (hb : b ≠ main_v0 ∧ b ≠ main_v1) :
    ∀ op ∈ (hostOps0 (F := F)), Proc.devRef .tc b ∉ op.writes := by
  obtain ⟨h0, h1⟩ := hb
  intro op hop
  simp only [hostOps0, List.mem_cons, List.mem_nil_iff, or_false] at hop
  rcases hop with rfl | rfl <;>
    simp only [StableHlo.unary_writes, Finset.mem_singleton] <;>
    exact StableHlo.devRef_ne_of_ne ‹_›

/-- The three arguments reach the region as launched. -/
theorem V_main_arg0 (c : Dev nD) : V m c main_arg0 = m ((c : Thread nD τ).loc main_arg0) :=
  StableHlo.after_of_forall_not_mem (b := Proc.devRef .tc main_arg0) hostOps0 (fun b => m (c, b)) (not_written0 main_arg0 (by decide))
theorem V_main_arg1 (c : Dev nD) : V m c main_arg1 = m ((c : Thread nD τ).loc main_arg1) :=
  StableHlo.after_of_forall_not_mem (b := Proc.devRef .tc main_arg1) hostOps0 (fun b => m (c, b)) (not_written0 main_arg1 (by decide))
theorem V_main_arg2 (c : Dev nD) : V m c main_arg2 = m ((c : Thread nD τ).loc main_arg2) :=
  StableHlo.after_of_forall_not_mem (b := Proc.devRef .tc main_arg2) hostOps0 (fun b => m (c, b)) (not_written0 main_arg2 (by decide))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's condition, from the grid coordinates: the second coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition: the second coordinate is three. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The four inputs and the first output are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the second coordinate is zero the second output is idle and its block is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- Where it is one or two likewise. -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- Where it is three the second output is live. -/
theorem liveAt0_5_C : ∀ t : Fin cfg0.N, ¬cond0_0 (grid0.coords t) → cond0_1 (grid0.coords t) → cfg0.idle 5 (grid0.coords t) = false := by decide +kernel

/-! ## The staging and scratch memrefs -/

/-- One staging buffer of each output, through which its contents are stated. -/
abbrev VO0_4 : View sig .tc .vmem S1x512x256 .f32 := (Memref.whole cc0_stg4_0 : Memref sig .tc .vmem S1x512x256 .f32).view
abbrev VO0_5 : View sig .tc .vmem S1x3x256 .f32 := (Memref.whole cc0_stg5_0 : Memref sig .tc .vmem S1x3x256 .f32).view
/-- Each window's current staging memref at point `t`, and its wholeness. -/
abbrev ms0_0 (t : Fin cfg0.N) : Memref sig .tc .vmem S1x1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3x256 .f32 := win0_5.stage (cfg0.slots t 5)
abbrev hs0_5 (t : Fin cfg0.N) : (ms0_5 t).IsWhole := hstage0_5 ((cfg0.slots t 5).cast nbuf0_5)
/-- The scratch operand: a whole scoped buffer, passed beside the windows. -/
abbrev scM0_0 : Memref sig .tc .vmem S3x256 .f32 := Memref.whole cc0_scratch0
/-- The scratch as a view: what it holds is stated through it. -/
abbrev VS0_0 : View sig .tc .vmem S3x256 .f32 := scM0_0.view

/-- The region's entry invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.BFrRunA.lean ====
/-
  The kernel body run whole where the second grid coordinate is zero: the first conditional is taken, the second is not.
-/
import proofs.«182085_j25881472926130_2_alg».proof.Proof.BFrRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave, as pieces (last first), in the first output's staging memref, the second output's
    and the scratch, where the second grid coordinate is zero: the first conditional is taken, the second is not; with the proof that on
    whole memrefs — the four inputs' at their contents, the first output's at anything, the second output's at
    contents handed back untouched, the scratch at anything — the body runs to a continuation holding the inputs' as they
    were and each buffer it stored into with its pieces written. -/
noncomputable def kernelRun0_A (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : cond0_0 i) (hc1 : ¬cond0_1 i)
    (x0 : Vec F S1x1x512x512 .f32) (x1 : Vec F S1x1x512x512 .f32) (x2 : Vec F S512x1024 .f32) (x3 : Vec F S512x1024 .f32) :
    Σ' (L4 : List (View.Piece (Elt F) S1x512x256 .f32)) (L5 : List (View.Piece (Elt F) S1x3x256 .f32)), { LS0 : List (View.Piece (Elt F) S3x256 .f32) //
      ∀ (xi5 : Vec F S1x3x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, [], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.Kernel.Fr

end
-- ==== Proof.BFrRunB.lean ====
/-
  The kernel body run whole where the second grid coordinate is one or two: neither conditional is taken.
-/
import proofs.«182085_j25881472926130_2_alg».proof.Proof.BFrRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave, as pieces (last first), in the first output's staging memref, the second output's
    and the scratch, where the second grid coordinate is one or two: neither conditional is taken; with the proof that on
    whole memrefs — the four inputs' at their contents, the first output's at anything, the second output's at
    contents handed back untouched, the scratch at what the point before left — the body runs to a continuation holding the inputs' as they
    were and each buffer it stored into with its pieces written. -/
noncomputable def kernelRun0_B (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : ¬cond0_1 i)
    (x0 : Vec F S1x1x512x512 .f32) (x1 : Vec F S1x1x512x512 .f32) (x2 : Vec F S512x1024 .f32) (x3 : Vec F S512x1024 .f32) (xs0 : Vec F S3x256 .f32) :
    Σ' (L4 : List (View.Piece (Elt F) S1x512x256 .f32)) (L5 : List (View.Piece (Elt F) S1x3x256 .f32)), { LS0 : List (View.Piece (Elt F) S3x256 .f32) //
      ∀ (xi5 : Vec F S1x3x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, [], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.Kernel.Fr

end
-- ==== Proof.BFrRunC.lean ====
/-
  The kernel body run whole where the second grid coordinate is three: the first conditional is not taken, the second is.
-/
import proofs.«182085_j25881472926130_2_alg».proof.Proof.BFrRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave, as pieces (last first), in the first output's staging memref, the second output's
    and the scratch, where the second grid coordinate is three: the first conditional is not taken, the second is; with the proof that on
    whole memrefs — the four inputs' at their contents, the first output's at anything, the second output's at
    anything, the scratch at what the point before left — the body runs to a continuation holding the inputs' as they
    were and each buffer it stored into with its pieces written. -/
noncomputable def kernelRun0_C (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) :
    Σ' (L4 : List (View.Piece (Elt F) S1x512x256 .f32)) (L5 : List (View.Piece (Elt F) S1x3x256 .f32)), { LS0 : List (View.Piece (Elt F) S3x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.Kernel.Fr

end
-- ==== Proof.BFrData.lean ====
/-
  The pipeline's proof data: what the two outputs' staging buffers and the carried scratch hold after the body at
  each point (per case, then point by point along the grid), the invariant between points, the data themselves, and
  the body obligation at every point; with the entailments between the region's entry invariant and the data's at
  the grid's ends.
-/
import proofs.«182085_j25881472926130_2_alg».proof.Proof.BFrRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves -/

/-! ### Where the second grid coordinate is zero: the first conditional is taken, the second is not -/

/-- The pieces for the first output tile its block, so they cover it. -/
theorem cover0_A_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : cond0_0 i) (hc1 : ¬cond0_1 i)
    (x0 : Vec F S1x1x512x512 .f32) (x1 : Vec F S1x1x512x512 .f32) (x2 : Vec F S512x1024 .f32) (x3 : Vec F S512x1024 .f32) (y : S1x512x256.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S1x512x256.size (by sl_kernel_rfl) y

/-- What is left in the first output's staging buffer: its pieces read back over junk. -/
def out0_A_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : cond0_0 i) (hc1 : ¬cond0_1 i)
    (x0 : Vec F S1x1x512x512 .f32) (x1 : Vec F S1x1x512x512 .f32) (x2 : Vec F S512x1024 .f32) (x3 : Vec F S512x1024 .f32) : Vec F S1x512x256 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)

/-- Nothing is stored into the second output here, and its block is not written back: no pieces; a placeholder
    that nothing consults. -/
def out0_A_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : cond0_0 i) (hc1 : ¬cond0_1 i)
    (x0 : Vec F S1x1x512x512 .f32) (x1 : Vec F S1x1x512x512 .f32) (x2 : Vec F S512x1024 .f32) (x3 : Vec F S512x1024 .f32) : Vec F S1x3x256 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3).2.1)

/-- The pieces for the scratch cover it. -/
theorem scover0_A_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : cond0_0 i) (hc1 : ¬cond0_1 i)
    (x0 : Vec F S1x1x512x512 .f32) (x1 : Vec F S1x1x512x512 .f32) (x2 : Vec F S512x1024 .f32) (x3 : Vec F S512x1024 .f32) (y : S3x256.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  View.cover_of_tiledL (kernelRun0_A c i arg2 harg2 arg3 harg3 arg4 harg4 arg5 harg5 arg6 harg6 arg7 harg7 arg8 harg8 hc0 hc1 x0 x1 x2 x3).2.2.1 S3x256.size (by sl_kernel_rfl) y

/-- What is left in the scratch: its pieces read back over junk. -/
def sout0_A_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : cond0_0 i) (hc1 : ¬cond0_1 i)
    (x0 : Vec F S1x1x512x512 .f32) (x1 : Vec F S1x1x512x512 .f32) (x2 : Vec F S512x1024 .f32) (x3 : Vec F S512x1024 .f32) : Vec F S3x256 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.2.1)

/-! ### Where the second grid coordinate is one or two: neither conditional is taken -/

/-- The pieces for the first output tile its block, so they cover it. -/
theorem cover0_B_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : ¬cond0_1 i)
    (x0 : Vec F S1x1x512x512 .f32) (x1 : Vec F S1x1x512x512 .f32) (x2 : Vec F S512x1024 .f32) (x3 : Vec F S512x1024 .f32) (xs0 : Vec F S3x256 .f32) (y : S1x512x256.Idx) :
    ∃ pc ∈ (kernelRun0_B c i arg2 harg2 arg3 harg3 arg4 harg4 arg5 harg5 arg6 harg6 arg7 harg7 arg8 harg8 hc0 hc1 x0 x1 x2 x3 xs0).1, y ∈ pc.1.set :=
  View.cover_of_tiledL (kernelRun0_B c i arg2 harg2 arg3 harg3 arg4 harg4 arg5 harg5 arg6 harg6 arg7 harg7 arg8 harg8 hc0 hc1 x0 x1 x2 x3 xs0).1 S1x512x256.size (by sl_kernel_rfl) y

/-- What is left in the first output's staging buffer: its pieces read back over junk. -/
def out0_B_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : ¬cond0_1 i)
    (x0 : Vec F S1x1x512x512 .f32) (x1 : Vec F S1x1x512x512 .f32) (x2 : Vec F S512x1024 .f32) (x3 : Vec F S512x1024 .f32) (xs0 : Vec F S3x256 .f32) : Vec F S1x512x256 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0).1)

/-- Nothing is stored into the second output here, and its block is not written back: no pieces; a placeholder
    that nothing consults. -/
def out0_B_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : ¬cond0_1 i)
    (x0 : Vec F S1x1x512x512 .f32) (x1 : Vec F S1x1x512x512 .f32) (x2 : Vec F S512x1024 .f32) (x3 : Vec F S512x1024 .f32) (xs0 : Vec F S3x256 .f32) : Vec F S1x3x256 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 xs0).2.1)

/-- The pieces for the scratch cover it. -/
theorem scover0_B_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : ¬cond0_1 i)
    (x0 : Vec F S1x1x512x512 .f32) (x1 : Vec F S1x1x512x512 .f32) (x2 : Vec F S512x1024 .f32) (x3 : Vec F S512x1024 .f32) (xs0 : Vec F S3x256 .f32) (y : S3x256.Idx) :
    ∃ pc ∈ (kernelRun0_B c i arg2 harg2 arg3 harg3 arg4 harg4 arg5 harg5 arg6 harg6 arg7 harg7 arg8 harg8 hc0 hc1 x0 x1 x2 x3 xs0).2.2.1, y ∈ pc.1.set :=
  View.cover_of_tiledL (kernelRun0_B c i arg2 harg2 arg3 harg3 arg4 harg4 arg5 harg5 arg6 harg6 arg7 harg7 arg8 harg8 hc0 hc1 x0 x1 x2 x3 xs0).2.2.1 S3x256.size (by sl_kernel_rfl) y

/-- What is left in the scratch: its pieces read back over junk. -/
def sout0_B_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : ¬cond0_1 i)
    (x0 : Vec F S1x1x512x512 .f32) (x1 : Vec F S1x1x512x512 .f32) (x2 : Vec F S512x1024 .f32) (x3 : Vec F S512x1024 .f32) (xs0 : Vec F S3x256 .f32) : Vec F S3x256 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0).2.2.1)

/-! ### Where the second grid coordinate is three: the first conditional is not taken, the second is -/

/-- The pieces for the first output tile its block, so they cover it. -/
theorem cover0_C_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) (y : S1x512x256.Idx) :
    ∃ pc ∈ (kernelRun0_C c i arg2 harg2 arg3 harg3 arg4 harg4 arg5 harg5 arg6 harg6 arg7 harg7 arg8 harg8 hc0 hc1 x0 x1 x2 x3 xs0).1, y ∈ pc.1.set :=
  View.cover_of_tiledL (kernelRun0_C c i arg2 harg2 arg3 harg3 arg4 harg4 arg5 harg5 arg6 harg6 arg7 harg7 arg8 harg8 hc0 hc1 x0 x1 x2 x3 xs0).1 S1x512x256.size (by sl_kernel_rfl) y

/-- What is left in the first output's staging buffer: its pieces read back over junk. -/
def out0_C_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) : Vec F S1x512x256 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0).1)

/-- The pieces for the second output tile its block, so they cover it. -/
theorem cover0_C_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) (y : S1x3x256.Idx) :
    ∃ pc ∈ (kernelRun0_C c i arg2 harg2 arg3 harg3 arg4 harg4 arg5 harg5 arg6 harg6 arg7 harg7 arg8 harg8 hc0 hc1 x0 x1 x2 x3 xs0).2.1, y ∈ pc.1.set :=
  View.cover_of_tiledL (kernelRun0_C c i arg2 harg2 arg3 harg3 arg4 harg4 arg5 harg5 arg6 harg6 arg7 harg7 arg8 harg8 hc0 hc1 x0 x1 x2 x3 xs0).2.1 S1x3x256.size (by sl_kernel_rfl) y

/-- What is left in the second output's staging buffer: its pieces read back over junk. -/
def out0_C_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) : Vec F S1x3x256 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 xs0).2.1)

/-- The pieces for the scratch cover it. -/
theorem scover0_C_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) (y : S3x256.Idx) :
    ∃ pc ∈ (kernelRun0_C c i arg2 harg2 arg3 harg3 arg4 harg4 arg5 harg5 arg6 harg6 arg7 harg7 arg8 harg8 hc0 hc1 x0 x1 x2 x3 xs0).2.2.1, y ∈ pc.1.set :=
  View.cover_of_tiledL (kernelRun0_C c i arg2 harg2 arg3 harg3 arg4 harg4 arg5 harg5 arg6 harg6 arg7 harg7 arg8 harg8 hc0 hc1 x0 x1 x2 x3 xs0).2.2.1 S3x256.size (by sl_kernel_rfl) y

/-- What is left in the scratch: its pieces read back over junk. -/
def sout0_C_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) : Vec F S3x256 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0).2.2.1)

/-! ## What the outputs and the scratch hold after each point -/

/-- After the body at position `n`: the first output's staging buffer, the second output's, and the scratch. The case
    is the one the closed forms select at `n`; the scratch found is what this leaves at `n - 1`. -/
def outsAt0 (c : Dev nD) : (n : ℕ) → n < cfg0.N → Vec F S1x512x256 .f32 × Vec F S1x3x256 .f32 × Vec F S3x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2)

/-- `outsAt0` at a point whose second coordinate is zero. -/
theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point whose second coordinate is one or two, over what the point before left. -/
theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point whose second coordinate is three, over what the point before left. -/
theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the first point the region's entry invariant (the scratch at anything); afterwards the
    scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The proof data -/

/-- The proof data of the pipeline on core `c`: the arrays as the region finds them; after the body at point `t`
    each input's buffer at its block and the outputs' at `outsAt0`; the invariant `PhiS`; nothing owed; the first
    argument, which the first two windows both read, held half by each, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

/-- The data's arrays are the region-entry contents. -/
theorem A_eq (c : Dev nD) (w : Fin cfg0.W) : (dats m 0 c).A w = V m c (Pipeline.arrRef spec0 w) := by
  dsimp only [dats]

/-- The shares, window by window. -/
theorem q_0 (c : Dev nD) : (dats m 0 c).q 0 = fullShare.left := by dsimp only [dats]
theorem q_1 (c : Dev nD) : (dats m 0 c).q 1 = fullShare.right := by dsimp only [dats]
theorem q_2 (c : Dev nD) : (dats m 0 c).q 2 = fullShare := by dsimp only [dats]
theorem q_3 (c : Dev nD) : (dats m 0 c).q 3 = fullShare := by dsimp only [dats]
theorem q_4 (c : Dev nD) : (dats m 0 c).q 4 = fullShare := by dsimp only [dats]
theorem q_5 (c : Dev nD) : (dats m 0 c).q 5 = fullShare := by dsimp only [dats]
/-- Nothing is owed at any point. -/
theorem owed_eq (c : Dev nD) (t : Fin (cfg0.N + 1)) : (dats m 0 c).owed t = 0 := rfl

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at a point where the second grid coordinate is zero: the first conditional is taken, the second is not (the grid's first point: the scratch at anything). -/
theorem sound_body_A0 (c : Dev nD) (t : Fin cfg0.N) (h0 : t.val % 4 = 0) (h1 : ¬t.val % 4 = 3) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
  rw [outsAt0_A m c t h0 h1]
  unfold out0_A_4 sout0_A_0; (try dsimp only)
  rw [PhiS_castSucc m c t, PhiS_zero m c _ _ hz, PhiA0_eq]
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)).2.2.2 _ Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  iintro ⟨H0, H1, H2, H3, ⟨%e4, H4⟩, H5, ⟨%es0, HS0⟩⟩
  isplitl [HS0 Hg]
  · isplitl [HS0]
    · unfold owns; iexists _; isplitr
      swap; · iexact HS0
      ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t))
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t))
  iexists _; iexact H5

set_option maxHeartbeats 4800000 in
/-- The body at a point where the second grid coordinate is zero: the first conditional is taken, the second is not (after the first point). -/
theorem sound_body_A (c : Dev nD) (t : Fin cfg0.N) (h0 : t.val % 4 = 0) (h1 : ¬t.val % 4 = 3) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
  rw [outsAt0_A m c t h0 h1]
  unfold out0_A_4 sout0_A_0; (try dsimp only)
  rw [PhiS_castSucc m c t, PhiS_pos m c _ _ hz]
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)).2.2.2 _ Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexists _; iexact HS0
  iintro ⟨H0, H1, H2, H3, ⟨%e4, H4⟩, H5, ⟨%es0, HS0⟩⟩
  isplitl [HS0 Hg]
  · isplitl [HS0]
    · unfold owns; iexists _; isplitr
      swap; · iexact HS0
      ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t))
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t))
  iexists _; iexact H5

set_option maxHeartbeats 4800000 in
/-- The body at a point where the second grid coordinate is one or two: neither conditional is taken. -/
theorem sound_body_B (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun e => h0 (by rw [e])
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
  rw [outsAt0_B m c t h0 h1]
  unfold out0_B_4 sout0_B_0; (try dsimp only)
  rw [PhiS_castSucc m c t, PhiS_pos m c _ _ hz]
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2).2.2.2 _ Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  iintro ⟨H0, H1, H2, H3, ⟨%e4, H4⟩, H5, ⟨%es0, HS0⟩⟩
  isplitl [HS0 Hg]
  · isplitl [HS0]
    · unfold owns; iexists _; isplitr
      swap; · iexact HS0
      ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2)
  iexists _; iexact H5

set_option maxHeartbeats 4800000 in
/-- The body at a point where the second grid coordinate is three: the first conditional is not taken, the second is. -/
theorem sound_body_C (c : Dev nD) (t : Fin cfg0.N) (h0 : ¬t.val % 4 = 0) (h1 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun e => h0 (by rw [e])
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5_C t (fun h => h0 ((hcond0_0 t).mp h)) ((hcond0_1 t).mpr h1)], after0_5]
  rw [outsAt0_C m c t h0 h1]
  unfold out0_C_4 out0_C_5 sout0_C_0; (try dsimp only)
  rw [PhiS_castSucc m c t, PhiS_pos m c _ _ hz]
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  iintro ⟨H0, H1, H2, H3, ⟨%e4, H4⟩, ⟨%e5, H5⟩, ⟨%es0, HS0⟩⟩
  isplitl [HS0 Hg]
  · isplitl [HS0]
    · unfold owns; iexists _; isplitr
      swap; · iexact HS0
      ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2)
  unfold owns; iexists _; isplitr
  swap; · iexact H5
  ipureintro; exact View.read_writes_of_cover _ _ _ _ _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2)

/-- The body at any point: the closed forms say which case the point is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · have h1 : ¬t.val % 4 = 3 := by omega
    by_cases hz : t.val = 0
    · exact sound_body_A0 m c t h0 h1 hz
    · exact sound_body_A m c t h0 h1 hz
  · by_cases h1 : t.val % 4 = 3
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the entry invariant back: the scratch's named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.Kernel.Fr

end
-- ==== Proof.BKvTailRun.lean ====
/-
  The host operations around the kernel region, as functions of what they read.

  After the region: the two result arrays are flattened to [16, 524288] and [16, 768] and joined into one
  [16, 525056] signal; the 524288 columns from column 384 on are kept and multiplied by 2 / (scale + ε).
  Before the region: the basis is cut into its upper and lower 512 rows. No other buffer is written.
-/
import proofs.«182085_j25881472926130_2_alg».proof.Proof.Gen.Kernel.Launch
import Idealize.ShloMosaic.Lib.StableHlo.Run

noncomputable section

namespace Cert.Kernel.Tail

open Cert.Kernel Cert.Kernel.Gen Idealize.ShloMosaic Idealize.ShloMosaic.TcCoe Idealize.SL.Sem Idealize.ShloMosaic.StableHlo

variable {F : FTy → Type} [FloatOps F]

/-- The two result arrays flattened and joined along the columns: a [16, 525056] signal. -/
def tailCat (y4 : (⟨S16x2048x256, .f32⟩ : BufTy).Contents (Elt F)) (y5 : (⟨S16x3x256, .f32⟩ : BufTy).Contents (Elt F)) :
    (⟨S16x525056, .f32⟩ : BufTy).Contents (Elt F) :=
  concatenate S16x525056 1 [⟨S16x524288, shapeCast S16x524288 y4 shapeCasts_S16x2048x256_S16x524288⟩,
    ⟨S16x768, shapeCast S16x768 y5 shapeCasts_S16x3x256_S16x768⟩] concatenates_S16x524288_S16x768_S16x525056_d1

/-- The factor 2 / (scale + ε), repeated over the 16 rows. -/
def tailScale (sc : (⟨S524288, .f32⟩ : BufTy).Contents (Elt F)) : (⟨S16x524288, .f32⟩ : BufTy).Contents (Elt F) :=
  broadcastInDim S16x524288 ![0, 1] bcast_S1x524288_S16x524288_0_1
    (broadcastInDim S1x524288 ![1] bcast_S524288_S1x524288_1
      (Host.divf (F := F) (broadcastInDim S524288 ![] bcast_S_S524288 (constant (F := F) S_ .f32 0x40000000#32))
        (addf sc (broadcastInDim S524288 ![] bcast_S_S524288 (constant (F := F) S_ .f32 0x33D6BF95#32)))))

/-- The operations after the region, composed: columns 384 .. 384 + 524287 of the joined signal, times the factor. -/
def tailFn (y4 : (⟨S16x2048x256, .f32⟩ : BufTy).Contents (Elt F)) (y5 : (⟨S16x3x256, .f32⟩ : BufTy).Contents (Elt F))
    (sc : (⟨S524288, .f32⟩ : BufTy).Contents (Elt F)) : (⟨S16x524288, .f32⟩ : BufTy).Contents (Elt F) :=
  mulf (Host.dynamicSlice S16x524288 (tailCat y4 y5) (![0, 384] : Fin 2 → Int) sliceFits_S16x525056_S16x524288) (tailScale sc)

/-- The first five operations after the region: up to the two start indices of the slice. -/
abbrev tailOpsStart : List (HloOp τ sig (Elt F)) :=
  [ StableHlo.reshape main_v2_0 main_v3 rfl shapeCasts_S16x2048x256_S16x524288,
    StableHlo.reshape main_v2_1 main_v4 rfl shapeCasts_S16x3x256_S16x768,
    StableHlo.binary main_v3 main_v4 main_v5 ((fun a b => concatenate S16x525056 1 [⟨S16x524288, a⟩, ⟨S16x768, b⟩] concatenates_S16x524288_S16x768_S16x525056_d1) : (⟨S16x524288, .f32⟩ : BufTy).Contents (Elt F) → (⟨S16x768, .f32⟩ : BufTy).Contents (Elt F) → (⟨S16x525056, .f32⟩ : BufTy).Contents (Elt F)),
    StableHlo.nullary main_c (constantI S_ 32 0#32),
    StableHlo.nullary main_c_0 (constantI S_ 32 384#32) ]

/-- The first start index is the word 0. -/
theorem start_c (W : Valuation τ sig (Elt F)) :
    StableHlo.after (tailOpsStart (F := F)) W (Proc.devRef .tc main_c) = constantI S_ 32 0#32 := by
  after_results

/-- The second start index is the word 384. -/
theorem start_c_0 (W : Valuation τ sig (Elt F)) :
    StableHlo.after (tailOpsStart (F := F)) W (Proc.devRef .tc main_c_0) = constantI S_ 32 384#32 := by
  after_results

/-- The result buffer after the operations that follow the region. -/
theorem after_tail (W : Valuation τ sig (Elt F)) :
    StableHlo.after (hostOps1 (F := F)) W (Proc.devRef .tc main_v13)
      = tailFn (W (Proc.devRef .tc main_v2_0)) (W (Proc.devRef .tc main_v2_1)) (W (Proc.devRef .tc main_arg2)) := by
  after_results
  unfold tailFn
  refine congrArg₂ mulf (congrArg₂ (fun x st => Host.dynamicSlice S16x524288 x st sliceFits_S16x525056_S16x524288) rfl
    (funext fun k => ?_)) rfl
  match k with
  | ⟨0, _⟩ =>
    show BitVec.toInt (StableHlo.after (tailOpsStart (F := F)) W (Proc.devRef .tc main_c) (Shape.Idx.first h_S_)) = 0
    rw [start_c W]
    rfl
  | ⟨1, _⟩ =>
    show BitVec.toInt (StableHlo.after (tailOpsStart (F := F)) W (Proc.devRef .tc main_c_0) (Shape.Idx.first h_S_)) = 384
    rw [start_c_0 W]
    rfl

/-- A reference in the list is, as a device buffer, in the list's set of device buffers. -/
theorem single_sub {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.2 (List.mem_toFinset.2 (List.mem_map_of_mem h))

/-- The operations after the region write only their fifteen result buffers. -/
theorem tail_keeps (W : Valuation τ sig (Elt F)) (b : Ref sig .tc)
    (hb : b ∉ [main_v3, main_v4, main_v5, main_c, main_c_0, main_v6, main_cst, main_v7, main_v8, main_cst_1, main_v9, main_v10, main_v11, main_v12, main_v13]) :
    StableHlo.after (hostOps1 (F := F)) W (Proc.devRef .tc b) = W (Proc.devRef .tc b) :=
  StableHlo.after_of_writes_sub (hostOps1 (F := F)) W
    ⟨single_sub (by decide), single_sub (by decide), single_sub (by decide), single_sub (by decide), single_sub (by decide),
      single_sub (by decide), single_sub (by decide), single_sub (by decide), single_sub (by decide), single_sub (by decide),
      single_sub (by decide), single_sub (by decide), single_sub (by decide), single_sub (by decide), single_sub (by decide)⟩ hb

theorem tail_keeps_arg0 (W : Valuation τ sig (Elt F)) :
    StableHlo.after (hostOps1 (F := F)) W (Proc.devRef .tc main_arg0) = W (Proc.devRef .tc main_arg0) := tail_keeps W main_arg0 (by decide)
theorem tail_keeps_arg1 (W : Valuation τ sig (Elt F)) :
    StableHlo.after (hostOps1 (F := F)) W (Proc.devRef .tc main_arg1) = W (Proc.devRef .tc main_arg1) := tail_keeps W main_arg1 (by decide)
theorem tail_keeps_arg2 (W : Valuation τ sig (Elt F)) :
    StableHlo.after (hostOps1 (F := F)) W (Proc.devRef .tc main_arg2) = W (Proc.devRef .tc main_arg2) := tail_keeps W main_arg2 (by decide)

/-- The operations before the region write only the two halves of the basis. -/
theorem head_keeps (W : Valuation τ sig (Elt F)) (b : Ref sig .tc) (hb : b ∉ [main_v0, main_v1]) :
    StableHlo.after (hostOps0 (F := F)) W (Proc.devRef .tc b) = W (Proc.devRef .tc b) :=
  StableHlo.after_of_writes_sub (hostOps0 (F := F)) W ⟨single_sub (by decide), single_sub (by decide)⟩ hb

theorem head_keeps_arg0 (W : Valuation τ sig (Elt F)) :
    StableHlo.after (hostOps0 (F := F)) W (Proc.devRef .tc main_arg0) = W (Proc.devRef .tc main_arg0) := head_keeps W main_arg0 (by decide)
theorem head_keeps_arg1 (W : Valuation τ sig (Elt F)) :
    StableHlo.after (hostOps0 (F := F)) W (Proc.devRef .tc main_arg1) = W (Proc.devRef .tc main_arg1) := head_keeps W main_arg1 (by decide)
theorem head_keeps_arg2 (W : Valuation τ sig (Elt F)) :
    StableHlo.after (hostOps0 (F := F)) W (Proc.devRef .tc main_arg2) = W (Proc.devRef .tc main_arg2) := head_keeps W main_arg2 (by decide)
theorem head_keeps_v2_0 (W : Valuation τ sig (Elt F)) :
    StableHlo.after (hostOps0 (F := F)) W (Proc.devRef .tc main_v2_0) = W (Proc.devRef .tc main_v2_0) := head_keeps W main_v2_0 (by decide)
theorem head_keeps_v2_1 (W : Valuation τ sig (Elt F)) :
    StableHlo.after (hostOps0 (F := F)) W (Proc.devRef .tc main_v2_1) = W (Proc.devRef .tc main_v2_1) := head_keeps W main_v2_1 (by decide)

/-- The upper 512 rows of the basis. -/
theorem head_v0 (W : Valuation τ sig (Elt F)) :
    StableHlo.after (hostOps0 (F := F)) W (Proc.devRef .tc main_v0)
      = extractStridedSlice S512x1024 ![0, 0] (W (Proc.devRef .tc main_arg1)) slices_S1024x1024_S512x1024_0_0 := by
  after_results

/-- The lower 512 rows of the basis. -/
theorem head_v1 (W : Valuation τ sig (Elt F)) :
    StableHlo.after (hostOps0 (F := F)) W (Proc.devRef .tc main_v1)
      = extractStridedSlice S512x1024 ![512, 0] (W (Proc.devRef .tc main_arg1)) slices_S1024x1024_S512x1024_512_0 := by
  after_results

end Cert.Kernel.Tail

end
-- ==== Proof.BFrFrame.lean ====
/-
  The program's run with the kernel's proof data: what every final state holds in the result and in the arguments.

  The result buffer ends at the host operations after the region applied to the two arrays the pipeline wrote back
  and to the third argument; no operation and no write-back touches an argument.
-/
import proofs.«182085_j25881472926130_2_alg».proof.Proof.BFrLaunch
import proofs.«182085_j25881472926130_2_alg».proof.Proof.BFrData
import proofs.«182085_j25881472926130_2_alg».proof.Proof.BKvTailRun

noncomputable section

namespace Cert.Kernel.Run

open Cert.Kernel Cert.Kernel.Gen

open Idealize.ShloMosaic
open Idealize.ShloMosaic.TcCoe
open Idealize.SL Idealize.SL.Sem
open Idealize.ShloMosaic.Pipeline (Dat ucRefs)

variable {F : FTy → Type} [FloatOps F]

variable (m : (ℓ : Loc nD τ sig) → Buf (Elt F) ℓ) (ρ : Dev nD → PrngReg)

/-- The run, with the kernel's proof data. -/
theorem run : θ_run defs (onTc (τ := τ) (main (F := F))) (s₀ m ρ) (FrL.QC m (Fr.dats m)) :=
  FrL.run_main m ρ (Fr.dats m) (Fr.A_eq m) (Fr.q_0 m) (Fr.q_1 m) (Fr.q_2 m) (Fr.q_3 m) (Fr.owed_eq m) (fun _ => rfl)
    (Fr.body_obligation m) (Fr.hin m) (Fr.hout m)

/-- An unscoped TensorCore reference is among the buffers the run tracks. -/
theorem mem_ucRefs (b : Ref sig .tc) (hb : b.isScoped = false) : Proc.devRef .tc b ∈ ucRefs τ sig :=
  Finset.mem_filter.mpr ⟨Finset.mem_map.mpr ⟨b, Finset.mem_univ _, rfl⟩, by
    show ¬ (Proc.devRef (τ := τ) .tc b).isScoped = true
    intro h; exact Bool.false_ne_true (hb.symm.trans h)⟩

/-- The two results the pipeline wrote back, and the result of the program from them. -/
abbrev y4 (c : Dev nD) := (Fr.dats m 0 c).arrAt 4 cfg0.N
abbrev y5 (c : Dev nD) := (Fr.dats m 0 c).arrAt 5 cfg0.N

theorem run_post : θ_run defs (onTc (τ := τ) (main (F := F))) ⟨m, fun _ => 0, ρ⟩ (fun r => ∀ c : Dev nD,
      r.2.mem ((c.tc : Thread nD τ).loc main_v13) = Tail.tailFn (y4 m c) (y5 m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_ucRefs main_v13 rfl)).trans ((Tail.after_tail _).trans (by
        rw [FrL.Vx_v2_0, FrL.Vx_v2_1, FrL.Vx_of_ne m (Fr.dats m) c main_arg2 (by decide) (by decide)]
        exact congrArg _ (Tail.head_keeps_arg2 _))),
     (h c _ (mem_ucRefs main_arg0 rfl)).trans ((Tail.tail_keeps_arg0 _).trans ((FrL.Vx_of_ne m (Fr.dats m) c main_arg0 (by decide) (by decide)).trans (Tail.head_keeps_arg0 _))),
     (h c _ (mem_ucRefs main_arg1 rfl)).trans ((Tail.tail_keeps_arg1 _).trans ((FrL.Vx_of_ne m (Fr.dats m) c main_arg1 (by decide) (by decide)).trans (Tail.head_keeps_arg1 _))),
     (h c _ (mem_ucRefs main_arg2 rfl)).trans ((Tail.tail_keeps_arg2 _).trans ((FrL.Vx_of_ne m (Fr.dats m) c main_arg2 (by decide) (by decide)).trans (Tail.head_keeps_arg2 _)))⟩)
    (run m ρ)

/-- THE FRAME: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_post m ρ)

end Cert.Kernel.Run

end
-- ==== Proof.RefIdx.lean ====
/-
  The scatter indices of the reference: entry (t, k, 0) of the index array is the 32-bit word of 256·t + k.
  It is built as (iota·256 + iota), then a select on "negative" that adds the operand's extent; the sum stays
  below 2^31, so nothing wraps and the select keeps the sum.
-/
import proofs.«182085_j25881472926130_2_alg».proof.Proof.Gen.ReferenceIdeal.Read

noncomputable section

open scoped BigOperators

namespace Cert.RefValue

open Cert.ReferenceIdeal Cert.ReferenceIdeal.Gen Cert.ReferenceIdeal.Read Idealize.ShloMosaic Idealize.ShloMosaic.ValueIdx Idealize.ShloMosaic.TcCoe Idealize.SL.Sem Idealize.ShloMosaic.StableHlo

/-- The word `256·t + k` computed in 32 bits does not wrap. -/
theorem word_eq (t : Fin 2048) (k : Fin 1024) :
    IntOp.addi (IntOp.muli (BitVec.ofNat 32 t.val) 256#32) (BitVec.ofNat 32 k.val) = BitVec.ofNat 32 (256 * t.val + k.val) := by
  unfold IntOp.addi IntOp.muli
  apply BitVec.eq_of_toNat_eq
  simp only [BitVec.toNat_add, BitVec.toNat_mul, BitVec.toNat_ofNat]
  have := t.isLt; have := k.isLt
  omega

theorem word_toNat (t : Fin 2048) (k : Fin 1024) : (BitVec.ofNat 32 (256 * t.val + k.val)).toNat = 256 * t.val + k.val := by
  simp only [BitVec.toNat_ofNat]
  have := t.isLt; have := k.isLt
  omega

theorem word_toInt (t : Fin 2048) (k : Fin 1024) : (BitVec.ofNat 32 (256 * t.val + k.val)).toInt = ((256 * t.val + k.val : Nat) : Int) := by
  rw [BitVec.toInt_eq_toNat_of_lt, word_toNat]
  rw [word_toNat]
  have := t.isLt; have := k.isLt
  omega

theorem idx_word (t : Fin 2048) (k : Fin 1024) (z : Fin 1) :
    val_main_v21 (F := Ideal) (ix3 t k z) = BitVec.ofNat 32 (256 * t.val + k.val) := by
  simp only [val_main_v21_apply, val_main_v20_apply, val_main_v17_apply, val_main_v19_apply, val_main_v14_apply,
    val_main_v12_apply, val_main_v13_apply, val_main_v9_apply, val_main_v7_apply, val_main_v8_apply, val_main_c_apply,
    val_main_v6_apply, val_main_v11_apply, val_main_v10_apply, val_main_v16_apply, val_main_c_0_apply,
    val_main_v18_apply, val_main_c_1_apply]
  show Scalar.select (IntOp.cmpi CmpIPredicate.slt (IntOp.addi (IntOp.muli (BitVec.ofNat 32 t.val) 256#32) (BitVec.ofNat 32 k.val)) 0#32)
      (IntOp.addi (IntOp.addi (IntOp.muli (BitVec.ofNat 32 t.val) 256#32) (BitVec.ofNat 32 k.val)) 525056#32)
      (IntOp.addi (IntOp.muli (BitVec.ofNat 32 t.val) 256#32) (BitVec.ofNat 32 k.val)) = _
  rw [word_eq]
  have hc : IntOp.cmpi CmpIPredicate.slt (BitVec.ofNat 32 (256 * t.val + k.val)) 0#32 = 0#1 := by
    apply ValueIdx.eq_zero_of_ne_one
    rw [IntOp.cmpi_slt, word_toInt]
    simp only [BitVec.toInt_zero]
    omega
  rw [hc, ValueIdx.select_zero]

end Cert.RefValue

end
-- ==== Proof.Spec.lean ====
/-
  The function both programs compute, index by index, on the extended reals.

  An input x of shape [16, 2, 2048, 512] holds, per batch b and frame t, the real half x(b,0,t,·) and the imaginary
  half x(b,1,t,·) of a spectrum of 1024 channels; W of shape [1024, 1024] is the synthesis basis. One synthesis
  frame is the 1024 samples  frame b t k = Σ_c x(b,0,t,c)·W(c,k) + Σ_c x(b,1,t,c)·W(512+c,k)  (the product of the
  joined 1024-channel vector with W, written as its two halves). Frames are laid down 256 samples apart and added
  where they overlap: sample p of the synthesised signal is the sum of frame b t k over all (t,k) with
  256·t + k = p. The result drops 384 samples at each end, doubles the signal and divides by scale + ε.
-/
import Idealize.ShloMosaic.PureOps.Ideal
import Idealize.ShloMosaic.Lib.ValueIdx

noncomputable section

open scoped BigOperators

namespace Cert.Spec

open Idealize.ShloMosaic Idealize.ShloMosaic.ValueIdx

/-- One synthesis frame: 1024 samples of batch `b`, frame `t`. -/
def frame (x : (⟨4, ![16, 2, 2048, 512]⟩ : Shape).Idx → EReal) (W : (⟨2, ![1024, 1024]⟩ : Shape).Idx → EReal)
    (b : Fin 16) (t : Fin 2048) (k : Fin 1024) : EReal :=
  (∑ c : Fin 512, x (ix4 b (0 : Fin 2) t c) * W (ix2 (⟨c.val, by omega⟩ : Fin 1024) k))
    + (∑ c : Fin 512, x (ix4 b (1 : Fin 2) t c) * W (ix2 (⟨512 + c.val, by omega⟩ : Fin 1024) k))

/-- Overlap-add: sample `p` of the synthesised signal of batch `b` (frames 256 samples apart). -/
def ola (x : (⟨4, ![16, 2, 2048, 512]⟩ : Shape).Idx → EReal) (W : (⟨2, ![1024, 1024]⟩ : Shape).Idx → EReal)
    (b : Fin 16) (p : ℕ) : EReal :=
  ∑ t : Fin 2048, ∑ k : Fin 1024, if 256 * t.val + k.val = p then frame x W b t k else 0

/-- The guard added to the rescaling buffer, and the factor two, as the words both programs carry. -/
def eps : EReal := Ideal.ofBits .f32 0x33D6BF95#32
def two : EReal := Ideal.ofBits .f32 0x40000000#32

/-- The result: the centre 524288 samples, doubled, over `scale + ε`. -/
def G (x : (⟨4, ![16, 2, 2048, 512]⟩ : Shape).Idx → EReal) (W : (⟨2, ![1024, 1024]⟩ : Shape).Idx → EReal)
    (scale : (⟨1, ![524288]⟩ : Shape).Idx → EReal) : (⟨2, ![16, 524288]⟩ : Shape).Idx → EReal :=
  fun i => Ideal.div (two * ola x W (i 0) ((i 1).val + 384)) (scale (ix1 (i 1)) + eps)

end Cert.Spec

end
-- ==== Proof.LibOverlapAdd.lean ====
/-
  Overlap-add arithmetic over an arbitrary additive commutative monoid.

  Frames of 1024 samples are laid down 256 samples apart: sample `k` of frame `t` lands at position
  `256 * t + k`. A position is written `256 * R + h` with `h < 256` (row `R`, offset `h`). Exactly the frames
  `R, R - 1, R - 2, R - 3` (those that exist) cover row `R`: frame `R - m` contributes its sample `256 * m + h`.
  With 2048 frames processed in 4 blocks of 512 frames, a row `r` of block `j` receives the block's own frames
  and, for the first three rows of a later block, what the block before leaves hanging over its end.
-/
import Mathlib.Algebra.BigOperators.Fin

open scoped BigOperators

namespace Cert.LibOverlapAdd

variable {M : Type*} [AddCommMonoid M]

/-- A sum over `Fin n` of a term that is switched on at the single value `a` only: it is that term when
`a < n` and zero otherwise. -/
theorem sum_fin_ite_val_eq {n : ℕ} (a : ℕ) (g : ℕ → M) :
    (∑ t : Fin n, if t.val = a then g t.val else 0) = if a < n then g a else 0 := by
  by_cases ha : a < n
  · rw [if_pos ha, Finset.sum_eq_single (⟨a, ha⟩ : Fin n)]
    · rw [if_pos rfl]
    · intro b _ hb
      rw [if_neg]
      intro hba
      exact hb (Fin.ext hba)
    · intro hmem
      exact absurd (Finset.mem_univ _) hmem
  · rw [if_neg ha]
    refine Finset.sum_eq_zero fun t _ => ?_
    rw [if_neg]
    intro hta
    exact ha (hta ▸ t.isLt)

/-- A sum over the 1024 samples of a frame, regrouped as 4 quarters of 256 samples: sample `256 * m + h'`. -/
theorem sum_fin1024_eq_quarters (g : ℕ → M) :
    (∑ k : Fin 1024, g k.val) = ∑ m : Fin 4, ∑ h' : Fin 256, g (h'.val + 256 * m.val) := by
  rw [← Fintype.sum_prod_type']
  exact (Fintype.sum_equiv (finProdFinEquiv : Fin 4 × Fin 256 ≃ Fin 1024) _ _ (fun _ => rfl)).symm

/-- sample 256*R + h of the overlap-added signal is the sum of the (at most four) frames covering row R -/
theorem ola_row (f : ℕ → ℕ → M) (R h : ℕ) (hh : h < 256) :
    (∑ t : Fin 2048, ∑ k : Fin 1024, if 256 * t.val + k.val = 256 * R + h then f t.val k.val else 0)
      = ∑ m : Fin 4, if m.val ≤ R ∧ R - m.val < 2048 then f (R - m.val) (256 * m.val + h) else 0 := by
  -- within one frame, only the sample at offset h of each quarter can land at offset h of a row
  have key : ∀ t : Fin 2048,
      (∑ k : Fin 1024, if 256 * t.val + k.val = 256 * R + h then f t.val k.val else 0)
        = ∑ m : Fin 4, if t.val + m.val = R then f t.val (256 * m.val + h) else 0 := by
    intro t
    rw [sum_fin1024_eq_quarters (fun k => if 256 * t.val + k = 256 * R + h then f t.val k else 0)]
    refine Finset.sum_congr rfl fun m _ => ?_
    have step : ∀ h' : Fin 256,
        (if 256 * t.val + (h'.val + 256 * m.val) = 256 * R + h then f t.val (h'.val + 256 * m.val) else 0)
          = if h'.val = h then (if t.val + m.val = R then f t.val (256 * m.val + h) else 0) else 0 := by
      intro h'
      have hlt : h'.val < 256 := h'.isLt
      by_cases h1 : h'.val = h
      · rw [if_pos h1]
        by_cases h2 : t.val + m.val = R
        · rw [if_pos h2, if_pos (by omega), h1, Nat.add_comm]
        · rw [if_neg h2, if_neg (by omega)]
      · rw [if_neg h1, if_neg (by omega)]
    rw [Finset.sum_congr rfl (fun h' _ => step h'),
      sum_fin_ite_val_eq h (fun _ => if t.val + m.val = R then f t.val (256 * m.val + h) else 0), if_pos hh]
  rw [Finset.sum_congr rfl (fun t _ => key t), Finset.sum_comm]
  refine Finset.sum_congr rfl fun m _ => ?_
  -- for a fixed quarter m, the only frame that reaches row R is frame R - m
  have step : ∀ t : Fin 2048,
      (if t.val + m.val = R then f t.val (256 * m.val + h) else 0)
        = if t.val = R - m.val then (if m.val ≤ R then f (R - m.val) (256 * m.val + h) else 0) else 0 := by
    intro t
    by_cases h1 : t.val + m.val = R
    · have e : t.val = R - m.val := by omega
      rw [if_pos h1, if_pos e, if_pos (by omega), e]
    · rw [if_neg h1]
      by_cases h2 : m.val ≤ R
      · rw [if_neg (by omega)]
      · rw [if_neg h2, ite_self]
  rw [Finset.sum_congr rfl (fun t _ => step t),
    sum_fin_ite_val_eq (R - m.val) (fun _ => if m.val ≤ R then f (R - m.val) (256 * m.val + h) else 0)]
  by_cases h1 : m.val ≤ R
  · by_cases h2 : R - m.val < 2048
    · rw [if_pos h2, if_pos h1, if_pos ⟨h1, h2⟩]
    · rw [if_neg h2, if_neg (fun hc => h2 hc.2)]
  · rw [if_neg h1, ite_self, if_neg (fun hc => h1 hc.1)]

/-- a row r of block j gets the block's own frames, plus (for the first three rows of a later block) what the block before left hanging over -/
theorem ola_split_main (f : ℕ → ℕ → M) (j r h : ℕ) (hj : j < 4) (hr : r < 512) :
    (∑ m : Fin 4, if m.val ≤ 512 * j + r ∧ 512 * j + r - m.val < 2048 then f (512 * j + r - m.val) (256 * m.val + h) else 0)
      = (∑ m : Fin 4, if m.val ≤ r ∧ r - m.val < 512 then f (512 * j + (r - m.val)) (256 * m.val + h) else 0)
        + (if r < 3 ∧ j ≠ 0 then ∑ m : Fin 4, if m.val ≤ 512 + r ∧ 512 + r - m.val < 512 then f (512 * (j - 1) + (512 + r - m.val)) (256 * m.val + h) else 0 else 0) := by
  by_cases hr3 : r < 3
  · by_cases hj0 : j = 0
    · -- the first block: nothing hangs over from before; frames before frame 0 do not exist
      rw [if_neg (fun hc => hc.2 hj0), add_zero]
      refine Finset.sum_congr rfl fun m _ => ?_
      have hm : m.val < 4 := m.isLt
      by_cases hmr : m.val ≤ r
      · have e : 512 * j + r - m.val = 512 * j + (r - m.val) := by omega
        rw [if_pos (by omega), if_pos (by omega), e]
      · rw [if_neg (by omega), if_neg (by omega)]
    · -- a later block: quarters m ≤ r come from the block's own frames, the others from the block before
      rw [if_pos ⟨hr3, hj0⟩, ← Finset.sum_add_distrib]
      refine Finset.sum_congr rfl fun m _ => ?_
      have hm : m.val < 4 := m.isLt
      by_cases hmr : m.val ≤ r
      · have e : 512 * j + r - m.val = 512 * j + (r - m.val) := by omega
        rw [if_pos (by omega), if_pos (by omega), if_neg (by omega), add_zero, e]
      · have e : 512 * j + r - m.val = 512 * (j - 1) + (512 + r - m.val) := by omega
        rw [if_pos (by omega), if_neg (by omega), if_pos (by omega), zero_add, e]
  · -- from the fourth row on, all four covering frames belong to the block itself
    rw [if_neg (fun hc => hr3 hc.1), add_zero]
    refine Finset.sum_congr rfl fun m _ => ?_
    have hm : m.val < 4 := m.isLt
    have e : 512 * j + r - m.val = 512 * j + (r - m.val) := by omega
    rw [if_pos (by omega), if_pos (by omega), e]

/-- the three rows after the last block are what the last block leaves hanging over -/
theorem ola_split_tail (f : ℕ → ℕ → M) (q h : ℕ) (hq : q < 3) :
    (∑ m : Fin 4, if m.val ≤ 2048 + q ∧ 2048 + q - m.val < 2048 then f (2048 + q - m.val) (256 * m.val + h) else 0)
      = ∑ m : Fin 4, if m.val ≤ 512 + q ∧ 512 + q - m.val < 512 then f (512 * 3 + (512 + q - m.val)) (256 * m.val + h) else 0 := by
  refine Finset.sum_congr rfl fun m _ => ?_
  have hm : m.val < 4 := m.isLt
  by_cases hmq : q < m.val
  · have e : 2048 + q - m.val = 512 * 3 + (512 + q - m.val) := by omega
    rw [if_pos (by omega), if_pos (by omega), e]
  · rw [if_neg (by omega), if_neg (by omega)]

end Cert.LibOverlapAdd
-- ==== Proof.RefValue.lean ====
/-
  The reference program's result is the specification function, index by index, on the extended reals.

  The joined spectrum (real half, then imaginary half) times the basis is one synthesis frame; the scatter-add
  lays frame t down at columns 256·t .. 256·t + 1023 and adds where frames overlap, which is the overlap-add sum;
  the crop drops 384 columns, and the result is doubled and divided by scale + ε.
-/
import proofs.«182085_j25881472926130_2_alg».proof.Proof.RefIdx
import proofs.«182085_j25881472926130_2_alg».proof.Proof.Spec
import proofs.«182085_j25881472926130_2_alg».proof.Proof.LibOverlapAdd
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx Idealize.ShloMosaic.TcCoe Idealize.SL.Sem Idealize.ShloMosaic.StableHlo

/-- The real half of the input, viewed [16, 2048, 512], at (b, t, c). -/
theorem v1_apply (x0 : S16x2x2048x512.Idx → EReal) (b : Fin 16) (t : Fin 2048) (c : Fin 512) :
    val_main_v1 (F := Ideal) x0 (ix3 b t c) = x0 (ix4 b (0 : Fin 2) t c) := by
  rw [val_main_v1_apply, val_main_v0_apply]
  refine congrArg x0 (funext fun a => Fin.ext ?_)
  have hb := b.isLt; have ht := t.isLt; have hc := c.isLt
  match a with
  | ⟨0, _⟩ => show ((b.val * 2048 + t.val) * 512 + c.val) / 1048576 = b.val; omega
  | ⟨1, _⟩ => rfl
  | ⟨2, _⟩ => show ((b.val * 2048 + t.val) * 512 + c.val) / 512 % 2048 = t.val; omega
  | ⟨3, _⟩ => show ((b.val * 2048 + t.val) * 512 + c.val) % 512 = c.val; omega

/-- The imaginary half of the input, viewed [16, 2048, 512], at (b, t, c). -/
theorem v3_apply (x0 : S16x2x2048x512.Idx → EReal) (b : Fin 16) (t : Fin 2048) (c : Fin 512) :
    val_main_v3 (F := Ideal) x0 (ix3 b t c) = x0 (ix4 b (1 : Fin 2) t c) := by
  rw [val_main_v3_apply, val_main_v2_apply]
  refine congrArg x0 (funext fun a => Fin.ext ?_)
  have hb := b.isLt; have ht := t.isLt; have hc := c.isLt
  match a with
  | ⟨0, _⟩ => show ((b.val * 2048 + t.val) * 512 + c.val) / 1048576 = b.val; omega
  | ⟨1, _⟩ => rfl
  | ⟨2, _⟩ => show ((b.val * 2048 + t.val) * 512 + c.val) / 512 % 2048 = t.val; omega
  | ⟨3, _⟩ => show ((b.val * 2048 + t.val) * 512 + c.val) % 512 = c.val; omega

/-- The joined 1024-channel vector at a channel below 512: the real half. -/
theorem v4_left (x0 : S16x2x2048x512.Idx → EReal) (b : Fin 16) (t : Fin 2048) (c : Fin 512) :
    val_main_v4 (F := Ideal) x0 (ix3 b t (⟨c.val, by omega⟩ : Fin 1024)) = x0 (ix4 b (0 : Fin 2) t c) := by
  unfold val_main_v4
  refine (concatenate_pair_apply_left (t := S16x2048x1024) (s₁ := S16x2048x512) (s₂ := S16x2048x512) (2 : Fin S16x2048x1024.rank) _ _ _
    (ix3 b t (⟨c.val, by omega⟩ : Fin 1024)) rfl (ix3 b t c) (fun a => by
      match a with
      | ⟨0, _⟩ => rfl
      | ⟨1, _⟩ => rfl
      | ⟨2, _⟩ => rfl)).trans ?_
  exact v1_apply x0 b t c

/-- The joined 1024-channel vector at channel 512 + c: the imaginary half. -/
theorem v4_right (x0 : S16x2x2048x512.Idx → EReal) (b : Fin 16) (t : Fin 2048) (c : Fin 512) :
    val_main_v4 (F := Ideal) x0 (ix3 b t (⟨512 + c.val, by omega⟩ : Fin 1024)) = x0 (ix4 b (1 : Fin 2) t c) := by
  unfold val_main_v4
  refine (concatenate_pair_apply_right (t := S16x2048x1024) (s₁ := S16x2048x512) (s₂ := S16x2048x512) (2 : Fin S16x2048x1024.rank) _ _ _
    (ix3 b t (⟨512 + c.val, by omega⟩ : Fin 1024)) rfl rfl (ix3 b t c) (fun a ha => by
      match a with
      | ⟨0, _⟩ => rfl
      | ⟨1, _⟩ => rfl
      | ⟨2, _⟩ => exact absurd rfl ha) (by show c.val + 512 = 512 + c.val; omega)).trans ?_
  exact v3_apply x0 b t c

/-- A sum over 1024 channels is the sum over the first 512 plus the sum over the last 512. -/
theorem sum_fin1024_halves {M : Type*} [AddCommMonoid M] (g : Fin 1024 → M) :
    (∑ k : Fin 1024, g k) = (∑ c : Fin 512, g ⟨c.val, by omega⟩) + ∑ c : Fin 512, g ⟨512 + c.val, by omega⟩ :=
  Fin.sum_univ_add (a := 512) (b := 512) g

/-- The product of the joined vector with the basis is the synthesis frame. -/
theorem v5_apply (x0 : S16x2x2048x512.Idx → EReal) (x1 : S1024x1024.Idx → EReal) (b : Fin 16) (t : Fin 2048) (k : Fin 1024) :
    val_main_v5 (F := Ideal) x0 x1 (ix3 b t k) = Cert.Spec.frame x0 x1 b t k := by
  rw [val_main_v5_apply, sum_fin1024_halves]
  unfold Cert.Spec.frame
  refine congrArg₂ (· + ·) (Finset.sum_congr rfl fun c _ => ?_) (Finset.sum_congr rfl fun c _ => ?_)
  · have e1 : lidx_main_v5 (ix3 b t k) (⟨c.val, by omega⟩ : Fin 1024) = ix3 b t (⟨c.val, by omega⟩ : Fin 1024) :=
      funext fun a => by
        match a with
        | ⟨0, _⟩ => rfl
        | ⟨1, _⟩ => rfl
        | ⟨2, _⟩ => rfl
    have e2 : ridx_main_v5 (ix3 b t k) (⟨c.val, by omega⟩ : Fin 1024) = ix2 (⟨c.val, by omega⟩ : Fin 1024) k :=
      funext fun a => by
        match a with
        | ⟨0, _⟩ => rfl
        | ⟨1, _⟩ => rfl
    rw [e1, e2, v4_left]
  · have e1 : lidx_main_v5 (ix3 b t k) (⟨512 + c.val, by omega⟩ : Fin 1024) = ix3 b t (⟨512 + c.val, by omega⟩ : Fin 1024) :=
      funext fun a => by
        match a with
        | ⟨0, _⟩ => rfl
        | ⟨1, _⟩ => rfl
        | ⟨2, _⟩ => rfl
    have e2 : ridx_main_v5 (ix3 b t k) (⟨512 + c.val, by omega⟩ : Fin 1024) = ix2 (⟨512 + c.val, by omega⟩ : Fin 1024) k :=
      funext fun a => by
        match a with
        | ⟨0, _⟩ => rfl
        | ⟨1, _⟩ => rfl
    rw [e1, e2, v4_right]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Two rank-2 indices given by coordinates are equal exactly when the coordinates are. -/
theorem ix2_eq_iff {n0 n1 : Nat} (a a' : Fin n0) (c c' : Fin n1) : ix2 a c = ix2 a' c' ↔ a = a' ∧ c = c' :=
  ⟨fun h => ⟨by have h0 := congrFun h ⟨0, Nat.zero_lt_two⟩; exact h0, by have h1 := congrFun h ⟨1, Nat.one_lt_two⟩; exact h1⟩,
    fun h => by rw [h.1, h.2]⟩

/-- The scatter's dimension record. -/
abbrev sdims : ScatterDims S16x525056 S2048x1024x1 S16x2048x1024 := scatter_S16x525056_S2048x1024x1_S16x2048x1024_0_1_1_2

/-- Update element (b, t, k) lands at row b, column 256·t + k of the operand. -/
theorem result_idx (b : Fin 16) (t : Fin 2048) (k : Fin 1024) :
    sdims.resultIdx? (ix3 b t k) (val_main_v21 (F := Ideal))
      = some (ix2 b (⟨256 * t.val + k.val, by omega⟩ : Fin 525056)) := by
  have hs0 : sdims.start (ix3 b t k) (val_main_v21 (F := Ideal)) ⟨0, by decide⟩ = 0 := by
    unfold ScatterDims.start
    rw [dif_neg (by decide)]
  have hs1 : sdims.start (ix3 b t k) (val_main_v21 (F := Ideal)) ⟨1, by decide⟩ = ((256 * t.val + k.val : Nat) : Int) := by
    unfold ScatterDims.start
    rw [dif_pos (by decide)]
    have e : sdims.siIdx (ix3 b t k) ⟨sdims.scatterDimsToOperandDims.idxOf (⟨1, by decide⟩ : Fin S16x525056.rank), by decide⟩
        = ix3 t k (0 : Fin 1) := funext fun a => Fin.ext (by
      match a with
      | ⟨0, _⟩ => rfl
      | ⟨1, _⟩ => rfl
      | ⟨2, _⟩ => rfl)
    rw [e, idx_word, word_toInt]
  have hw0 : sdims.window (ix3 b t k) ⟨0, by decide⟩ = b.val := by
    unfold ScatterDims.window
    rw [dif_pos (by decide)]
    rfl
  have hw1 : sdims.window (ix3 b t k) ⟨1, by decide⟩ = 0 := by
    unfold ScatterDims.window
    rw [dif_neg (by decide)]
  have hb := b.isLt; have ht := t.isLt; have hk := k.isLt
  have h : ∀ a, 0 ≤ sdims.start (ix3 b t k) (val_main_v21 (F := Ideal)) a + sdims.window (ix3 b t k) a
      ∧ sdims.start (ix3 b t k) (val_main_v21 (F := Ideal)) a + sdims.window (ix3 b t k) a < S16x525056.size a := by
    intro a
    match a with
    | ⟨0, _⟩ =>
      show 0 ≤ sdims.start (ix3 b t k) (val_main_v21 (F := Ideal)) ⟨0, by decide⟩ + (sdims.window (ix3 b t k) ⟨0, by decide⟩ : Nat)
        ∧ sdims.start (ix3 b t k) (val_main_v21 (F := Ideal)) ⟨0, by decide⟩ + (sdims.window (ix3 b t k) ⟨0, by decide⟩ : Nat) < ((16 : Nat) : Int)
      rw [hs0, hw0]; omega
    | ⟨1, _⟩ =>
      show 0 ≤ sdims.start (ix3 b t k) (val_main_v21 (F := Ideal)) ⟨1, by decide⟩ + (sdims.window (ix3 b t k) ⟨1, by decide⟩ : Nat)
        ∧ sdims.start (ix3 b t k) (val_main_v21 (F := Ideal)) ⟨1, by decide⟩ + (sdims.window (ix3 b t k) ⟨1, by decide⟩ : Nat) < ((525056 : Nat) : Int)
      rw [hs1, hw1]; omega
  unfold ScatterDims.resultIdx?
  rw [dif_pos h]
  refine congrArg some (funext fun a => Fin.ext ?_)
  match a with
  | ⟨0, _⟩ =>
    show (sdims.start (ix3 b t k) (val_main_v21 (F := Ideal)) ⟨0, by decide⟩ + (sdims.window (ix3 b t k) ⟨0, by decide⟩ : Nat)).toNat = b.val
    rw [hs0, hw0]; omega
  | ⟨1, _⟩ =>
    show (sdims.start (ix3 b t k) (val_main_v21 (F := Ideal)) ⟨1, by decide⟩ + (sdims.window (ix3 b t k) ⟨1, by decide⟩ : Nat)).toNat = 256 * t.val + k.val
    rw [hs1, hw1]; omega

/-- The scatter-add into zeros at (b, p): the overlap-add sum at sample p of batch b. -/
theorem v22_apply (x0 : S16x2x2048x512.Idx → EReal) (x1 : S1024x1024.Idx → EReal) (b : Fin 16) (p : Fin 525056) :
    val_main_v22 (F := Ideal) x0 x1 (ix2 b p) = Cert.Spec.ola x0 x1 b p.val := by
  unfold val_main_v22
  show Ideal.hostScatterAdd sdims (val_main_v15 (F := Ideal)) (val_main_v21 (F := Ideal)) (val_main_v5 (F := Ideal) x0 x1) (ix2 b p) = _
  unfold Ideal.hostScatterAdd
  rw [val_main_v15_apply, val_main_cst_apply, Ideal.ofBits_def, Ideal.ofBits_zero_f32, zero_add, Finset.sum_filter, sum_idx3]
  simp only [result_idx, v5_apply]
  unfold Cert.Spec.ola
  rw [Finset.sum_eq_single b]
  · refine Finset.sum_congr rfl fun t _ => Finset.sum_congr rfl fun k _ => ?_
    by_cases hp : 256 * t.val + k.val = p.val
    · rw [if_pos hp, if_pos]
      exact congrArg some ((ix2_eq_iff _ _ _ _).2 ⟨rfl, Fin.ext hp⟩)
    · rw [if_neg hp, if_neg]
      intro hc
      exact hp (congrArg Fin.val ((ix2_eq_iff _ _ _ _).1 (Option.some.inj hc)).2)
  · intro b' _ hb'
    refine Finset.sum_eq_zero fun t _ => Finset.sum_eq_zero fun k _ => ?_
    rw [if_neg]
    intro hc
    exact hb' ((ix2_eq_iff _ _ _ _).1 (Option.some.inj hc)).1
  · intro hmem
    exact absurd (Finset.mem_univ _) hmem

/-- The reference's result is the specification function. -/
theorem ref_is_G (a0 : S16x2x2048x512.Idx → EReal) (a1 : S1024x1024.Idx → EReal) (a2 : S524288.Idx → EReal) :
    val_main_v30 (F := Ideal) a0 a1 a2 = Cert.Spec.G a0 a1 a2 := by
  funext i
  obtain ⟨b, j, rfl⟩ : ∃ (b : Fin 16) (j : Fin 524288), i = ix2 b j := ⟨i 0, i 1, eq_ix2 i⟩
  rw [val_main_v30_apply, val_main_v25_apply, val_main_v24_apply, val_main_cst_2_apply, val_main_v23_apply,
    val_main_v29_apply, val_main_v28_apply, val_main_v26_apply, val_main_v27_apply, val_main_cst_3_apply]
  have e1 : idx_main_v23 (ix2 b j) = ix2 b (⟨j.val + 384, by omega⟩ : Fin 525056) := funext fun a => Fin.ext (by
    match a with
    | ⟨0, _⟩ => rfl
    | ⟨1, _⟩ => show 384 + j.val = j.val + 384; omega)
  have e2 : idx_main_v26 (idx_main_v29 (ix2 b j)) = ix1 j := funext fun a => by
    match a with
    | ⟨0, _⟩ => rfl
  rw [e1, e2, v22_apply]
  rfl

end Cert.RefValue

end
-- ==== Proof.KvTail.lean ====
/-
  The operations after the kernel region, read at an index on the extended reals, and the specification function.

  Column p of the joined signal is element (p / 256, p % 256) of the main result array when p < 524288 and
  element ((p - 524288) / 256, p % 256) of the three trailing rows otherwise. The result at (b, j) is column
  j + 384 times 2 / (scale j + ε); off scale j + ε = 0 that is (2 · column) / (scale j + ε).
-/
import proofs.«182085_j25881472926130_2_alg».proof.Proof.KvTailRun
import proofs.«182085_j25881472926130_2_alg».proof.Proof.Spec
import Idealize.ShloMosaic.Lib.ValueIdx
import Idealize.ShloMosaic.Lib.ValueLayout
import Idealize.ShloMosaic.Lib.Pipeline.Value
import Idealize.ShloMosaic.Lib.DynamicIndex
import Idealize.ShloMosaic.PureOps.Ideal.Laws

noncomputable section

open scoped BigOperators

namespace Cert.KernelIdeal.Tail

open Cert.KernelIdeal Cert.KernelIdeal.Gen Idealize.ShloMosaic Idealize.ShloMosaic.ValueIdx Idealize.ShloMosaic.TcCoe Idealize.SL.Sem Idealize.ShloMosaic.StableHlo

/-- The joined signal at row b, column p. -/
theorem tailCat_apply (y4 : S16x2048x256.Idx → EReal) (y5 : S16x3x256.Idx → EReal) (b : Fin 16) (p : Fin 525056) :
    tailCat (F := Ideal) y4 y5 (ix2 b p)
      = if h : p.val < 524288 then y4 (ix3 b (⟨p.val / 256, by omega⟩ : Fin 2048) (⟨p.val % 256, by omega⟩ : Fin 256))
        else y5 (ix3 b (⟨(p.val - 524288) / 256, by omega⟩ : Fin 3) (⟨p.val % 256, by omega⟩ : Fin 256)) := by
  have hb := b.isLt; have hp := p.isLt
  unfold tailCat
  by_cases h : p.val < 524288
  · rw [dif_pos h]
    refine (concatenate_pair_apply_left (t := S16x525056) (s₁ := S16x524288) (s₂ := S16x768) (1 : Fin S16x525056.rank) _ _ _
      (ix2 b p) rfl (ix2 b (⟨p.val, h⟩ : Fin 524288)) (fun a => by
        match a with
        | ⟨0, _⟩ => rfl
        | ⟨1, _⟩ => rfl)).trans ?_
    refine shapeCast_apply y4 shapeCasts_S16x2048x256_S16x524288 (ix2 b (⟨p.val, h⟩ : Fin 524288))
      (ix3 b (⟨p.val / 256, by omega⟩ : Fin 2048) (⟨p.val % 256, by omega⟩ : Fin 256)) ?_
    rw [Shape.rowMajor_val_three, Shape.rowMajor_val_two]
    show (b.val * 2048 + p.val / 256) * 256 + p.val % 256 = b.val * 524288 + p.val
    omega
  · rw [dif_neg h]
    refine (concatenate_pair_apply_right (t := S16x525056) (s₁ := S16x524288) (s₂ := S16x768) (1 : Fin S16x525056.rank) _ _ _
      (ix2 b p) rfl rfl (ix2 b (⟨p.val - 524288, by omega⟩ : Fin 768)) (fun a ha => by
        match a with
        | ⟨0, _⟩ => rfl
        | ⟨1, _⟩ => exact absurd rfl ha) (by show p.val - 524288 + 524288 = p.val; omega)).trans ?_
    refine shapeCast_apply y5 shapeCasts_S16x3x256_S16x768 (ix2 b (⟨p.val - 524288, by omega⟩ : Fin 768))
      (ix3 b (⟨(p.val - 524288) / 256, by omega⟩ : Fin 3) (⟨p.val % 256, by omega⟩ : Fin 256)) ?_
    rw [Shape.rowMajor_val_three, Shape.rowMajor_val_two]
    show (b.val * 3 + (p.val - 524288) / 256) * 256 + p.val % 256 = b.val * 768 + (p.val - 524288)
    omega

/-- The factor at (b, j): 2 / (scale j + ε). -/
theorem tailScale_apply (sc : S524288.Idx → EReal) (b : Fin 16) (j : Fin 524288) :
    tailScale (F := Ideal) sc (ix2 b j) = Ideal.div Cert.Spec.two (sc (ix1 j) + Cert.Spec.eps) := by
  unfold tailScale
  refine (broadcastInDim_apply _ bcast_S1x524288_S16x524288_0_1 _ (ix2 b j) (ix2 (0 : Fin 1) j) (fun a => by
    match a with
    | ⟨0, _⟩ => show 0 = if (1 : Nat) = 1 then 0 else b.val; rw [if_pos rfl]
    | ⟨1, _⟩ => show j.val = if (524288 : Nat) = 1 then 0 else j.val; rw [if_neg (by decide)])).trans ?_
  refine (broadcastInDim_apply _ bcast_S524288_S1x524288_1 _ (ix2 (0 : Fin 1) j) (ix1 j) (fun a => by
    match a with
    | ⟨0, _⟩ => show j.val = if (524288 : Nat) = 1 then 0 else j.val; rw [if_neg (by decide)])).trans ?_
  show Ideal.div (broadcastInDim S524288 ![] bcast_S_S524288 (constant (F := Ideal) S_ .f32 0x40000000#32) (ix1 j))
    (sc (ix1 j) + broadcastInDim S524288 ![] bcast_S_S524288 (constant (F := Ideal) S_ .f32 0x33D6BF95#32) (ix1 j)) = _
  rw [broadcastInDim_apply _ bcast_S_S524288 (constant (F := Ideal) S_ .f32 0x40000000#32) (ix1 j) ix0 (fun a => a.elim0),
    broadcastInDim_apply _ bcast_S_S524288 (constant (F := Ideal) S_ .f32 0x33D6BF95#32) (ix1 j) ix0 (fun a => a.elim0)]
  rfl

/-- The kept block at (b, j) is column j + 384 of the joined signal. -/
theorem tailSlice_apply (x : S16x525056.Idx → EReal) (b : Fin 16) (j : Fin 524288) :
    Host.dynamicSlice S16x524288 x (![0, 384] : Fin 2 → Int) sliceFits_S16x525056_S16x524288 (ix2 b j)
      = x (ix2 b (⟨j.val + 384, by omega⟩ : Fin 525056)) := by
  have hoff : S16x525056.Slices (![0, 384] : Fin 2 → Nat) S16x524288 := by decide
  rw [Host.dynamicSlice_eq_extractStridedSlice S16x524288 x (![0, 384] : Fin 2 → Int) (![0, 384] : Fin 2 → Nat)
    sliceFits_S16x525056_S16x524288 hoff (fun a => by
      match a with
      | ⟨0, _⟩ => rfl
      | ⟨1, _⟩ => rfl)]
  exact extractStridedSlice_apply _ x hoff (ix2 b j) (ix2 b (⟨j.val + 384, by omega⟩ : Fin 525056)) (fun a => by
    match a with
    | ⟨0, _⟩ => show b.val = 0 + b.val; omega
    | ⟨1, _⟩ => show j.val + 384 = 384 + j.val; omega)

/-- The operations after the region at (b, j). -/
theorem tailFn_apply (y4 : S16x2048x256.Idx → EReal) (y5 : S16x3x256.Idx → EReal) (sc : S524288.Idx → EReal)
    (b : Fin 16) (j : Fin 524288) :
    tailFn (F := Ideal) y4 y5 sc (ix2 b j)
      = (if h : j.val + 384 < 524288 then y4 (ix3 b (⟨(j.val + 384) / 256, by omega⟩ : Fin 2048) (⟨(j.val + 384) % 256, by omega⟩ : Fin 256))
          else y5 (ix3 b (⟨(j.val + 384 - 524288) / 256, by omega⟩ : Fin 3) (⟨(j.val + 384) % 256, by omega⟩ : Fin 256)))
        * Ideal.div Cert.Spec.two (sc (ix1 j) + Cert.Spec.eps) := by
  unfold tailFn
  show Host.dynamicSlice S16x524288 (tailCat (F := Ideal) y4 y5) (![0, 384] : Fin 2 → Int) sliceFits_S16x525056_S16x524288 (ix2 b j)
    * tailScale (F := Ideal) sc (ix2 b j) = _
  rw [tailScale_apply, tailSlice_apply, tailCat_apply]

/-- With the two result arrays holding the overlap-add sums, the operations after the region give the
specification function (where scale + ε is not 0). -/
theorem tail_is_G (x : (⟨4, ![16, 2, 2048, 512]⟩ : Shape).Idx → EReal) (W : (⟨2, ![1024, 1024]⟩ : Shape).Idx → EReal)
    (scale : (⟨1, ![524288]⟩ : Shape).Idx → EReal) (y4 : S16x2048x256.Idx → EReal) (y5 : S16x3x256.Idx → EReal)
    (hy4 : ∀ (b : Fin 16) (T : Fin 2048) (h : Fin 256), y4 (ix3 b T h) = Cert.Spec.ola x W b (256 * T.val + h.val))
    (hy5 : ∀ (b : Fin 16) (q : Fin 3) (h : Fin 256), y5 (ix3 b q h) = Cert.Spec.ola x W b (256 * (2048 + q.val) + h.val))
    (hne : ∀ j : Fin 524288, scale (ix1 j) + Cert.Spec.eps ≠ 0) :
    tailFn (F := Ideal) y4 y5 scale = Cert.Spec.G x W scale := by
  funext i
  obtain ⟨b, j, rfl⟩ : ∃ (b : Fin 16) (j : Fin 524288), i = ix2 b j := ⟨i 0, i 1, eq_ix2 i⟩
  have hj := j.isLt
  rw [tailFn_apply]
  have hcol : (if h : j.val + 384 < 524288 then y4 (ix3 b (⟨(j.val + 384) / 256, by omega⟩ : Fin 2048) (⟨(j.val + 384) % 256, by omega⟩ : Fin 256))
      else y5 (ix3 b (⟨(j.val + 384 - 524288) / 256, by omega⟩ : Fin 3) (⟨(j.val + 384) % 256, by omega⟩ : Fin 256)))
      = Cert.Spec.ola x W b (j.val + 384) := by
    by_cases h : j.val + 384 < 524288
    · rw [dif_pos h, hy4]
      refine congrArg (Cert.Spec.ola x W b) ?_
      show 256 * ((j.val + 384) / 256) + (j.val + 384) % 256 = j.val + 384
      omega
    · rw [dif_neg h, hy5]
      refine congrArg (Cert.Spec.ola x W b) ?_
      show 256 * (2048 + (j.val + 384 - 524288) / 256) + (j.val + 384) % 256 = j.val + 384
      omega
  rw [hcol]
  show Cert.Spec.ola x W b (j.val + 384) * Ideal.div Cert.Spec.two (scale (ix1 j) + Cert.Spec.eps)
    = Ideal.div (Cert.Spec.two * Cert.Spec.ola x W b (j.val + 384)) (scale (ix1 j) + Cert.Spec.eps)
  unfold Ideal.div
  rw [if_neg (hne j), if_neg (hne j), ← mul_assoc, mul_comm (Cert.Spec.ola x W b (j.val + 384)) Cert.Spec.two]

end Cert.KernelIdeal.Tail

end
-- ==== Proof.FrPieces.lean ====
/-
  The closed forms of what the body leaves: each case's pieces read back are one payload over the frame
  `k0_pay7` of the four input blocks and the carry found in the scratch (the zero block where the second grid
  coordinate is zero); and, point by point along the grid, the two outputs and the scratch after each point.
-/
import proofs.«182085_j25881472926130_2_alg».proof.Proof.FrData
import Idealize.ShloMosaic.Lib.Pipeline.Value
import Idealize.ShloMosaic.Lib.StableHlo.Run
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## Each case's pieces, read back -/

/-- Where the second grid coordinate is zero: the first conditional is taken, the second is not, the first output's staging buffer is left at the leading 512 rows of the frame with the carry added (the carry found is the zero block just stored). -/
theorem out0_A_4_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : cond0_0 i) (hc1 : ¬cond0_1 i)
    (x0 : Vec F S1x1x512x512 .f32) (x1 : Vec F S1x1x512x512 .f32) (x2 : Vec F S512x1024 .f32) (x3 : Vec F S512x1024 .f32) :
    out0_A_4 c i arg2 harg2 arg3 harg3 arg4 harg4 arg5 harg5 arg6 harg6 arg7 harg7 arg8 harg8 hc0 hc1 x0 x1 x2 x3 = k0_pay4 (k0_pay7 x0 x1 x2 x3) (k0_pay1 (F := F)) := by
  unfold out0_A_4
  rw [View.read_writes_eq_canon _ _ _ (cover0_A_4 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero (S := S1x512x256) hz3]
  simp only [View.readAt_eq_ld, harg2.read_unread, harg3.read_unread, harg4.read_unread, harg5.read_unread, harg8.read_unread,
    View.readCov_unit_zero (S := S3x256) _ hz2,
    View.ld_unit_zero (S := S3x256) hz2, View.ld_unit_zero (S := S1x1x512x512) hz4, View.ld_unit_zero (S := S512x1024) hz2]

/-- Where the second grid coordinate is zero: the first conditional is taken, the second is not, the scratch is left at the trailing three rows: the carry the next point finds (the carry found is the zero block just stored). -/
theorem sout0_A_0_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : cond0_0 i) (hc1 : ¬cond0_1 i)
    (x0 : Vec F S1x1x512x512 .f32) (x1 : Vec F S1x1x512x512 .f32) (x2 : Vec F S512x1024 .f32) (x3 : Vec F S512x1024 .f32) :
    sout0_A_0 c i arg2 harg2 arg3 harg3 arg4 harg4 arg5 harg5 arg6 harg6 arg7 harg7 arg8 harg8 hc0 hc1 x0 x1 x2 x3 = k0_pay5 (k0_pay7 x0 x1 x2 x3) (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S3x256) hz2]
  simp only [View.readAt_eq_ld, harg2.read_unread, harg3.read_unread, harg4.read_unread, harg5.read_unread, harg8.read_unread,
    View.readCov_unit_zero (S := S3x256) _ hz2,
    View.ld_unit_zero (S := S3x256) hz2, View.ld_unit_zero (S := S1x1x512x512) hz4, View.ld_unit_zero (S := S512x1024) hz2]

/-- Where the second grid coordinate is one or two: neither conditional is taken, the first output's staging buffer is left at the leading 512 rows of the frame with the carry added. -/
theorem out0_B_4_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : ¬cond0_1 i)
    (x0 : Vec F S1x1x512x512 .f32) (x1 : Vec F S1x1x512x512 .f32) (x2 : Vec F S512x1024 .f32) (x3 : Vec F S512x1024 .f32) (xs0 : Vec F S3x256 .f32) :
    out0_B_4 c i arg2 harg2 arg3 harg3 arg4 harg4 arg5 harg5 arg6 harg6 arg7 harg7 arg8 harg8 hc0 hc1 x0 x1 x2 x3 xs0 = k0_pay4 (k0_pay7 x0 x1 x2 x3) xs0 := by
  unfold out0_B_4
  rw [View.read_writes_eq_canon _ _ _ (cover0_B_4 c i arg2 harg2 arg3 harg3 arg4 harg4 arg5 harg5 arg6 harg6 arg7 harg7 arg8 harg8 hc0 hc1 x0 x1 x2 x3 xs0)]
  unfold kernelRun0_B
  dsimp only
  sl_unfold_words
  rw [View.canon_unit_zero (S := S1x512x256) hz3]
  simp only [View.readAt_eq_ld, harg2.read_unread, harg3.read_unread, harg4.read_unread, harg5.read_unread, harg8.read_unread,
    View.readCov_unit_zero (S := S3x256) _ hz2,
    View.ld_unit_zero (S := S3x256) hz2, View.ld_unit_zero (S := S1x1x512x512) hz4, View.ld_unit_zero (S := S512x1024) hz2]

/-- Where the second grid coordinate is one or two: neither conditional is taken, the scratch is left at the trailing three rows: the carry the next point finds. -/
theorem sout0_B_0_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : ¬cond0_1 i)
    (x0 : Vec F S1x1x512x512 .f32) (x1 : Vec F S1x1x512x512 .f32) (x2 : Vec F S512x1024 .f32) (x3 : Vec F S512x1024 .f32) (xs0 : Vec F S3x256 .f32) :
    sout0_B_0 c i arg2 harg2 arg3 harg3 arg4 harg4 arg5 harg5 arg6 harg6 arg7 harg7 arg8 harg8 hc0 hc1 x0 x1 x2 x3 xs0 = k0_pay5 (k0_pay7 x0 x1 x2 x3) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0)]
  unfold kernelRun0_B
  dsimp only
  sl_unfold_words
  rw [View.canon_unit_zero (S := S3x256) hz2]
  simp only [View.readAt_eq_ld, harg2.read_unread, harg3.read_unread, harg4.read_unread, harg5.read_unread, harg8.read_unread,
    View.readCov_unit_zero (S := S3x256) _ hz2,
    View.ld_unit_zero (S := S3x256) hz2, View.ld_unit_zero (S := S1x1x512x512) hz4, View.ld_unit_zero (S := S512x1024) hz2]

/-- Where the second grid coordinate is three: the first conditional is not taken, the second is, the first output's staging buffer is left at the leading 512 rows of the frame with the carry added. -/
theorem out0_C_4_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) :
    out0_C_4 c i arg2 harg2 arg3 harg3 arg4 harg4 arg5 harg5 arg6 harg6 arg7 harg7 arg8 harg8 hc0 hc1 x0 x1 x2 x3 xs0 = k0_pay4 (k0_pay7 x0 x1 x2 x3) xs0 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero (S := S1x512x256) hz3]
  simp only [View.readAt_eq_ld, harg2.read_unread, harg3.read_unread, harg4.read_unread, harg5.read_unread, harg8.read_unread,
    View.readCov_unit_zero (S := S3x256) _ hz2,
    View.ld_unit_zero (S := S3x256) hz2, View.ld_unit_zero (S := S1x1x512x512) hz4, View.ld_unit_zero (S := S512x1024) hz2]

/-- Where the second grid coordinate is three: the first conditional is not taken, the second is, the second output's staging buffer is left at the trailing three rows. -/
theorem out0_C_5_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) :
    out0_C_5 c i arg2 harg2 arg3 harg3 arg4 harg4 arg5 harg5 arg6 harg6 arg7 harg7 arg8 harg8 hc0 hc1 x0 x1 x2 x3 xs0 = k0_pay6 (k0_pay7 x0 x1 x2 x3) xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero (S := S1x3x256) hz3]
  simp only [View.readAt_eq_ld, harg2.read_unread, harg3.read_unread, harg4.read_unread, harg5.read_unread, harg8.read_unread,
    View.readCov_unit_zero (S := S3x256) _ hz2,
    View.ld_unit_zero (S := S3x256) hz2, View.ld_unit_zero (S := S1x1x512x512) hz4, View.ld_unit_zero (S := S512x1024) hz2]

/-- Where the second grid coordinate is three: the first conditional is not taken, the second is, the scratch is left at the trailing three rows: the carry the next point finds. -/
theorem sout0_C_0_eq (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512x256 .f32) (harg6 : arg6.IsWhole) (arg7 : Memref sig .tc .vmem S1x3x256 .f32) (harg7 : arg7.IsWhole) (arg8 : Memref sig .tc .vmem S3x256 .f32) (harg8 : arg8.IsWhole) (hc0 : ¬cond0_0 i) (hc1 : cond0_1 i)
    (x0 : Vec F S1x1x512x512 .f32) (x1 : Vec F S1x1x512x512 .f32) (x2 : Vec F S512x1024 .f32) (x3 : Vec F S512x1024 .f32) (xs0 : Vec F S3x256 .f32) :
    sout0_C_0 c i arg2 harg2 arg3 harg3 arg4 harg4 arg5 harg5 arg6 harg6 arg7 harg7 arg8 harg8 hc0 hc1 x0 x1 x2 x3 xs0 = k0_pay5 (k0_pay7 x0 x1 x2 x3) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero (S := S3x256) hz2]
  simp only [View.readAt_eq_ld, harg2.read_unread, harg3.read_unread, harg4.read_unread, harg5.read_unread, harg8.read_unread,
    View.readCov_unit_zero (S := S3x256) _ hz2,
    View.ld_unit_zero (S := S3x256) hz2, View.ld_unit_zero (S := S1x1x512x512) hz4, View.ld_unit_zero (S := S512x1024) hz2]

/-! ## Point by point -/

variable (m : (ℓ : Loc nD τ sig) → Buf (Elt F) ℓ)

/-- The frame the body computes at point `t` from the four input blocks. -/
def frm (c : Dev nD) (t : Fin cfg0.N) : FVec F S515x256 .f32 :=
  k0_pay7 (iblk m c 0 t) (iblk m c 1 t) (iblk m c 2 t) (iblk m c 3 t)

/-- The carry the body finds in the scratch at point `t`: the zero block where the second grid coordinate is zero,
    else what the point before left. -/
def cin (c : Dev nD) (t : Fin cfg0.N) : Vec F S3x256 .f32 :=
  if t.val % 4 = 0 then (k0_pay1 (F := F)) else (outsAt0 m c (t.val - 1) (Nat.lt_of_le_of_lt (Nat.sub_le _ _) t.isLt)).2.2

theorem cin_of_zero (c : Dev nD) (t : Fin cfg0.N) (h : t.val % 4 = 0) : cin m c t = (k0_pay1 (F := F)) := if_pos h
theorem cin_of_pos (c : Dev nD) (t : Fin cfg0.N) (h : ¬t.val % 4 = 0) :
    cin m c t = (outsAt0 m c (t.val - 1) (Nat.lt_of_le_of_lt (Nat.sub_le _ _) t.isLt)).2.2 := if_neg h

/-- After the body at point `t`: the first output's buffer, the scratch, and — where the second coordinate is three —
    the second output's buffer, each one payload over the point's frame and the carry found. -/
theorem outsAt0_eq (c : Dev nD) (t : Fin cfg0.N) :
    (outsAt0 m c t.val t.isLt).1 = k0_pay4 (frm m c t) (cin m c t)
      ∧ (outsAt0 m c t.val t.isLt).2.2 = k0_pay5 (frm m c t) (cin m c t)
      ∧ (t.val % 4 = 3 → (outsAt0 m c t.val t.isLt).2.1 = k0_pay6 (frm m c t) (cin m c t)) := by
  unfold frm
  by_cases h0 : t.val % 4 = 0
  · have h1 : ¬t.val % 4 = 3 := by omega
    rw [cin_of_zero m c t h0, outsAt0_A m c t h0 h1]
    dsimp only
    rw [out0_A_4_eq, sout0_A_0_eq]
    exact ⟨rfl, rfl, fun h => absurd h h1⟩
  · rw [cin_of_pos m c t h0]
    by_cases h1 : t.val % 4 = 3
    · rw [outsAt0_C m c t h0 h1]
      dsimp only
      rw [out0_C_4_eq, sout0_C_0_eq, out0_C_5_eq]
      exact ⟨rfl, rfl, fun _ => rfl⟩
    · rw [outsAt0_B m c t h0 h1]
      dsimp only
      rw [out0_B_4_eq, sout0_B_0_eq]
      exact ⟨rfl, rfl, fun h => absurd h h1⟩

end Cert.KernelIdeal.Fr

end
-- ==== Proof.PayMatmul.lean ====
/-
  The tile's product read at an index, at the ideal values.

  The kernel multiplies each of two 512 x 512 blocks by a 512 x 1024 block, each product into a zero accumulator,
  and adds the two products. At the ideal values a product into a zero accumulator read at (r, k) is the plain
  sum over the contracted coordinate, so the sum of the two products at (r, k) is the sum of the two plain sums.
-/
import proofs.«182085_j25881472926130_2_alg».proof.Proof.Gen.KernelIdeal.Skeleton
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- One row of the tile's product: row `r` of the block of frames, sample `k`. -/
def tileFrame (v0 v2 : S1x1x512x512.Idx → EReal) (v4 v6 : S512x1024.Idx → EReal) (r : Fin 512) (k : Fin 1024) : EReal :=
  (∑ c : Fin 512, v0 (ix4 (0 : Fin 1) (0 : Fin 1) r c) * v4 (ix2 c k))
    + (∑ c : Fin 512, v2 (ix4 (0 : Fin 1) (0 : Fin 1) r c) * v6 (ix2 c k))

/-- The left operand's index at output (r, k) and contraction coordinate c: its row is r. -/
theorem lhs_row (j : S512x1024.Idx) (q : dot_S512x512_S512x1024_S512x1024_1_0_0_1_n_n.contr.Idx) :
    (dot_S512x512_S512x1024_S512x1024_1_0_0_1_n_n.lhsIdx j q 0).val = (j 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl

/-- The right operand's index at output (r, k) and contraction coordinate c: its column is k. -/
theorem rhs_col (j : S512x1024.Idx) (q : dot_S512x512_S512x1024_S512x1024_1_0_0_1_n_n.contr.Idx) :
    (dot_S512x512_S512x1024_S512x1024_1_0_0_1_n_n.rhsIdx j q 1).val = (j 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- A 512 x 512 by 512 x 1024 product into the zero accumulator, read at (r, k): the sum over the contracted
    coordinate of the products of row r of the left operand with column k of the right one. -/
theorem matmul_zero_apply (a : S512x512.Idx → EReal) (b : S512x1024.Idx → EReal) (r : Fin 512) (k : Fin 1024) :
    matmul (F := Ideal) (φ₁ := .f32) (φ₂ := .f32) dot_S512x512_S512x1024_S512x1024_1_0_0_1_n_n (some .fp32) a b
        (constant S512x1024 .f32 0x00000000#32) (ix2 r k)
      = ∑ c : Fin 512, a (ix2 r c) * b (ix2 c k) := by
  show FloatOps.matmul (F := Ideal) (φ₁ := .f32) (φ₂ := .f32) dot_S512x512_S512x1024_S512x1024_1_0_0_1_n_n (some .fp32) a b
        (constant S512x1024 .f32 0x00000000#32) (ix2 r k) = _
  rw [Ideal.matmul_constant_zero_apply,
    ← Equiv.sum_comp (contrEquiv1 dot_S512x512_S512x1024_S512x1024_1_0_0_1_n_n 512 rfl rfl).symm]
  refine Finset.sum_congr rfl fun c _ => ?_
  have hk := contrEquiv1_symm_val dot_S512x512_S512x1024_S512x1024_1_0_0_1_n_n 512 rfl rfl c
  have el : dot_S512x512_S512x1024_S512x1024_1_0_0_1_n_n.lhsIdx (ix2 r k)
      ((contrEquiv1 dot_S512x512_S512x1024_S512x1024_1_0_0_1_n_n 512 rfl rfl).symm c) = ix2 r c :=
    funext fun x => Fin.ext (by
      match x with
      | ⟨0, _⟩ => exact lhs_row _ _
      | ⟨1, _⟩ => exact (dot_S512x512_S512x1024_S512x1024_1_0_0_1_n_n.lhsIdx_val_of_single rfl _ _).trans hk)
  have er : dot_S512x512_S512x1024_S512x1024_1_0_0_1_n_n.rhsIdx (ix2 r k)
      ((contrEquiv1 dot_S512x512_S512x1024_S512x1024_1_0_0_1_n_n 512 rfl rfl).symm c) = ix2 c k :=
    funext fun x => Fin.ext (by
      match x with
      | ⟨0, _⟩ => exact (dot_S512x512_S512x1024_S512x1024_1_0_0_1_n_n.rhsIdx_val_of_single rfl _ _).trans hk
      | ⟨1, _⟩ => exact rhs_col _ _)
  rw [el, er]

/-- The [1, 1, 512, 512] block viewed as a 512 x 512 matrix reads (0, 0, r, c) at (r, c). -/
theorem cast_block_apply (v : S1x1x512x512.Idx → EReal) (r c : Fin 512) :
    shapeCast S512x512 v shapeCasts_S1x1x512x512_S512x512 (ix2 r c) = v (ix4 (0 : Fin 1) (0 : Fin 1) r c) :=
  shapeCast_apply v _ _ _ (by
    rw [Shape.rowMajor_val_four, Shape.rowMajor_val_two]
    show ((0 * 1 + 0) * 512 + r.val) * 512 + c.val = r.val * 512 + c.val
    omega)

/-- The tile's 512 x 1024 product: the two products into zero accumulators, added. -/
def tileProd (v0 v2 : S1x1x512x512.Idx → EReal) (v4 v6 : S512x1024.Idx → EReal) : S512x1024.Idx → EReal :=
  addf (F := Ideal) (s := S512x1024) (φ := .f32)
    (matmul (F := Ideal) (φ₁ := .f32) (φ₂ := .f32) dot_S512x512_S512x1024_S512x1024_1_0_0_1_n_n (some .fp32)
      (shapeCast S512x512 v0 shapeCasts_S1x1x512x512_S512x512) (shapeCast S512x1024 v4 shapeCasts_S512x1024_S512x1024)
      (constant S512x1024 .f32 0x00000000#32))
    (matmul (F := Ideal) (φ₁ := .f32) (φ₂ := .f32) dot_S512x512_S512x1024_S512x1024_1_0_0_1_n_n (some .fp32)
      (shapeCast S512x512 v2 shapeCasts_S1x1x512x512_S512x512) (shapeCast S512x1024 v6 shapeCasts_S512x1024_S512x1024)
      (constant S512x1024 .f32 0x00000000#32))

/-- The tile's product at (r, k) is sample k of the frame in row r. -/
theorem tileProd_apply (v0 v2 : S1x1x512x512.Idx → EReal) (v4 v6 : S512x1024.Idx → EReal) (r : Fin 512) (k : Fin 1024) :
    tileProd v0 v2 v4 v6 (ix2 r k) = tileFrame v0 v2 v4 v6 r k := by
  unfold tileProd tileFrame
  rw [addf_apply, matmul_zero_apply, matmul_zero_apply, shapeCast_self, shapeCast_self]
  simp only [cast_block_apply]

end Cert.KernelIdeal.Pay

end
-- ==== Proof.PayLayout.lean ====
/-
  The kernel body's layout payloads read at an index, at the ideal values.

  The body adds the 3 x 256 block carried from the previous tile into the first three rows of the 515 x 256
  block of overlapped frames, stores rows 0..511 as the tile's output and keeps rows 512..514 as the block carried
  to the next tile. Here each of these pieces is read at one (row, column).
-/
import proofs.«182085_j25881472926130_2_alg».proof.Proof.Gen.KernelIdeal.Skeleton
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The block of zeros the carry is reset to: every element is 0. -/
theorem pay1_apply (q : Fin 3) (h : Fin 256) : k0_pay1 (F := Ideal) (ix2 q h) = 0 := by
  show shapeCast S3x256 (broadcast S3x256 (Scalar.ofBits (F := Ideal) .f32 0x00000000#32)) shapeCasts_S3x256_S3x256 (ix2 q h) = 0
  rw [shapeCast_self]
  exact Ideal.ofBits_zero_f32

/-- The 515 x 256 block with the carried block added into its first three rows, read at (r, h). -/
theorem pay2_apply (v35 : S515x256.Idx → EReal) (v39 : S3x256.Idx → EReal) (r : Fin 515) (h : Fin 256) :
    k0_pay2 (F := Ideal) v35 v39 (ix2 r h)
      = if hr : r.val < 3 then v35 (ix2 r h) + v39 (ix2 ⟨r.val, hr⟩ h) else v35 (ix2 r h) := by
  unfold k0_pay2
  by_cases hr : r.val < 3
  · rw [dif_pos hr]
    refine (concatenate_pair_apply_left (t := S515x256) (s₁ := S3x256) (s₂ := S512x256) (0 : Fin S515x256.rank) _ _ _ (ix2 r h) rfl (ix2 (⟨r.val, hr⟩ : Fin 3) h) (fun b => by
      match b with
      | ⟨0, _⟩ => rfl
      | ⟨1, _⟩ => rfl)).trans ?_
    rw [addf_apply]
    refine congrArg (· + v39 (ix2 (⟨r.val, hr⟩ : Fin 3) h)) ?_
    exact slice2_axis0_apply 0 v35 _ (⟨r.val, hr⟩ : Fin 3) h r (Nat.zero_add _).symm
  · rw [dif_neg hr]
    refine (concatenate_pair_apply_right (t := S515x256) (s₁ := S3x256) (s₂ := S512x256) (0 : Fin S515x256.rank) _ _ _ (ix2 r h) rfl rfl (ix2 (⟨r.val - 3, by omega⟩ : Fin 512) h) (fun b hb => by
      match b with
      | ⟨0, _⟩ => exact absurd rfl hb
      | ⟨1, _⟩ => rfl) (by show r.val - 3 + 3 = r.val; omega)).trans ?_
    exact slice2_axis0_apply 3 v35 _ (⟨r.val - 3, by omega⟩ : Fin 512) h r (by show r.val = 3 + (r.val - 3); omega)

/-- Rows 512..514 of that block: the carried block is not added there. -/
theorem pay3_apply (v35 : S515x256.Idx → EReal) (v39 : S3x256.Idx → EReal) (q : Fin 3) (h : Fin 256) :
    k0_pay3 (F := Ideal) v35 v39 (ix2 q h) = v35 (ix2 ⟨512 + q.val, by omega⟩ h) := by
  unfold k0_pay3
  refine (slice2_axis0_apply 512 (k0_pay2 (F := Ideal) v35 v39) _ q h (⟨512 + q.val, by omega⟩ : Fin 515) rfl).trans ?_
  rw [pay2_apply, dif_neg (by show ¬ (512 + q.val < 3); omega)]

/-- The tile's output block: rows 0..511, with the carried block added into rows 0..2. -/
theorem pay4_apply (v35 : S515x256.Idx → EReal) (v39 : S3x256.Idx → EReal) (r : Fin 512) (h : Fin 256) :
    k0_pay4 (F := Ideal) v35 v39 (ix3 (0 : Fin 1) r h)
      = if hr : r.val < 3 then v35 (ix2 ⟨r.val, by omega⟩ h) + v39 (ix2 ⟨r.val, hr⟩ h) else v35 (ix2 ⟨r.val, by omega⟩ h) := by
  unfold k0_pay4
  refine (shapeCast_ab_1ab_apply _ _ (0 : Fin 1) r h).trans ?_
  refine (slice2_axis0_apply 0 (k0_pay2 (F := Ideal) v35 v39) _ r h (⟨r.val, by omega⟩ : Fin 515) (Nat.zero_add _).symm).trans ?_
  exact pay2_apply v35 v39 _ h

/-- The block carried to the next tile: rows 512..514. -/
theorem pay5_apply (v35 : S515x256.Idx → EReal) (v39 : S3x256.Idx → EReal) (q : Fin 3) (h : Fin 256) :
    k0_pay5 (F := Ideal) v35 v39 (ix2 q h) = v35 (ix2 ⟨512 + q.val, by omega⟩ h) := by
  unfold k0_pay5
  show shapeCast S3x256 (k0_pay3 (F := Ideal) v35 v39) shapeCasts_S3x256_S3x256 (ix2 q h) = _
  rw [shapeCast_self]
  exact pay3_apply v35 v39 q h

/-- The same rows as the last tile's tail block of shape [1, 3, 256]. -/
theorem pay6_apply (v35 : S515x256.Idx → EReal) (v39 : S3x256.Idx → EReal) (q : Fin 3) (h : Fin 256) :
    k0_pay6 (F := Ideal) v35 v39 (ix3 (0 : Fin 1) q h) = v35 (ix2 ⟨512 + q.val, by omega⟩ h) := by
  unfold k0_pay6
  refine (shapeCast_ab_1ab_apply _ _ (0 : Fin 1) q h).trans ?_
  exact pay3_apply v35 v39 q h

end Cert.KernelIdeal.Pay

end
-- ==== Proof.PayFrames.lean ====
/-
  The block of overlapped frames read at an index, at the ideal values.

  The tile's 512 x 1024 product holds one frame of 1024 samples per row. The body cuts it into four column
  slices of 256 samples; slice j is pushed down by j rows (j rows of zeros above it, 3 - j rows of zeros below it)
  to a 515 x 256 block, and the four blocks are added to a block of zeros. So row r of the sum, at offset h, is the
  sum over the slices j with j <= r < 512 + j of sample 256 * j + h of the frame in row r - j.
-/
import proofs.«182085_j25881472926130_2_alg».proof.Proof.PayMatmul
import proofs.«182085_j25881472926130_2_alg».proof.Proof.PayLayout
import Idealize.ShloMosaic.Lib.KernelVsHost

noncomputable section

open scoped BigOperators

namespace Cert.KernelIdeal.Pay

open Idealize.ShloMosaic Idealize.ShloMosaic.ValueIdx Cert.KernelIdeal Cert.KernelIdeal.Gen

/-- The contribution of slice j to row r at offset h: sample 256 * j + h of row r - j when that row exists. -/
def shifted (X : S512x1024.Idx → EReal) (r : Fin 515) (h : Fin 256) (j : Fin 4) : EReal :=
  if hj : j.val ≤ r.val ∧ r.val < 512 + j.val then
    X (ix2 (⟨r.val - j.val, by omega⟩ : Fin 512) (⟨256 * j.val + h.val, by have := j.isLt; have := h.isLt; omega⟩ : Fin 1024))
  else 0

/-- Slice 0: the first 256 columns on rows 0..511, three rows of zeros below. -/
def slab0 (X : S512x1024.Idx → EReal) : S515x256.Idx → EReal :=
  concatenate S515x256 0
    [⟨S512x256, extractStridedSlice S512x256 ![0, 0] X slices_S512x1024_o0_0_S512x256⟩,
     ⟨S3x256, broadcast S3x256 (Scalar.sitofp .f32 0#32 : Ideal .f32)⟩]
    concatenates_S512x256_S3x256_S515x256_d0

/-- Slice 1: one row of zeros, columns 256..511 on rows 1..512, two rows of zeros. -/
def slab1 (X : S512x1024.Idx → EReal) : S515x256.Idx → EReal :=
  concatenate S515x256 0
    [⟨S513x256, concatenate S513x256 0
        [⟨S1x256, broadcast S1x256 (Scalar.sitofp .f32 0#32 : Ideal .f32)⟩,
         ⟨S512x256, extractStridedSlice S512x256 ![0, 256] X slices_S512x1024_o0_256_S512x256⟩]
        concatenates_S1x256_S512x256_S513x256_d0⟩,
     ⟨S2x256, broadcast S2x256 (Scalar.sitofp .f32 0#32 : Ideal .f32)⟩]
    concatenates_S513x256_S2x256_S515x256_d0

/-- Slice 2: two rows of zeros, columns 512..767 on rows 2..513, one row of zeros. -/
def slab2 (X : S512x1024.Idx → EReal) : S515x256.Idx → EReal :=
  concatenate S515x256 0
    [⟨S514x256, concatenate S514x256 0
        [⟨S2x256, broadcast S2x256 (Scalar.sitofp .f32 0#32 : Ideal .f32)⟩,
         ⟨S512x256, extractStridedSlice S512x256 ![0, 512] X slices_S512x1024_o0_512_S512x256⟩]
        concatenates_S2x256_S512x256_S514x256_d0⟩,
     ⟨S1x256, broadcast S1x256 (Scalar.sitofp .f32 0#32 : Ideal .f32)⟩]
    concatenates_S514x256_S1x256_S515x256_d0

/-- Slice 3: three rows of zeros, columns 768..1023 on rows 3..514. -/
def slab3 (X : S512x1024.Idx → EReal) : S515x256.Idx → EReal :=
  concatenate S515x256 0
    [⟨S3x256, broadcast S3x256 (Scalar.sitofp .f32 0#32 : Ideal .f32)⟩,
     ⟨S512x256, extractStridedSlice S512x256 ![0, 768] X slices_S512x1024_o0_768_S512x256⟩]
    concatenates_S3x256_S512x256_S515x256_d0

theorem slab0_apply (X : S512x1024.Idx → EReal) (r : Fin 515) (h : Fin 256) :
    slab0 X (ix2 r h) = shifted X r h 0 := by
  unfold slab0 shifted
  by_cases hr : r.val < 512
  · rw [dif_pos (show (0 : Fin 4).val ≤ r.val ∧ r.val < 512 + (0 : Fin 4).val from ⟨Nat.zero_le _, hr⟩)]
    refine (concatenate_pair_apply_left (t := S515x256) (s₁ := S512x256) (s₂ := S3x256) (0 : Fin S515x256.rank) _ _ _ (ix2 r h) rfl (ix2 (⟨r.val, hr⟩ : Fin 512) h) (fun b => by
      match b with
      | ⟨0, _⟩ => rfl
      | ⟨1, _⟩ => rfl)).trans ?_
    exact slice2_axis1_apply 0 X _ (⟨r.val, hr⟩ : Fin 512) h _ (by show 256 * 0 + h.val = 0 + h.val; omega)
  · rw [dif_neg (show ¬((0 : Fin 4).val ≤ r.val ∧ r.val < 512 + (0 : Fin 4).val) from fun hc => hr hc.2)]
    refine (concatenate_pair_apply_right (t := S515x256) (s₁ := S512x256) (s₂ := S3x256) (0 : Fin S515x256.rank) _ _ _ (ix2 r h) rfl rfl (ix2 (⟨r.val - 512, by omega⟩ : Fin 3) h) (fun b hb => by
      match b with
      | ⟨0, _⟩ => exact absurd rfl hb
      | ⟨1, _⟩ => rfl) (by show r.val - 512 + 512 = r.val; omega)).trans ?_
    exact sitofp_zero

theorem slab3_apply (X : S512x1024.Idx → EReal) (r : Fin 515) (h : Fin 256) :
    slab3 X (ix2 r h) = shifted X r h 3 := by
  unfold slab3 shifted
  by_cases hr : r.val < 3
  · rw [dif_neg (show ¬((3 : Fin 4).val ≤ r.val ∧ r.val < 512 + (3 : Fin 4).val) from fun hc => by
      have h3 : (3 : Fin 4).val ≤ r.val := hc.1
      have e3 : (3 : Fin 4).val = 3 := rfl
      omega)]
    refine (concatenate_pair_apply_left (t := S515x256) (s₁ := S3x256) (s₂ := S512x256) (0 : Fin S515x256.rank) _ _ _ (ix2 r h) rfl (ix2 (⟨r.val, hr⟩ : Fin 3) h) (fun b => by
      match b with
      | ⟨0, _⟩ => rfl
      | ⟨1, _⟩ => rfl)).trans ?_
    exact sitofp_zero
  · have e3 : (3 : Fin 4).val = 3 := rfl
    rw [dif_pos (show (3 : Fin 4).val ≤ r.val ∧ r.val < 512 + (3 : Fin 4).val from ⟨by omega, by have := r.isLt; omega⟩)]
    refine (concatenate_pair_apply_right (t := S515x256) (s₁ := S3x256) (s₂ := S512x256) (0 : Fin S515x256.rank) _ _ _ (ix2 r h) rfl rfl (ix2 (⟨r.val - 3, by have := r.isLt; omega⟩ : Fin 512) h) (fun b hb => by
      match b with
      | ⟨0, _⟩ => exact absurd rfl hb
      | ⟨1, _⟩ => rfl) (by show r.val - 3 + 3 = r.val; omega)).trans ?_
    exact slice2_axis1_apply 768 X _ (⟨r.val - 3, by have := r.isLt; omega⟩ : Fin 512) h _ (by show 256 * 3 + h.val = 768 + h.val; omega)

theorem slab1_apply (X : S512x1024.Idx → EReal) (r : Fin 515) (h : Fin 256) :
    slab1 X (ix2 r h) = shifted X r h 1 := by
  unfold slab1 shifted
  have e1 : (1 : Fin 4).val = 1 := rfl
  by_cases hr : r.val < 513
  · refine (concatenate_pair_apply_left (t := S515x256) (s₁ := S513x256) (s₂ := S2x256) (0 : Fin S515x256.rank) _ _ _ (ix2 r h) rfl (ix2 (⟨r.val, hr⟩ : Fin 513) h) (fun b => by
      match b with
      | ⟨0, _⟩ => rfl
      | ⟨1, _⟩ => rfl)).trans ?_
    by_cases hr0 : r.val < 1
    · rw [dif_neg (show ¬((1 : Fin 4).val ≤ r.val ∧ r.val < 512 + (1 : Fin 4).val) from fun hc => by
        have h3 : (1 : Fin 4).val ≤ r.val := hc.1
        omega)]
      refine (concatenate_pair_apply_left (t := S513x256) (s₁ := S1x256) (s₂ := S512x256) (0 : Fin S513x256.rank) _ _ _ (ix2 (⟨r.val, hr⟩ : Fin 513) h) rfl (ix2 (⟨r.val, hr0⟩ : Fin 1) h) (fun b => by
        match b with
        | ⟨0, _⟩ => rfl
        | ⟨1, _⟩ => rfl)).trans ?_
      exact sitofp_zero
    · rw [dif_pos (show (1 : Fin 4).val ≤ r.val ∧ r.val < 512 + (1 : Fin 4).val from ⟨by omega, by omega⟩)]
      refine (concatenate_pair_apply_right (t := S513x256) (s₁ := S1x256) (s₂ := S512x256) (0 : Fin S513x256.rank) _ _ _ (ix2 (⟨r.val, hr⟩ : Fin 513) h) rfl rfl (ix2 (⟨r.val - 1, by omega⟩ : Fin 512) h) (fun b hb => by
        match b with
        | ⟨0, _⟩ => exact absurd rfl hb
        | ⟨1, _⟩ => rfl) (by show r.val - 1 + 1 = r.val; omega)).trans ?_
      exact slice2_axis1_apply 256 X _ (⟨r.val - 1, by omega⟩ : Fin 512) h _ (by show 256 * 1 + h.val = 256 + h.val; omega)
  · rw [dif_neg (show ¬((1 : Fin 4).val ≤ r.val ∧ r.val < 512 + (1 : Fin 4).val) from fun hc => by
      have h3 : r.val < 512 + (1 : Fin 4).val := hc.2
      omega)]
    refine (concatenate_pair_apply_right (t := S515x256) (s₁ := S513x256) (s₂ := S2x256) (0 : Fin S515x256.rank) _ _ _ (ix2 r h) rfl rfl (ix2 (⟨r.val - 513, by have := r.isLt; omega⟩ : Fin 2) h) (fun b hb => by
      match b with
      | ⟨0, _⟩ => exact absurd rfl hb
      | ⟨1, _⟩ => rfl) (by show r.val - 513 + 513 = r.val; omega)).trans ?_
    exact sitofp_zero

theorem slab2_apply (X : S512x1024.Idx → EReal) (r : Fin 515) (h : Fin 256) :
    slab2 X (ix2 r h) = shifted X r h 2 := by
  unfold slab2 shifted
  have e2 : (2 : Fin 4).val = 2 := rfl
  by_cases hr : r.val < 514
  · refine (concatenate_pair_apply_left (t := S515x256) (s₁ := S514x256) (s₂ := S1x256) (0 : Fin S515x256.rank) _ _ _ (ix2 r h) rfl (ix2 (⟨r.val, hr⟩ : Fin 514) h) (fun b => by
      match b with
      | ⟨0, _⟩ => rfl
      | ⟨1, _⟩ => rfl)).trans ?_
    by_cases hr0 : r.val < 2
    · rw [dif_neg (show ¬((2 : Fin 4).val ≤ r.val ∧ r.val < 512 + (2 : Fin 4).val) from fun hc => by
        have h3 : (2 : Fin 4).val ≤ r.val := hc.1
        omega)]
      refine (concatenate_pair_apply_left (t := S514x256) (s₁ := S2x256) (s₂ := S512x256) (0 : Fin S514x256.rank) _ _ _ (ix2 (⟨r.val, hr⟩ : Fin 514) h) rfl (ix2 (⟨r.val, hr0⟩ : Fin 2) h) (fun b => by
        match b with
        | ⟨0, _⟩ => rfl
        | ⟨1, _⟩ => rfl)).trans ?_
      exact sitofp_zero
    · rw [dif_pos (show (2 : Fin 4).val ≤ r.val ∧ r.val < 512 + (2 : Fin 4).val from ⟨by omega, by omega⟩)]
      refine (concatenate_pair_apply_right (t := S514x256) (s₁ := S2x256) (s₂ := S512x256) (0 : Fin S514x256.rank) _ _ _ (ix2 (⟨r.val, hr⟩ : Fin 514) h) rfl rfl (ix2 (⟨r.val - 2, by omega⟩ : Fin 512) h) (fun b hb => by
        match b with
        | ⟨0, _⟩ => exact absurd rfl hb
        | ⟨1, _⟩ => rfl) (by show r.val - 2 + 2 = r.val; omega)).trans ?_
      exact slice2_axis1_apply 512 X _ (⟨r.val - 2, by omega⟩ : Fin 512) h _ (by show 256 * 2 + h.val = 512 + h.val; omega)
  · rw [dif_neg (show ¬((2 : Fin 4).val ≤ r.val ∧ r.val < 512 + (2 : Fin 4).val) from fun hc => by
      have h3 : r.val < 512 + (2 : Fin 4).val := hc.2
      omega)]
    refine (concatenate_pair_apply_right (t := S515x256) (s₁ := S514x256) (s₂ := S1x256) (0 : Fin S515x256.rank) _ _ _ (ix2 r h) rfl rfl (ix2 (⟨r.val - 514, by have := r.isLt; omega⟩ : Fin 1) h) (fun b hb => by
      match b with
      | ⟨0, _⟩ => exact absurd rfl hb
      | ⟨1, _⟩ => rfl) (by show r.val - 514 + 514 = r.val; omega)).trans ?_
    exact sitofp_zero

/-- The four shifted slices added to a block of zeros. -/
def frames (X : S512x1024.Idx → EReal) : S515x256.Idx → EReal :=
  addf (F := Ideal) (s := S515x256) (φ := .f32)
    (addf (F := Ideal) (s := S515x256) (φ := .f32)
      (addf (F := Ideal) (s := S515x256) (φ := .f32)
        (addf (F := Ideal) (s := S515x256) (φ := .f32)
          (broadcast S515x256 (Scalar.ofBits .f32 0x00000000#32 : Ideal .f32)) (slab0 X))
        (slab1 X))
      (slab2 X))
    (slab3 X)

/-- The block of overlapped frames is the four shifted slices of the tile's product, added. -/
theorem pay7_eq_frames (v0 v2 : S1x1x512x512.Idx → EReal) (v4 v6 : S512x1024.Idx → EReal) :
    k0_pay7 (F := Ideal) v0 v2 v4 v6 = frames (tileProd v0 v2 v4 v6) := rfl

/-- Row r, offset h of the sum of the shifted slices of any 512 x 1024 block. -/
theorem frames_apply (X : S512x1024.Idx → EReal) (r : Fin 515) (h : Fin 256) :
    frames X (ix2 r h) = ∑ j : Fin 4, shifted X r h j := by
  unfold frames
  rw [addf_apply, addf_apply, addf_apply, addf_apply, broadcast_apply,
    slab0_apply, slab1_apply, slab2_apply, slab3_apply, Fin.sum_univ_four]
  refine congrArg (· + shifted X r h 3) (congrArg (· + shifted X r h 2) (congrArg (· + shifted X r h 1) ?_))
  exact (congrArg (· + shifted X r h 0) Ideal.ofBits_zero_f32).trans (zero_add _)

/-- The block of overlapped frames at (r, h): the sum over the slices j that reach row r of sample 256 * j + h of
    the frame in row r - j. -/
theorem pay7_apply (v0 v2 : S1x1x512x512.Idx → EReal) (v4 v6 : S512x1024.Idx → EReal) (r : Fin 515) (h : Fin 256) :
    k0_pay7 (F := Ideal) v0 v2 v4 v6 (ix2 r h)
      = ∑ j : Fin 4, if hj : j.val ≤ r.val ∧ r.val < 512 + j.val then
          tileFrame v0 v2 v4 v6 (⟨r.val - j.val, by omega⟩ : Fin 512)
            (⟨256 * j.val + h.val, by have := j.isLt; have := h.isLt; omega⟩ : Fin 1024)
        else 0 := by
  rw [pay7_eq_frames, frames_apply]
  refine Finset.sum_congr rfl fun j _ => ?_
  unfold shifted
  by_cases hj : j.val ≤ r.val ∧ r.val < 512 + j.val
  · rw [dif_pos hj, dif_pos hj]
    exact tileProd_apply v0 v2 v4 v6 _ _
  · rw [dif_neg hj, dif_neg hj]

end Cert.KernelIdeal.Pay

end
-- ==== Proof.PayTile.lean ====
/-
  One tile of the streamed overlap-add, read at an index, at the ideal values.

  Write F(r', k) for sample k of the frame in row r' of the tile. The tile's output row r < 512 at offset h is the
  sum over the slices j <= r of F(r - j, 256 * j + h), plus the carried block's row r when r < 3. The block carried
  on (rows 512..514 of the overlapped frames) holds in its row q the sum over the slices j > q of
  F(512 + q - j, 256 * j + h): only those slices reach past the tile's last row.
-/
import proofs.«182085_j25881472926130_2_alg».proof.Proof.PayFrames

noncomputable section

open scoped BigOperators

namespace Cert.KernelIdeal.Pay

open Idealize.ShloMosaic Idealize.ShloMosaic.ValueIdx Cert.KernelIdeal Cert.KernelIdeal.Gen

/-- Rows 0..511 of the block of overlapped frames: every slice j <= r reaches row r. -/
theorem pay7_main_apply (v0 v2 : S1x1x512x512.Idx → EReal) (v4 v6 : S512x1024.Idx → EReal) (r : Fin 512) (h : Fin 256) :
    k0_pay7 (F := Ideal) v0 v2 v4 v6 (ix2 (⟨r.val, by have := r.isLt; omega⟩ : Fin 515) h)
      = ∑ j : Fin 4, if hj : j.val ≤ r.val then
          tileFrame v0 v2 v4 v6 (⟨r.val - j.val, by have := r.isLt; omega⟩ : Fin 512)
            (⟨256 * j.val + h.val, by have := j.isLt; have := h.isLt; omega⟩ : Fin 1024)
        else 0 := by
  rw [pay7_apply]
  refine Finset.sum_congr rfl fun j _ => ?_
  have hr := r.isLt
  by_cases hj : j.val ≤ r.val
  · rw [dif_pos hj]
    exact dif_pos (show j.val ≤ r.val ∧ r.val < 512 + j.val from ⟨hj, by omega⟩)
  · rw [dif_neg hj]
    exact dif_neg (show ¬(j.val ≤ r.val ∧ r.val < 512 + j.val) from fun hc => hj hc.1)

/-- Rows 512..514 of the block of overlapped frames: only the slices j > q reach row 512 + q. -/
theorem pay7_tail_apply (v0 v2 : S1x1x512x512.Idx → EReal) (v4 v6 : S512x1024.Idx → EReal) (q : Fin 3) (h : Fin 256) :
    k0_pay7 (F := Ideal) v0 v2 v4 v6 (ix2 (⟨512 + q.val, by have := q.isLt; omega⟩ : Fin 515) h)
      = ∑ j : Fin 4, if hj : q.val < j.val then
          tileFrame v0 v2 v4 v6 (⟨512 + q.val - j.val, by omega⟩ : Fin 512)
            (⟨256 * j.val + h.val, by have := j.isLt; have := h.isLt; omega⟩ : Fin 1024)
        else 0 := by
  rw [pay7_apply]
  refine Finset.sum_congr rfl fun j _ => ?_
  have hq := q.isLt
  have hj4 := j.isLt
  by_cases hj : q.val < j.val
  · rw [dif_pos hj]
    exact dif_pos (show j.val ≤ 512 + q.val ∧ 512 + q.val < 512 + j.val from ⟨by omega, by omega⟩)
  · rw [dif_neg hj]
    exact dif_neg (show ¬(j.val ≤ 512 + q.val ∧ 512 + q.val < 512 + j.val) from fun hc => hj (by omega))

/-- The tile's output at (0, r, h): the frames of the tile that cover row r, plus the carried block on rows 0..2. -/
theorem out4_apply (v0 v2 : S1x1x512x512.Idx → EReal) (v4 v6 : S512x1024.Idx → EReal) (v39 : S3x256.Idx → EReal)
    (r : Fin 512) (h : Fin 256) :
    k0_pay4 (F := Ideal) (k0_pay7 (F := Ideal) v0 v2 v4 v6) v39 (ix3 (0 : Fin 1) r h)
      = (∑ j : Fin 4, if hj : j.val ≤ r.val then
            tileFrame v0 v2 v4 v6 (⟨r.val - j.val, by have := r.isLt; omega⟩ : Fin 512)
              (⟨256 * j.val + h.val, by have := j.isLt; have := h.isLt; omega⟩ : Fin 1024)
          else 0)
        + (if hr : r.val < 3 then v39 (ix2 (⟨r.val, hr⟩ : Fin 3) h) else 0) := by
  rw [pay4_apply]
  by_cases hr : r.val < 3
  · rw [dif_pos hr, dif_pos hr]
    exact congrArg (· + v39 (ix2 (⟨r.val, hr⟩ : Fin 3) h)) (pay7_main_apply v0 v2 v4 v6 r h)
  · rw [dif_neg hr, dif_neg hr, add_zero]
    exact pay7_main_apply v0 v2 v4 v6 r h

/-- The block carried to the next tile at (q, h): what the slices j > q leave hanging past the tile's last row. -/
theorem carry5_apply (v0 v2 : S1x1x512x512.Idx → EReal) (v4 v6 : S512x1024.Idx → EReal) (v39 : S3x256.Idx → EReal)
    (q : Fin 3) (h : Fin 256) :
    k0_pay5 (F := Ideal) (k0_pay7 (F := Ideal) v0 v2 v4 v6) v39 (ix2 q h)
      = ∑ j : Fin 4, if hj : q.val < j.val then
          tileFrame v0 v2 v4 v6 (⟨512 + q.val - j.val, by omega⟩ : Fin 512)
            (⟨256 * j.val + h.val, by have := j.isLt; have := h.isLt; omega⟩ : Fin 1024)
        else 0 := by
  rw [pay5_apply]
  exact pay7_tail_apply v0 v2 v4 v6 q h

/-- The same rows as the last tile's tail block, at (0, q, h). -/
theorem carry6_apply (v0 v2 : S1x1x512x512.Idx → EReal) (v4 v6 : S512x1024.Idx → EReal) (v39 : S3x256.Idx → EReal)
    (q : Fin 3) (h : Fin 256) :
    k0_pay6 (F := Ideal) (k0_pay7 (F := Ideal) v0 v2 v4 v6) v39 (ix3 (0 : Fin 1) q h)
      = ∑ j : Fin 4, if hj : q.val < j.val then
          tileFrame v0 v2 v4 v6 (⟨512 + q.val - j.val, by omega⟩ : Fin 512)
            (⟨256 * j.val + h.val, by have := j.isLt; have := h.isLt; omega⟩ : Fin 1024)
        else 0 := by
  rw [pay6_apply]
  exact pay7_tail_apply v0 v2 v4 v6 q h

end Cert.KernelIdeal.Pay

end
-- ==== Proof.KvStream.lean ====
/-
  One tile of the streamed overlap-add in terms of the program's input arrays.

  At grid point t = 4 * b + ti the tile reads frames 512 * ti .. 512 * ti + 511 of batch b: its two left blocks are
  the real and imaginary halves x(b, 0, 512 * ti + r, .) and x(b, 1, 512 * ti + r, .), its two right blocks are the
  upper and lower halves of the synthesis basis W. So row r of the tile's product is synthesis frame
  512 * ti + r of batch b, and the tile's output rows are samples of the overlap-added signal once the carried
  block holds what the previous tile of the same batch leaves hanging past its last row.
-/
import proofs.«182085_j25881472926130_2_alg».proof.Proof.FrRuns
import proofs.«182085_j25881472926130_2_alg».proof.Proof.PayTile
import proofs.«182085_j25881472926130_2_alg».proof.Proof.Spec
import proofs.«182085_j25881472926130_2_alg».proof.Proof.LibOverlapAdd
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Kv

open Cert.KernelIdeal Cert.KernelIdeal.Gen
open Idealize.ShloMosaic Idealize.ShloMosaic.ValueIdx Idealize.ShloMosaic.TcCoe Idealize.ShloMosaic.Tactic
open Idealize.SL.Sem

variable (m : (ℓ : Loc nD τ sig) → Buf (Elt Ideal) ℓ)

/-- The grid has 64 points. -/
theorem point_lt (t : Fin cfg0.N) : t.val < 64 := by
  have h := t.isLt
  have e : cfg0.N = 64 := N_0
  omega

/-- The printed index maps of the two windows of the first argument, decided over the grid: batch t / 4, half 0 or
    1, row block t % 4, column block 0. -/
theorem index01 : ∀ t : Fin cfg0.N,
    win0_0.index t (0 : Fin 4) = t.val / 4 ∧ win0_0.index t (1 : Fin 4) = 0
      ∧ win0_0.index t (2 : Fin 4) = t.val % 4 ∧ win0_0.index t (3 : Fin 4) = 0
      ∧ win0_1.index t (0 : Fin 4) = t.val / 4 ∧ win0_1.index t (1 : Fin 4) = 1
      ∧ win0_1.index t (2 : Fin 4) = t.val % 4 ∧ win0_1.index t (3 : Fin 4) = 0 :=
  (by decide +kernel : ∀ t : Fin grid0.N, _)

/-- The two windows of the basis halves always sit at block (0, 0). -/
theorem index23 : ∀ t : Fin cfg0.N,
    win0_2.index t (0 : Fin 2) = 0 ∧ win0_2.index t (1 : Fin 2) = 0
      ∧ win0_3.index t (0 : Fin 2) = 0 ∧ win0_3.index t (1 : Fin 2) = 0 :=
  (by decide +kernel : ∀ t : Fin grid0.N, _)

/-- The first left block at point t: the real halves of frames 512 * (t % 4) .. of batch t / 4. -/
theorem iblk0_apply (c : Dev nD) (t : Fin cfg0.N) (r cc : Fin 512) :
    (Fr.iblk (F := Ideal) m c 0 t : S1x1x512x512.Idx → EReal) (ix4 (0 : Fin 1) (0 : Fin 1) r cc)
      = (m ((c : Thread nD τ).loc main_arg0) : S16x2x2048x512.Idx → EReal)
          (ix4 (⟨t.val / 4, by have := point_lt t; omega⟩ : Fin 16) (0 : Fin 2)
            (⟨512 * (t.val % 4) + r.val, by have := r.isLt; omega⟩ : Fin 2048) cc) := by
  obtain ⟨e0, e1, e2, e3, -, -, -, -⟩ := index01 t
  unfold Fr.iblk
  rw [View.read_apply]
  show Fr.V m c main_arg0 _ = m (c.tc.loc main_arg0) _
  rw [Fr.V_main_arg0]
  congr 1
  funext a
  apply Fin.ext
  match a with
  | ⟨0, _⟩ => show win0_0.index t (0 : Fin 4) * 1 + 1 * 0 = t.val / 4; rw [e0]; omega
  | ⟨1, _⟩ => show win0_0.index t (1 : Fin 4) * 1 + 1 * 0 = 0; rw [e1]
  | ⟨2, _⟩ => show win0_0.index t (2 : Fin 4) * 512 + 1 * r.val = 512 * (t.val % 4) + r.val; rw [e2]; omega
  | ⟨3, _⟩ => show win0_0.index t (3 : Fin 4) * 512 + 1 * cc.val = cc.val; rw [e3]; omega

/-- The second left block at point t: the imaginary halves of the same frames. -/
theorem iblk1_apply (c : Dev nD) (t : Fin cfg0.N) (r cc : Fin 512) :
    (Fr.iblk (F := Ideal) m c 1 t : S1x1x512x512.Idx → EReal) (ix4 (0 : Fin 1) (0 : Fin 1) r cc)
      = (m ((c : Thread nD τ).loc main_arg0) : S16x2x2048x512.Idx → EReal)
          (ix4 (⟨t.val / 4, by have := point_lt t; omega⟩ : Fin 16) (1 : Fin 2)
            (⟨512 * (t.val % 4) + r.val, by have := r.isLt; omega⟩ : Fin 2048) cc) := by
  obtain ⟨-, -, -, -, e0, e1, e2, e3⟩ := index01 t
  unfold Fr.iblk
  rw [View.read_apply]
  show Fr.V m c main_arg0 _ = m (c.tc.loc main_arg0) _
  rw [Fr.V_main_arg0]
  congr 1
  funext a
  apply Fin.ext
  match a with
  | ⟨0, _⟩ => show win0_1.index t (0 : Fin 4) * 1 + 1 * 0 = t.val / 4; rw [e0]; omega
  | ⟨1, _⟩ => show win0_1.index t (1 : Fin 4) * 1 + 1 * 0 = 1; rw [e1]
  | ⟨2, _⟩ => show win0_1.index t (2 : Fin 4) * 512 + 1 * r.val = 512 * (t.val % 4) + r.val; rw [e2]; omega
  | ⟨3, _⟩ => show win0_1.index t (3 : Fin 4) * 512 + 1 * cc.val = cc.val; rw [e3]; omega

/-- The upper basis half as the region finds it: rows 0..511 of the second argument. -/
theorem V_upper (c : Dev nD) :
    (Fr.V (F := Ideal) m c main_v0 : S512x1024.Idx → EReal)
      = extractStridedSlice S512x1024 ![0, 0] (m ((c : Thread nD τ).loc main_arg1) : S1024x1024.Idx → EReal)
          slices_S1024x1024_S512x1024_0_0 := by
  dsimp only [Fr.V, Fr.V0, Gen.hostOps0]
  after_results

/-- The lower basis half as the region finds it: rows 512..1023 of the second argument. -/
theorem V_lower (c : Dev nD) :
    (Fr.V (F := Ideal) m c main_v1 : S512x1024.Idx → EReal)
      = extractStridedSlice S512x1024 ![512, 0] (m ((c : Thread nD τ).loc main_arg1) : S1024x1024.Idx → EReal)
          slices_S1024x1024_S512x1024_512_0 := by
  dsimp only [Fr.V, Fr.V0, Gen.hostOps0]
  after_results

/-- The first right block at any point: the upper half of the basis. -/
theorem iblk2_apply (c : Dev nD) (t : Fin cfg0.N) (cc : Fin 512) (k : Fin 1024) :
    (Fr.iblk (F := Ideal) m c 2 t : S512x1024.Idx → EReal) (ix2 cc k)
      = (m ((c : Thread nD τ).loc main_arg1) : S1024x1024.Idx → EReal)
          (ix2 (⟨cc.val, by have := cc.isLt; omega⟩ : Fin 1024) k) := by
  obtain ⟨e0, e1, -, -⟩ := index23 t
  unfold Fr.iblk
  rw [View.read_apply]
  show (Fr.V (F := Ideal) m c main_v0 : S512x1024.Idx → EReal) _ = _
  have hemb : ((cfg0.win 2).blk t).view.emb (ix2 cc k) = (ix2 cc k : S512x1024.Idx) := by
    funext a
    apply Fin.ext
    match a with
    | ⟨0, _⟩ => show win0_2.index t (0 : Fin 2) * 512 + 1 * cc.val = cc.val; rw [e0]; omega
    | ⟨1, _⟩ => show win0_2.index t (1 : Fin 2) * 1024 + 1 * k.val = k.val; rw [e1]; omega
  rw [V_upper]
  refine (congrArg _ hemb).trans ?_
  exact slice2_axis0_apply 0 (m ((c : Thread nD τ).loc main_arg1) : S1024x1024.Idx → EReal) _ cc k
    (⟨cc.val, by have := cc.isLt; omega⟩ : Fin 1024) (Nat.zero_add _).symm

/-- The second right block at any point: the lower half of the basis. -/
theorem iblk3_apply (c : Dev nD) (t : Fin cfg0.N) (cc : Fin 512) (k : Fin 1024) :
    (Fr.iblk (F := Ideal) m c 3 t : S512x1024.Idx → EReal) (ix2 cc k)
      = (m ((c : Thread nD τ).loc main_arg1) : S1024x1024.Idx → EReal)
          (ix2 (⟨512 + cc.val, by have := cc.isLt; omega⟩ : Fin 1024) k) := by
  obtain ⟨-, -, e0, e1⟩ := index23 t
  unfold Fr.iblk
  rw [View.read_apply]
  show (Fr.V (F := Ideal) m c main_v1 : S512x1024.Idx → EReal) _ = _
  have hemb : ((cfg0.win 3).blk t).view.emb (ix2 cc k) = (ix2 cc k : S512x1024.Idx) := by
    funext a
    apply Fin.ext
    match a with
    | ⟨0, _⟩ => show win0_3.index t (0 : Fin 2) * 512 + 1 * cc.val = cc.val; rw [e0]; omega
    | ⟨1, _⟩ => show win0_3.index t (1 : Fin 2) * 1024 + 1 * k.val = k.val; rw [e1]; omega
  rw [V_lower]
  refine (congrArg _ hemb).trans ?_
  exact slice2_axis0_apply 512 (m ((c : Thread nD τ).loc main_arg1) : S1024x1024.Idx → EReal) _ cc k
    (⟨512 + cc.val, by have := cc.isLt; omega⟩ : Fin 1024) rfl

/-- Row r of the tile's product at point t is synthesis frame 512 * (t % 4) + r of batch t / 4. -/
theorem tile_frame (c : Dev nD) (t : Fin cfg0.N) (r : Fin 512) (k : Fin 1024) :
    Pay.tileFrame (Fr.iblk (F := Ideal) m c 0 t) (Fr.iblk (F := Ideal) m c 1 t) (Fr.iblk (F := Ideal) m c 2 t)
        (Fr.iblk (F := Ideal) m c 3 t) r k
      = Cert.Spec.frame (m ((c : Thread nD τ).loc main_arg0)) (m ((c : Thread nD τ).loc main_arg1))
          (⟨t.val / 4, by have := point_lt t; omega⟩ : Fin 16)
          (⟨512 * (t.val % 4) + r.val, by have := r.isLt; omega⟩ : Fin 2048) k := by
  unfold Pay.tileFrame Cert.Spec.frame
  refine congrArg₂ (· + ·) (Finset.sum_congr rfl fun cc _ => ?_) (Finset.sum_congr rfl fun cc _ => ?_)
  · exact congrArg₂ (· * ·) (iblk0_apply m c t r cc) (iblk2_apply m c t cc k)
  · exact congrArg₂ (· * ·) (iblk1_apply m c t r cc) (iblk3_apply m c t cc k)

/-! ## The tile against the overlap-add -/

/-- The block of overlapped frames of the tile at point t. -/
abbrev frm (c : Dev nD) (t : Fin cfg0.N) : S515x256.Idx → EReal :=
  k0_pay7 (F := Ideal) (Fr.iblk (F := Ideal) m c 0 t) (Fr.iblk (F := Ideal) m c 1 t) (Fr.iblk (F := Ideal) m c 2 t) (Fr.iblk (F := Ideal) m c 3 t)

/-- The synthesis frames of batch b over natural-number coordinates: zero outside the 2048 frames of 1024
    samples. -/
def fr (c : Dev nD) (b : Fin 16) (T K : ℕ) : EReal :=
  if hh : T < 2048 ∧ K < 1024 then
    Cert.Spec.frame (m ((c : Thread nD τ).loc main_arg0)) (m ((c : Thread nD τ).loc main_arg1)) b (⟨T, hh.1⟩ : Fin 2048) (⟨K, hh.2⟩ : Fin 1024)
  else 0

/-- The overlap-add over those. -/
theorem ola_eq_fr (c : Dev nD) (b : Fin 16) (p : ℕ) :
    Cert.Spec.ola (m ((c : Thread nD τ).loc main_arg0)) (m ((c : Thread nD τ).loc main_arg1)) b p
      = ∑ T : Fin 2048, ∑ k : Fin 1024, if 256 * T.val + k.val = p then fr m c b T.val k.val else 0 := by
  unfold Cert.Spec.ola
  refine Finset.sum_congr rfl fun T _ => Finset.sum_congr rfl fun k _ => ?_
  have e : fr m c b T.val k.val = Cert.Spec.frame (m ((c : Thread nD τ).loc main_arg0)) (m ((c : Thread nD τ).loc main_arg1)) b T k := by
    unfold fr
    exact dif_pos ⟨T.isLt, k.isLt⟩
  rw [e]

/-- Row r of the tile's product at point t, over natural-number coordinates. -/
theorem tile_frame_fr (c : Dev nD) (t : Fin cfg0.N) (r : Fin 512) (k : Fin 1024) (b : Fin 16) (hb : b.val = t.val / 4)
    (T K : ℕ) (hT : T = 512 * (t.val % 4) + r.val) (hK : K = k.val) :
    Pay.tileFrame (Fr.iblk (F := Ideal) m c 0 t) (Fr.iblk (F := Ideal) m c 1 t) (Fr.iblk (F := Ideal) m c 2 t) (Fr.iblk (F := Ideal) m c 3 t) r k = fr m c b T K := by
  subst hT hK
  have hlt : t.val / 4 < 16 := Nat.div_lt_of_lt_mul (point_lt t)
  have hb' : b = (⟨t.val / 4, hlt⟩ : Fin 16) := Fin.ext hb
  subst hb'
  rw [tile_frame]
  unfold fr
  rw [dif_pos (show 512 * (t.val % 4) + r.val < 2048 ∧ k.val < 1024 from ⟨by have := r.isLt; omega, k.isLt⟩)]

/-- The tile's output rows are samples of the overlap-added signal of its batch, once the carried block holds what
    the previous tile of the batch leaves past its last row (nothing, for the batch's first tile). -/
theorem out4_is_ola (c : Dev nD) (t : Fin cfg0.N) (v39 : S3x256.Idx → EReal)
    (hv : ∀ (q : Fin 3) (h : Fin 256), v39 (ix2 q h)
      = if h0 : t.val % 4 = 0 then 0
        else frm m c (⟨t.val - 1, Nat.lt_of_le_of_lt (Nat.sub_le _ _) t.isLt⟩ : Fin cfg0.N)
          (ix2 (⟨512 + q.val, by have := q.isLt; omega⟩ : Fin 515) h))
    (r : Fin 512) (h : Fin 256) :
    k0_pay4 (F := Ideal) (frm m c t) v39 (ix3 (0 : Fin 1) r h)
      = Cert.Spec.ola (m ((c : Thread nD τ).loc main_arg0)) (m ((c : Thread nD τ).loc main_arg1))
          (⟨t.val / 4, by have := point_lt t; omega⟩ : Fin 16) (256 * (512 * (t.val % 4) + r.val) + h.val) := by
  have ht := point_lt t
  have hr := r.isLt
  have hh := h.isLt
  refine (Pay.out4_apply (Fr.iblk (F := Ideal) m c 0 t) (Fr.iblk (F := Ideal) m c 1 t) (Fr.iblk (F := Ideal) m c 2 t) (Fr.iblk (F := Ideal) m c 3 t) v39 r h).trans ?_
  rw [ola_eq_fr, LibOverlapAdd.ola_row (fr m c (⟨t.val / 4, by omega⟩ : Fin 16)) (512 * (t.val % 4) + r.val) h.val hh,
    LibOverlapAdd.ola_split_main (fr m c (⟨t.val / 4, by omega⟩ : Fin 16)) (t.val % 4) r.val h.val (by omega) hr]
  refine congrArg₂ (· + ·) (Finset.sum_congr rfl fun j _ => ?_) ?_
  · have hj4 := j.isLt
    by_cases hj : j.val ≤ r.val
    · rw [dif_pos hj, if_pos ⟨hj, by omega⟩]
      exact tile_frame_fr m c t _ _ _ rfl _ _ rfl rfl
    · rw [dif_neg hj, if_neg (fun hc => hj hc.1)]
  · by_cases hr3 : r.val < 3
    · rw [dif_pos hr3, hv]
      by_cases h0 : t.val % 4 = 0
      · rw [dif_pos h0, if_neg (fun hc => hc.2 h0)]
      · rw [dif_neg h0, if_pos ⟨hr3, h0⟩]
        refine (Pay.pay7_tail_apply
          (Fr.iblk (F := Ideal) m c 0 (⟨t.val - 1, Nat.lt_of_le_of_lt (Nat.sub_le _ _) t.isLt⟩ : Fin cfg0.N)) (Fr.iblk (F := Ideal) m c 1 (⟨t.val - 1, Nat.lt_of_le_of_lt (Nat.sub_le _ _) t.isLt⟩ : Fin cfg0.N)) (Fr.iblk (F := Ideal) m c 2 (⟨t.val - 1, Nat.lt_of_le_of_lt (Nat.sub_le _ _) t.isLt⟩ : Fin cfg0.N)) (Fr.iblk (F := Ideal) m c 3 (⟨t.val - 1, Nat.lt_of_le_of_lt (Nat.sub_le _ _) t.isLt⟩ : Fin cfg0.N))
          (⟨r.val, hr3⟩ : Fin 3) h).trans ?_
        refine Finset.sum_congr rfl fun j _ => ?_
        have hj4 := j.isLt
        by_cases hj : r.val < j.val
        · rw [dif_pos hj, if_pos ⟨by omega, by omega⟩]
          exact tile_frame_fr m c (⟨t.val - 1, Nat.lt_of_le_of_lt (Nat.sub_le _ _) t.isLt⟩ : Fin cfg0.N) _ _ _
            (by show t.val / 4 = (t.val - 1) / 4; omega) _ _
            (by show 512 * (t.val % 4 - 1) + (512 + r.val - j.val) = 512 * ((t.val - 1) % 4) + (512 + r.val - j.val); omega) rfl
        · rw [dif_neg hj, if_neg (fun hc => hj (by omega))]
    · rw [dif_neg hr3, if_neg (fun hc => hr3 hc.1)]

/-- The last tile of a batch leaves, in the three rows past its last row, the last three rows of the batch's
    overlap-added signal. -/
theorem out5_is_ola (c : Dev nD) (t : Fin cfg0.N) (ht3 : t.val % 4 = 3) (v39 : S3x256.Idx → EReal) (q : Fin 3) (h : Fin 256) :
    k0_pay6 (F := Ideal) (frm m c t) v39 (ix3 (0 : Fin 1) q h)
      = Cert.Spec.ola (m ((c : Thread nD τ).loc main_arg0)) (m ((c : Thread nD τ).loc main_arg1))
          (⟨t.val / 4, by have := point_lt t; omega⟩ : Fin 16) (256 * (2048 + q.val) + h.val) := by
  have ht := point_lt t
  have hq := q.isLt
  have hh := h.isLt
  refine (Pay.carry6_apply (Fr.iblk (F := Ideal) m c 0 t) (Fr.iblk (F := Ideal) m c 1 t) (Fr.iblk (F := Ideal) m c 2 t) (Fr.iblk (F := Ideal) m c 3 t) v39 q h).trans ?_
  rw [ola_eq_fr, LibOverlapAdd.ola_row (fr m c (⟨t.val / 4, by omega⟩ : Fin 16)) (2048 + q.val) h.val hh,
    LibOverlapAdd.ola_split_tail (fr m c (⟨t.val / 4, by omega⟩ : Fin 16)) q.val h.val hq]
  refine Finset.sum_congr rfl fun j _ => ?_
  have hj4 := j.isLt
  by_cases hj : q.val < j.val
  · rw [dif_pos hj, if_pos ⟨by omega, by omega⟩]
    exact tile_frame_fr m c t _ _ _ rfl _ _
      (by show 512 * 3 + (512 + q.val - j.val) = 512 * (t.val % 4) + (512 + q.val - j.val); omega) rfl
  · rw [dif_neg hj, if_neg (fun hc => hj (by omega))]

end Cert.KernelIdeal.Kv

end
-- ==== Proof.KvArrays.lean ====
/-
  The first result array after the region: element (b, T, h) is sample 256 * T + h of batch b's overlap-added
  signal.

  Every grid point writes its tile's 512 output rows back to rows 512 * (t % 4) .. of batch t / 4. With the block
  carried from the tile before (nothing at the first tile of a batch), those rows are the overlap-added samples;
  the 64 tiles cover the array.
-/
import proofs.«182085_j25881472926130_2_alg».proof.Proof.FrPieces
import proofs.«182085_j25881472926130_2_alg».proof.Proof.KvStream
import proofs.«182085_j25881472926130_2_alg».proof.Proof.PayLayout
import Idealize.ShloMosaic.Lib.Pipeline.Value

set_option maxRecDepth 16384

noncomputable section

open scoped BigOperators

namespace Cert.KernelIdeal.Kv

open Cert.KernelIdeal Cert.KernelIdeal.Gen
open Idealize.ShloMosaic Idealize.ShloMosaic.ValueIdx Idealize.ShloMosaic.TcCoe Idealize.ShloMosaic.Tactic
open Idealize.SL.Sem

variable (m : (ℓ : Loc nD τ sig) → Buf (Elt Ideal) ℓ)

/-- The printed index map of the first result's window, decided over the grid: batch t / 4, row block t % 4,
    column block 0. -/
theorem index4 : ∀ t : Fin cfg0.N,
    win0_4.index t (0 : Fin 3) = t.val / 4 ∧ win0_4.index t (1 : Fin 3) = t.val % 4 ∧ win0_4.index t (2 : Fin 3) = 0 :=
  (by decide +kernel : ∀ t : Fin grid0.N, _)

/-- What the first result array ends holding: the overlap-added samples. -/
abbrev G4 (c : Dev nD) : S16x2048x256.Idx → EReal := fun i =>
  Cert.Spec.ola (m ((c : Thread nD τ).loc main_arg0)) (m ((c : Thread nD τ).loc main_arg1)) (i 0) (256 * (i 1).val + (i 2).val)

/-- Element (0, r, h) of point t's block sits at (t / 4, 512 * (t % 4) + r, h) of the array. -/
theorem emb4 (t : Fin cfg0.N) (r : Fin 512) (h : Fin 256) :
    ((cfg0.win 4).blk t).view.emb (ix3 (0 : Fin 1) r h)
      = (ix3 (⟨t.val / 4, by have := point_lt t; omega⟩ : Fin 16)
          (⟨512 * (t.val % 4) + r.val, by have := r.isLt; omega⟩ : Fin 2048) h : S16x2048x256.Idx) := by
  obtain ⟨e0, e1, e2⟩ := index4 t
  funext a
  apply Fin.ext
  match a with
  | ⟨0, _⟩ => show win0_4.index t (0 : Fin 3) * 1 + 1 * 0 = t.val / 4; rw [e0]; omega
  | ⟨1, _⟩ => show win0_4.index t (1 : Fin 3) * 512 + 1 * r.val = 512 * (t.val % 4) + r.val; rw [e1]; omega
  | ⟨2, _⟩ => show win0_4.index t (2 : Fin 3) * 256 + 1 * h.val = h.val; rw [e2]; omega

/-- The block carried into point t: nothing at the first tile of a batch, else the three rows the tile before
    leaves past its last row. -/
theorem cin_apply (c : Dev nD) (t : Fin cfg0.N) (q : Fin 3) (h : Fin 256) :
    (Fr.cin (F := Ideal) m c t : S3x256.Idx → EReal) (ix2 q h)
      = if h0 : t.val % 4 = 0 then 0
        else frm m c (⟨t.val - 1, Nat.lt_of_le_of_lt (Nat.sub_le _ _) t.isLt⟩ : Fin cfg0.N)
          (ix2 (⟨512 + q.val, by have := q.isLt; omega⟩ : Fin 515) h) := by
  by_cases h0 : t.val % 4 = 0
  · rw [Fr.cin_of_zero m c t h0, dif_pos h0]
    exact Pay.pay1_apply q h
  · rw [Fr.cin_of_pos m c t h0, dif_neg h0]
    have hprev := (Fr.outsAt0_eq (F := Ideal) m c (⟨t.val - 1, Nat.lt_of_le_of_lt (Nat.sub_le _ _) t.isLt⟩ : Fin cfg0.N)).2.1
    refine (congrFun hprev (ix2 q h)).trans ?_
    exact Pay.pay5_apply (Fr.frm (F := Ideal) m c (⟨t.val - 1, Nat.lt_of_le_of_lt (Nat.sub_le _ _) t.isLt⟩ : Fin cfg0.N))
      (Fr.cin (F := Ideal) m c (⟨t.val - 1, Nat.lt_of_le_of_lt (Nat.sub_le _ _) t.isLt⟩ : Fin cfg0.N)) q h

/-- What point t writes back is block t of the overlap-added samples. -/
theorem flushed4_eq (c : Dev nD) (t : Fin cfg0.N) :
    (Fr.dats (F := Ideal) m 0 c).flushed 4 t = ((cfg0.win 4).blk t).view.read (Elt Ideal) (G4 m c) := by
  show (cfg0.win 4).cut (grid0.coords t) ((Fr.dats (F := Ideal) m 0 c).after 4 t) = _
  rw [Fr.after0_4, (Fr.outsAt0_eq (F := Ideal) m c t).1]
  refine funext fun (y : S1x512x256.Idx) => ?_
  obtain ⟨z, r, h, rfl⟩ : ∃ (z : Fin 1) (r : Fin 512) (h : Fin 256), y = ix3 z r h := ⟨y 0, y 1, y 2, eq_ix3 y⟩
  obtain rfl : z = 0 := Subsingleton.elim _ _
  rw [View.read_apply, emb4]
  show k0_pay4 (F := Ideal) (frm m c t) (Fr.cin (F := Ideal) m c t) (ix3 (0 : Fin 1) r h) = _
  exact out4_is_ola m c t (Fr.cin (F := Ideal) m c t) (cin_apply m c t) r h

/-- Every element of the array lies in the block of some point. -/
theorem cover4 (i : S16x2048x256.Idx) :
    ∃ t : Fin cfg0.N, (cfg0.win 4).flush t = true ∧ i ∈ ((cfg0.win 4).blk t).view.set := by
  obtain ⟨b, T, h, rfl⟩ : ∃ (b : Fin 16) (T : Fin 2048) (h : Fin 256), i = ix3 b T h := ⟨i 0, i 1, i 2, eq_ix3 i⟩
  have hb := b.isLt; have hT := T.isLt
  have hN : cfg0.N = 64 := N_0
  have ht : 4 * b.val + T.val / 512 < cfg0.N := by omega
  refine ⟨⟨4 * b.val + T.val / 512, ht⟩, flush0_4 _, ?_⟩
  have e : (ix3 b T h : S16x2048x256.Idx)
      = ((cfg0.win 4).blk (⟨4 * b.val + T.val / 512, ht⟩ : Fin cfg0.N)).view.emb (ix3 (0 : Fin 1) (⟨T.val % 512, by omega⟩ : Fin 512) h) := by
    rw [emb4]
    funext a
    apply Fin.ext
    match a with
    | ⟨0, _⟩ => show b.val = (4 * b.val + T.val / 512) / 4; omega
    | ⟨1, _⟩ => show T.val = 512 * ((4 * b.val + T.val / 512) % 4) + T.val % 512; omega
    | ⟨2, _⟩ => rfl
  rw [e]
  exact View.emb_mem_set _ _

/-- The first result array after the region. -/
theorem y4_eq (c : Dev nD) (b : Fin 16) (T : Fin 2048) (h : Fin 256) :
    ((Fr.dats (F := Ideal) m 0 c).arrAt 4 cfg0.N : S16x2048x256.Idx → EReal) (ix3 b T h)
      = Cert.Spec.ola (m ((c : Thread nD τ).loc main_arg0)) (m ((c : Thread nD τ).loc main_arg1)) b (256 * T.val + h.val) := by
  rw [(Fr.dats (F := Ideal) m 0 c).arrAt_eq_of_cover 4 (G4 m c) (fun t _ => flushed4_eq m c t) cover4]

end Cert.KernelIdeal.Kv

end
-- ==== Proof.KvArrays5.lean ====
/-
  The tail result as a whole array.

  The second output holds, for each batch, the three rows of 256 samples past the batch's last full row of the
  overlap-added signal. Its block of batch b is written back once, by the batch's last tile (grid point 4 * b + 3),
  with what that tile leaves hanging past its last row; the sixteen blocks tile the array.
-/
import proofs.«182085_j25881472926130_2_alg».proof.Proof.FrPieces
import proofs.«182085_j25881472926130_2_alg».proof.Proof.KvStream
import Idealize.ShloMosaic.Lib.Pipeline.Value

set_option maxRecDepth 16384

noncomputable section

open scoped BigOperators

namespace Cert.KernelIdeal.Kv

open Cert.KernelIdeal Cert.KernelIdeal.Gen
open Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ)

/-- The three rows past each batch's last full row of the overlap-added signal, as one array. -/
def G5 (c : Dev nD) : S16x3x256.Idx → EReal :=
  fun i => Cert.Spec.ola (m ((c : Thread nD τ).loc main_arg0)) (m ((c : Thread nD τ).loc main_arg1)) (i 0) (256 * (2048 + (i 1).val) + (i 2).val)

/-- The printed index map of the second output's window, decided over the grid: block (t / 4, 0, 0). -/
theorem index5 : ∀ t : Fin cfg0.N,
    win0_5.index t (0 : Fin 3) = t.val / 4 ∧ win0_5.index t (1 : Fin 3) = 0 ∧ win0_5.index t (2 : Fin 3) = 0 :=
  (by decide +kernel : ∀ t : Fin grid0.N, _)

/-- What a batch's last tile leaves in the second output's buffer, at any index of the [1, 3, 256] block. -/
theorem tail5_at (c : Dev nD) (t : Fin cfg0.N) (h3 : t.val % 4 = 3) (v39 : S3x256.Idx → EReal) (y : S1x3x256.Idx) :
    k0_pay6 (F := Ideal) (frm m c t) v39 y
      = Cert.Spec.ola (m ((c : Thread nD τ).loc main_arg0)) (m ((c : Thread nD τ).loc main_arg1))
          (⟨t.val / 4, by have := point_lt t; omega⟩ : Fin 16) (256 * (2048 + (y 1).val) + (y 2).val) := by
  have hy : y = ix3 (0 : Fin 1) (y 1 : Fin 3) (y 2 : Fin 256) := by
    funext a
    match a with
    | ⟨0, _⟩ => exact Subsingleton.elim (α := Fin 1) _ _
    | ⟨1, _⟩ => rfl
    | ⟨2, _⟩ => rfl
  exact (congrArg (k0_pay6 (F := Ideal) (frm m c t) v39) hy).trans (out5_is_ola m c t h3 v39 (y 1) (y 2))

/-- What point t writes back to the second output is block t of the array of tail rows. -/
theorem flushed5_eq (c : Dev nD) (t : Fin cfg0.N) (hf : (cfg0.win 5).flush t = true) :
    (Fr.dats (F := Ideal) m 0 c).flushed 5 t = ((cfg0.win 5).blk t).view.read (Elt Ideal) (G5 m c) := by
  have h3 : t.val % 4 = 3 := (flush0_5 t).mp hf
  obtain ⟨e0, e1, e2⟩ := index5 t
  show (cfg0.win 5).cut (grid0.coords t) ((Fr.dats (F := Ideal) m 0 c).after 5 t) = _
  rw [Fr.after0_5, (Fr.outsAt0_eq (F := Ideal) m c t).2.2 h3]
  unfold Fr.frm
  funext y
  show k0_pay6 (F := Ideal) (frm m c t) (Fr.cin (F := Ideal) m c t) y = G5 m c (((cfg0.win 5).blk t).view.emb y)
  refine (tail5_at m c t h3 (Fr.cin (F := Ideal) m c t) y).trans ?_
  show Cert.Spec.ola _ _ _ _ = Cert.Spec.ola _ _ (((cfg0.win 5).blk t).view.emb y 0)
    (256 * (2048 + (((cfg0.win 5).blk t).view.emb y 1).val) + (((cfg0.win 5).blk t).view.emb y 2).val)
  have hy0 : (y 0).val < 1 := (y 0).isLt
  have h0 : ((cfg0.win 5).blk t).view.emb y 0 = (⟨t.val / 4, by have := point_lt t; omega⟩ : Fin 16) :=
    Fin.ext (by show win0_5.index t (0 : Fin 3) * 1 + 1 * (y 0).val = t.val / 4; rw [e0]; omega)
  have h1 : (((cfg0.win 5).blk t).view.emb y 1).val = (y 1).val := by
    show win0_5.index t (1 : Fin 3) * 3 + 1 * (y 1).val = (y 1).val; rw [e1]; omega
  have h2 : (((cfg0.win 5).blk t).view.emb y 2).val = (y 2).val := by
    show win0_5.index t (2 : Fin 3) * 256 + 1 * (y 2).val = (y 2).val; rw [e2]; omega
  rw [h0, h1, h2]

/-- An index of the array is in point t's block iff each coordinate is in the block's range on its axis. -/
theorem mem_blk5 (t : Fin cfg0.N) (i : S16x3x256.Idx) :
    i ∈ ((cfg0.win 5).blk t).view.set ↔ ∀ a : Fin 3, win0_5.index t a * S1x3x256.size a ≤ (i a).val
      ∧ (i a).val < win0_5.index t a * S1x3x256.size a + S1x3x256.size a := by
  show i ∈ ((View.whole main_v2_1).slice (win0_5.rect t)).set ↔ _
  rw [View.set_slice_whole, Rect.mem_set_unit]
  exact Iff.rfl

/-- The second output ends holding the array of tail rows: the block of batch b is the one the batch's last tile
    writes back. -/
theorem final5 (c : Dev nD) : (Fr.dats (F := Ideal) m 0 c).arrAt 5 cfg0.N = G5 m c :=
  (Fr.dats (F := Ideal) m 0 c).arrAt_eq_of_cover 5 (G5 m c) (flushed5_eq m c) fun i => by
    have hi0 : (i 0).val < 16 := (i 0).isLt
    have hi1 : (i 1).val < 3 := (i 1).isLt
    have hi2 : (i 2).val < 256 := (i 2).isLt
    have hN : cfg0.N = 64 := N_0
    obtain ⟨T, hT⟩ : ∃ T : Fin cfg0.N, T.val = 4 * (i 0).val + 3 := ⟨⟨4 * (i 0).val + 3, by omega⟩, rfl⟩
    refine ⟨T, (flush0_5 T).mpr (by omega), ?_⟩
    rw [mem_blk5]
    obtain ⟨e0, e1, e2⟩ := index5 T
    intro a
    match a with
    | ⟨0, _⟩ =>
      show win0_5.index T (0 : Fin 3) * 1 ≤ (i 0).val ∧ (i 0).val < win0_5.index T (0 : Fin 3) * 1 + 1
      rw [e0]; omega
    | ⟨1, _⟩ =>
      show win0_5.index T (1 : Fin 3) * 3 ≤ (i 1).val ∧ (i 1).val < win0_5.index T (1 : Fin 3) * 3 + 3
      rw [e1]; omega
    | ⟨2, _⟩ =>
      show win0_5.index T (2 : Fin 3) * 256 ≤ (i 2).val ∧ (i 2).val < win0_5.index T (2 : Fin 3) * 256 + 256
      rw [e2]; omega

/-- The second output at (b, q, h): sample 256 * (2048 + q) + h of the overlap-added signal of batch b. -/
theorem y5_eq (c : Dev nD) (b : Fin 16) (q : Fin 3) (h : Fin 256) :
    ((Fr.dats (F := Ideal) m 0 c).arrAt 5 cfg0.N : S16x3x256.Idx → EReal) (ix3 b q h)
      = Cert.Spec.ola (m ((c : Thread nD τ).loc main_arg0)) (m ((c : Thread nD τ).loc main_arg1)) b (256 * (2048 + q.val) + h.val) :=
  (congrFun (final5 m c) (ix3 b q h)).trans rfl

end Cert.KernelIdeal.Kv

end
-- ==== Proof.PreScale.lean ====
/-
  The precondition read at one element of the rescaling buffer.

  The precondition's last conjunct says that `scale j + ε` differs from zero for every `j`, where ε is the guard
  word the programs add to the rescaling buffer. Here it is read back from the printed predicate: the conjunction is
  split, the reduction by `and` over all `j` gives the comparison at each `j`, and the comparison "not equal" on
  the extended reals is the inequality itself.
-/
import proofs.«182085_j25881472926130_2_alg».proof.Pre_finite_inputs
import proofs.«182085_j25881472926130_2_alg».proof.Proof.Spec
import Idealize.ShloMosaic.Lib.ReduceAll
import Idealize.ShloMosaic.PureOps.Ideal.Laws

set_option maxRecDepth 16384

noncomputable section

namespace Cert.PreScale

open Idealize.ShloMosaic Idealize.ShloMosaic.ValueIdx
open Cert.Pre_finite_inputs

variable [Cert.Pre_finite_inputs.Facts]

/-- The result shape of a reduction over all axes has a single index. -/
instance : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- The comparison "not equal" on the extended reals answers 1 exactly when the two values differ. -/
theorem cmp_une_eq_one (x y : EReal) : Ideal.cmp .une x y = 1#1 ↔ x ≠ y := by
  unfold Ideal.cmp
  rw [ofBool_eq_one]
  exact decide_eq_true_iff

/-- Under the precondition, `scale j + ε` is not zero, for every sample `j` of the result. -/
theorem scale_ne (a0 : Cert.Pre_finite_inputs.S16x2x2048x512.Idx → EReal) (a1 : Cert.Pre_finite_inputs.S1024x1024.Idx → EReal) (a2 : Cert.Pre_finite_inputs.S524288.Idx → EReal)
    (h : Cert.Pre_finite_inputs.fn (F := Ideal) a0 a1 a2 = (fun _ => 1#1)) (j : Fin 524288) : a2 (Idealize.ShloMosaic.ValueIdx.ix1 j) + Cert.Spec.eps ≠ 0 := by
  have e := congrFun h ValueIdx.ix0
  dsimp only [Cert.Pre_finite_inputs.fn, Cert.Pre_finite_inputs.fn_part1] at e
  -- the predicate is a conjunction; its last conjunct is the reduction by `and` of the comparisons
  obtain ⟨-, e2⟩ := IntOp.andi_eq_one.1 e
  have e3 := Host.reduce_andi_all _ _ _ _ _ e2 (ix1 j)
  -- the comparison at `j`: `scale j + ε` against the zero word
  have e4 : Ideal.cmp .une (a2 (ix1 j) + Cert.Spec.eps) (Ideal.ofBits .f32 0x00000000#32) = 1#1 := e3
  rw [Ideal.ofBits_zero_f32] at e4
  exact (cmp_une_eq_one _ _).1 e4

end Cert.PreScale

end
-- ==== Proof.lean ====
/-
  The certificate's claims assembled.

  Both programs compute, for batch b and output sample j, the value  (2 · y(b, j + 384)) / (scale j + ε),  where
  y(b, p) = Σ over frames t and samples k with 256·t + k = p of frame(b, t, k) is the overlap-add of the synthesis
  frames frame(b, t, k) = Σ_c x(b, ·, t, c)·W(c, k). The reference scatters every frame into the signal and divides;
  the kernel streams tiles of 512 frames, carrying the three rows that overlap the next tile, and multiplies by
  2 / (scale j + ε). The two orders of summation agree in any commutative monoid, so no finiteness is used; the two
  ways of rescaling, y · (2 · s⁻¹) and (2 · y) · s⁻¹, agree by commutativity and associativity of the product of
  extended reals once s = scale j + ε is not zero, which the precondition states.
  The three frames: each kernel program by its run through the host slices, the pipelined region and the host
  operations after it; the reference by its run with the result dropped.
-/
import proofs.«182085_j25881472926130_2_alg».proof.Defs
import proofs.«182085_j25881472926130_2_alg».proof.Proof.Gen.Kernel
import proofs.«182085_j25881472926130_2_alg».proof.Proof.Gen.KernelIdeal
import proofs.«182085_j25881472926130_2_alg».proof.Proof.Gen.ReferenceIdeal
import proofs.«182085_j25881472926130_2_alg».proof.Proof.Gen.Pre_finite_inputs
import proofs.«182085_j25881472926130_2_alg».proof.Proof.Gen.ReferenceIdeal.Run
import proofs.«182085_j25881472926130_2_alg».proof.Proof.Gen.ReferenceIdeal.Read
import proofs.«182085_j25881472926130_2_alg».proof.Proof.FrFrame
import proofs.«182085_j25881472926130_2_alg».proof.Proof.BFrFrame
import proofs.«182085_j25881472926130_2_alg».proof.Proof.RefValue
import proofs.«182085_j25881472926130_2_alg».proof.Proof.KvTail
import proofs.«182085_j25881472926130_2_alg».proof.Proof.KvArrays
import proofs.«182085_j25881472926130_2_alg».proof.Proof.KvArrays5
import proofs.«182085_j25881472926130_2_alg».proof.Proof.PreScale
import Idealize.ShloMosaic.Adequacy
import Idealize.ShloMosaic.Init

noncomputable section

namespace Cert.Proof

open Idealize.ShloMosaic Idealize.SL.Sem

/-- The idealized kernel's run ends with the specification in its result. -/
theorem kernel_value [Cert.Pre_finite_inputs.Facts] (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = (fun _ => 1#1)) :
    Cert.KernelIdeal.Tail.tailFn (F := Ideal) (Cert.KernelIdeal.Run.y4 m c) (Cert.KernelIdeal.Run.y5 m c)
        (m ((c.tc : Thread Cert.KernelIdeal.nD Cert.KernelIdeal.τ).loc Cert.KernelIdeal.main_arg2))
      = Cert.Spec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) :=
  Cert.KernelIdeal.Tail.tail_is_G _ _ _ _ _ (Cert.KernelIdeal.Kv.y4_eq m c) (Cert.KernelIdeal.Kv.y5_eq m c)
    (Cert.PreScale.scale_ne _ _ _ hpre)

theorem claim : Cert.Claim := ⟨Cert.Kernel.Gen.facts, Cert.KernelIdeal.Gen.facts, Cert.ReferenceIdeal.Gen.facts, Cert.Pre_finite_inputs.Gen.facts,
  fun m ρ _ => Cert.Kernel.Run.frame m ρ,
  fun m ρ _ => Cert.KernelIdeal.Run.frame m ρ,
  fun m ρ _ => (θ_run Cert.ReferenceIdeal.defs _ _).mono (fun _ h c => (h c).2) (Cert.ReferenceIdeal.Value.run (F := Ideal) m ρ),
  trivial,
  fun m ρ m' ρ' hpre hagree =>
    ⟨fun c => Cert.Spec.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
     (θ_run Cert.KernelIdeal.defs _ _).mono (fun _ h c => ⟨(h c).1.trans (kernel_value m c (hpre c)), (h c).2⟩)
       (Cert.KernelIdeal.Run.run_post (F := Ideal) m ρ),
     (θ_run Cert.ReferenceIdeal.defs _ _).mono (fun _ h c =>
        ⟨by rw [(h c).1, Cert.ReferenceIdeal.Read.val_main_v30_eq, Cert.RefValue.ref_is_G, (hagree c).1, (hagree c).2.1, (hagree c).2.2], (h c).2⟩)
       (Cert.ReferenceIdeal.Value.run (F := Ideal) m' ρ')⟩⟩

end Cert.Proof

end
